-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S20000000 : Shape := ⟨1, ![20000000]⟩
abbrev S995904 : Shape := ⟨1, ![995904]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S20000000 : S_.BroadcastsInDim S20000000 (![] : Fin 0 → Fin S20000000.rank)
  reducesTo_S20000000_S_d0 : S20000000.ReducesTo [0] S_
  bcast_S_S995904 : S_.BroadcastsInDim S995904 (![] : Fin 0 → Fin S995904.rank)
  reducesTo_S995904_S_d0 : S995904.ReducesTo [0] S_

variable [Facts]

def fn {F : FTy → Type} [FloatOps F] (main_arg0 : FVec F S4096 .f32) (main_arg1 : FVec F S20000000 .f32) (main_arg2 : FVec F S995904 .f32) (main_arg3 : IVec S20000000 32) (main_arg4 : IVec S20000000 32) (main_arg5 : IVec S4096 32) (main_arg6 : IVec S4096 32) (main_arg7 : IVec S995904 32) : IVec S_ 1 :=
  let main_v0 : FVec F S4096 .f32 := Host.absf main_arg0
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_v4 : FVec F S20000000 .f32 := Host.absf main_arg1
  let main_cst_0 : FVec F S_ .f32 := constant S_ .f32 0x7F800000#32
  let main_v5 : FVec F S20000000 .f32 := broadcastInDim S20000000 ![] bcast_S_S20000000 main_cst_0
  let main_v6 : IVec S20000000 1 := cmpf .olt main_v4 main_v5
  let main_c_1 : IVec S_ 1 := constantI S_ 1 1#1
  let main_v7 : IVec S_ 1 := (fun x v => Host.reduce IntOp.andi x v reducesTo_S20000000_S_d0 h_S_) main_v6 main_c_1
  let main_v8 : IVec S_ 1 := andi main_v3 main_v7
  let main_v9 : FVec F S995904 .f32 := Host.absf main_arg2
  let main_cst_2 : FVec F S_ .f32 := constant S_ .f32 0x7F800000#32
  let main_v10 : FVec F S995904 .f32 := broadcastInDim S995904 ![] bcast_S_S995904 main_cst_2
  let main_v11 : IVec S995904 1 := cmpf .olt main_v9 main_v10
  let main_c_3 : IVec S_ 1 := constantI S_ 1 1#1
  let main_v12 : IVec S_ 1 := (fun x v => Host.reduce IntOp.andi x v reducesTo_S995904_S_d0 h_S_) main_v11 main_c_3
  let main_v13 : IVec S_ 1 := andi main_v8 main_v12
  main_v13
-- ==== Kernel.lean ====
abbrev S4096 : Shape := ⟨1, ![4096]⟩
abbrev S20000000 : Shape := ⟨1, ![20000000]⟩
abbrev S995904 : Shape := ⟨1, ![995904]⟩
abbrev S_ : Shape := ⟨0, ![]⟩
abbrev S1000000 : Shape := ⟨1, ![1000000]⟩
abbrev S4096x1 : Shape := ⟨2, ![4096, 1]⟩
abbrev S995904x1 : Shape := ⟨2, ![995904, 1]⟩
abbrev S20000000x1 : Shape := ⟨2, ![20000000, 1]⟩
abbrev S20971520 : Shape := ⟨1, ![20971520]⟩
abbrev S163840x128 : Shape := ⟨2, ![163840, 128]⟩
abbrev S8192x128 : Shape := ⟨2, ![8192, 128]⟩
abbrev S1000064 : Shape := ⟨1, ![1000064]⟩
abbrev S7813x128 : Shape := ⟨2, ![7813, 128]⟩

abbrev nBuf : Space → Nat
  | .hbm => 169
  | .vmem => 30
  | .smem => 0
  | _ => 0

abbrev hbmTy0_0 (i : Nat) : BufTy := match i % 128 with
  | 0 => ⟨S4096, .f32⟩
  | 1 => ⟨S20000000, .f32⟩
  | 2 => ⟨S995904, .f32⟩
  | 3 => ⟨S20000000, .i32⟩
  | 4 => ⟨S20000000, .i32⟩
  | 5 => ⟨S4096, .i32⟩
  | 6 => ⟨S4096, .i32⟩
  | 7 => ⟨S995904, .i32⟩
  | 8 => ⟨S_, .f32⟩
  | 9 => ⟨S1000000, .f32⟩
  | 10 => ⟨S_, .i32⟩
  | 11 => ⟨S4096, .i32⟩
  | 12 => ⟨S4096, .i1⟩
  | 13 => ⟨S_, .i32⟩
  | 14 => ⟨S4096, .i32⟩
  | 15 => ⟨S4096, .i32⟩
  | 16 => ⟨S4096, .i32⟩
  | 17 => ⟨S4096x1, .i32⟩
  | 18 => ⟨S1000000, .f32⟩
  | 19 => ⟨S_, .i32⟩
  | 20 => ⟨S1000000, .i32⟩
  | 21 => ⟨S_, .i32⟩
  | 22 => ⟨S4096, .i32⟩
  | 23 => ⟨S4096, .i1⟩
  | 24 => ⟨S_, .i32⟩
  | 25 => ⟨S4096, .i32⟩
  | 26 => ⟨S4096, .i32⟩
  | 27 => ⟨S4096, .i32⟩
  | 28 => ⟨S4096x1, .i32⟩
  | 29 => ⟨S_, .i32⟩
  | 30 => ⟨S4096, .i32⟩
  | 31 => ⟨S1000000, .i32⟩
  | 32 => ⟨S_, .f32⟩
  | 33 => ⟨S1000000, .f32⟩
  | 34 => ⟨S_, .i32⟩
  | 35 => ⟨S995904, .i32⟩
  | 36 => ⟨S995904, .i1⟩
  | 37 => ⟨S_, .i32⟩
  | 38 => ⟨S995904, .i32⟩
  | 39 => ⟨S995904, .i32⟩
  | 40 => ⟨S995904, .i32⟩
  | 41 => ⟨S995904x1, .i32⟩
  | 42 => ⟨S1000000, .f32⟩
  | 43 => ⟨S_, .i32⟩
  | 44 => ⟨S20000000, .i32⟩
  | 45 => ⟨S20000000, .i1⟩
  | 46 => ⟨S_, .i32⟩
  | 47 => ⟨S20000000, .i32⟩
  | 48 => ⟨S20000000, .i32⟩
  | 49 => ⟨S20000000, .i32⟩
  | 50 => ⟨S20000000x1, .i32⟩
  | 51 => ⟨S20000000, .f32⟩
  | 52 => ⟨S_, .i32⟩
  | 53 => ⟨S_, .f32⟩
  | 54 => ⟨S20971520, .f32⟩
  | 55 => ⟨S_, .i32⟩
  | 56 => ⟨S_, .f32⟩
  | 57 => ⟨S20971520, .f32⟩
  | 58 => ⟨S163840x128, .f32⟩
  | 59 => ⟨S163840x128, .f32⟩
  | 60 => ⟨S163840x128, .f32⟩
  | 61 => ⟨S20971520, .f32⟩
  | 62 => ⟨S20000000, .f32⟩
  | 63 => ⟨S_, .f32⟩
  | 64 => ⟨S1000000, .f32⟩
  | 65 => ⟨S20000000x1, .i32⟩
  | 66 => ⟨S1000000, .f32⟩
  | 67 => ⟨S_, .i32⟩
  | 68 => ⟨S_, .f32⟩
  | 69 => ⟨S1000064, .f32⟩
  | 70 => ⟨S_, .i32⟩
  | 71 => ⟨S_, .f32⟩
  | 72 => ⟨S1000064, .f32⟩
  | 73 => ⟨S_, .i32⟩
  | 74 => ⟨S_, .i32⟩
  | 75 => ⟨S1000064, .i32⟩
  | 76 => ⟨S7813x128, .f32⟩
  | 77 => ⟨S7813x128, .f32⟩
  | 78 => ⟨S7813x128, .i32⟩
  | 79 => ⟨S7813x128, .f32⟩
  | 80 => ⟨S1000064, .f32⟩
  | 81 => ⟨S1000000, .f32⟩
  | 82 => ⟨S_, .i32⟩
  | 83 => ⟨S20000000, .i32⟩
  | 84 => ⟨S20000000, .i1⟩
  | 85 => ⟨S_, .i32⟩
  | 86 => ⟨S20000000, .i32⟩
  | 87 => ⟨S20000000, .i32⟩
  | 88 => ⟨S20000000, .i32⟩
  | 89 => ⟨S20000000x1, .i32⟩
  | 90 => ⟨S20000000, .f32⟩
  | 91 => ⟨S_, .i32⟩
  | 92 => ⟨S_, .f32⟩
  | 93 => ⟨S20971520, .f32⟩
  | 94 => ⟨S_, .i32⟩
  | 95 => ⟨S_, .f32⟩
  | 96 => ⟨S20971520, .f32⟩
  | 97 => ⟨S163840x128, .f32⟩
  | 98 => ⟨S163840x128, .f32⟩
  | 99 => ⟨S163840x128, .f32⟩
  | 100 => ⟨S20971520, .f32⟩
  | 101 => ⟨S20000000, .f32⟩
  | 102 => ⟨S_, .f32⟩
  | 103 => ⟨S1000000, .f32⟩
  | 104 => ⟨S20000000x1, .i32⟩
  | 105 => ⟨S1000000, .f32⟩
  | 106 => ⟨S_, .i32⟩
  | 107 => ⟨S_, .f32⟩
  | 108 => ⟨S1000064, .f32⟩
  | 109 => ⟨S_, .i32⟩
  | 110 => ⟨S_, .f32⟩
  | 111 => ⟨S1000064, .f32⟩
  | 112 => ⟨S_, .i32⟩
  | 113 => ⟨S_, .i32⟩
  | 114 => ⟨S1000064, .i32⟩
  | 115 => ⟨S7813x128, .f32⟩
  | 116 => ⟨S7813x128, .f32⟩
  | 117 => ⟨S7813x128, .i32⟩
  | 118 => ⟨S7813x128, .f32⟩
  | 119 => ⟨S1000064, .f32⟩
  | 120 => ⟨S1000000, .f32⟩
  | 121 => ⟨S_, .i32⟩
  | 122 => ⟨S20000000, .i32⟩
  | 123 => ⟨S20000000, .i1⟩
  | 124 => ⟨S_, .i32⟩
  | 125 => ⟨S20000000, .i32⟩
  | 126 => ⟨S20000000, .i32⟩
  | 127 => ⟨S20000000, .i32⟩
  | _ => ⟨S4096, .f32⟩

abbrev hbmTy0_1 (i : Nat) : BufTy := match i % 128 with
  | 0 => ⟨S20000000x1, .i32⟩
  | 1 => ⟨S20000000, .f32⟩
  | 2 => ⟨S_, .i32⟩
  | 3 => ⟨S_, .f32⟩
  | 4 => ⟨S20971520, .f32⟩
  | 5 => ⟨S_, .i32⟩
  | 6 => ⟨S_, .f32⟩
  | 7 => ⟨S20971520, .f32⟩
  | 8 => ⟨S163840x128, .f32⟩
  | 9 => ⟨S163840x128, .f32⟩
  | 10 => ⟨S163840x128, .f32⟩
  | 11 => ⟨S20971520, .f32⟩
  | 12 => ⟨S20000000, .f32⟩
  | 13 => ⟨S_, .f32⟩
  | 14 => ⟨S1000000, .f32⟩
  | 15 => ⟨S20000000x1, .i32⟩
  | 16 => ⟨S1000000, .f32⟩
  | 17 => ⟨S_, .i32⟩
  | 18 => ⟨S_, .f32⟩
  | 19 => ⟨S1000064, .f32⟩
  | 20 => ⟨S_, .i32⟩
  | 21 => ⟨S_, .f32⟩
  | 22 => ⟨S1000064, .f32⟩
  | 23 => ⟨S_, .i32⟩
  | 24 => ⟨S_, .i32⟩
  | 25 => ⟨S1000064, .i32⟩
  | 26 => ⟨S7813x128, .f32⟩
  | 27 => ⟨S7813x128, .f32⟩
  | 28 => ⟨S7813x128, .i32⟩
  | 29 => ⟨S7813x128, .f32⟩
  | 30 => ⟨S1000064, .f32⟩
  | 31 => ⟨S1000000, .f32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S4096x1, .i32⟩
  | 40 => ⟨S4096, .f32⟩
  | _ => ⟨S4096, .f32⟩

abbrev hbmTy (i : Nat) : BufTy := match i / 128 with
  | 0 => hbmTy0_0 i
  | 1 => hbmTy0_1 i
  | _ => ⟨S4096, .f32⟩

abbrev bufTy : (tb : Table) → Fin (tcTables nBuf tb) → BufTy
  | .hbm, ⟨i, _⟩ => hbmTy i
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S7813x128, .f32⟩
  | .local _ .vmem, ⟨7, _⟩ => ⟨S7813x128, .f32⟩
  | .local _ .vmem, ⟨8, _⟩ => ⟨S7813x128, .i32⟩
  | .local _ .vmem, ⟨9, _⟩ => ⟨S7813x128, .f32⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | .local _ .vmem, ⟨13, _⟩ => ⟨S8192x128, .f32⟩
  | .local _ .vmem, ⟨14, _⟩ => ⟨S8192x128, .f32⟩
  | .local _ .vmem, ⟨15, _⟩ => ⟨S8192x128, .f32⟩
  | .local _ .vmem, ⟨16, _⟩ => ⟨S7813x128, .f32⟩
  | .local _ .vmem, ⟨17, _⟩ => ⟨S7813x128, .f32⟩
  | .local _ .vmem, ⟨18, _⟩ => ⟨S7813x128, .i32⟩
  | .local _ .vmem, ⟨19, _⟩ => ⟨S7813x128, .f32⟩
  | .local _ .vmem, ⟨20, _⟩ => ⟨S8192x128, .f32⟩
  | .local _ .vmem, ⟨21, _⟩ => ⟨S8192x128, .f32⟩
  | .local _ .vmem, ⟨22, _⟩ => ⟨S8192x128, .f32⟩
  | .local _ .vmem, ⟨23, _⟩ => ⟨S8192x128, .f32⟩
  | .local _ .vmem, ⟨24, _⟩ => ⟨S8192x128, .f32⟩
  | .local _ .vmem, ⟨25, _⟩ => ⟨S8192x128, .f32⟩
  | .local _ .vmem, ⟨26, _⟩ => ⟨S7813x128, .f32⟩
  | .local _ .vmem, ⟨27, _⟩ => ⟨S7813x128, .f32⟩
  | .local _ .vmem, ⟨28, _⟩ => ⟨S7813x128, .i32⟩
  | .local _ .vmem, ⟨29, _⟩ => ⟨S7813x128, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_c_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_c_6 : Ref sig .tc := ⟨.hbm, 34, rfl⟩
abbrev main_v18 : Ref sig .tc := ⟨.hbm, 35, rfl⟩
abbrev main_v19 : Ref sig .tc := ⟨.hbm, 36, rfl⟩
abbrev main_c_7 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_8 : Ref sig .tc := ⟨.hbm, 43, rfl⟩
abbrev main_v25 : Ref sig .tc := ⟨.hbm, 44, rfl⟩
abbrev main_v26 : Ref sig .tc := ⟨.hbm, 45, rfl⟩
abbrev main_c_9 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_10 : Ref sig .tc := ⟨.hbm, 52, rfl⟩
abbrev main_call0_v0 : Ref sig .tc := ⟨.hbm, 53, rfl⟩
abbrev main_v32 : Ref sig .tc := ⟨.hbm, 54, rfl⟩
abbrev main_c_11 : Ref sig .tc := ⟨.hbm, 55, rfl⟩
abbrev main_call1_v0 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_12 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_13 : Ref sig .tc := ⟨.hbm, 67, rfl⟩
abbrev main_call2_v0 : Ref sig .tc := ⟨.hbm, 68, rfl⟩
abbrev main_v42 : Ref sig .tc := ⟨.hbm, 69, rfl⟩
abbrev main_c_14 : Ref sig .tc := ⟨.hbm, 70, rfl⟩
abbrev main_call3_v0 : Ref sig .tc := ⟨.hbm, 71, rfl⟩
abbrev main_v43 : Ref sig .tc := ⟨.hbm, 72, rfl⟩
abbrev main_c_15 : Ref sig .tc := ⟨.hbm, 73, rfl⟩
abbrev main_call4_v0 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_c_16 : Ref sig .tc := ⟨.hbm, 82, rfl⟩
abbrev main_v51 : Ref sig .tc := ⟨.hbm, 83, rfl⟩
abbrev main_v52 : Ref sig .tc := ⟨.hbm, 84, rfl⟩
abbrev main_c_17 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_c_18 : Ref sig .tc := ⟨.hbm, 91, rfl⟩
abbrev main_call5_v0 : Ref sig .tc := ⟨.hbm, 92, rfl⟩
abbrev main_v58 : Ref sig .tc := ⟨.hbm, 93, rfl⟩
abbrev main_c_19 : Ref sig .tc := ⟨.hbm, 94, rfl⟩
abbrev main_call6_v0 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_20 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_c_21 : Ref sig .tc := ⟨.hbm, 106, rfl⟩
abbrev main_call7_v0 : Ref sig .tc := ⟨.hbm, 107, rfl⟩
abbrev main_v68 : Ref sig .tc := ⟨.hbm, 108, rfl⟩
abbrev main_c_22 : Ref sig .tc := ⟨.hbm, 109, rfl⟩
abbrev main_call8_v0 : Ref sig .tc := ⟨.hbm, 110, rfl⟩
abbrev main_v69 : Ref sig .tc := ⟨.hbm, 111, rfl⟩
abbrev main_c_23 : Ref sig .tc := ⟨.hbm, 112, rfl⟩
abbrev main_call9_v0 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_c_24 : Ref sig .tc := ⟨.hbm, 121, rfl⟩
abbrev main_v77 : Ref sig .tc := ⟨.hbm, 122, rfl⟩
abbrev main_v78 : Ref sig .tc := ⟨.hbm, 123, rfl⟩
abbrev main_c_25 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_c_26 : Ref sig .tc := ⟨.hbm, 130, rfl⟩
abbrev main_call10_v0 : Ref sig .tc := ⟨.hbm, 131, rfl⟩
abbrev main_v84 : Ref sig .tc := ⟨.hbm, 132, rfl⟩
abbrev main_c_27 : Ref sig .tc := ⟨.hbm, 133, rfl⟩
abbrev main_call11_v0 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_28 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_c_29 : Ref sig .tc := ⟨.hbm, 145, rfl⟩
abbrev main_call12_v0 : Ref sig .tc := ⟨.hbm, 146, rfl⟩
abbrev main_v94 : Ref sig .tc := ⟨.hbm, 147, rfl⟩
abbrev main_c_30 : Ref sig .tc := ⟨.hbm, 148, rfl⟩
abbrev main_call13_v0 : Ref sig .tc := ⟨.hbm, 149, rfl⟩
abbrev main_v95 : Ref sig .tc := ⟨.hbm, 150, rfl⟩
abbrev main_c_31 : Ref sig .tc := ⟨.hbm, 151, rfl⟩
abbrev main_call14_v0 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_c_32 : Ref sig .tc := ⟨.hbm, 160, rfl⟩
abbrev main_v103 : Ref sig .tc := ⟨.hbm, 161, rfl⟩
abbrev main_v104 : Ref sig .tc := ⟨.hbm, 162, rfl⟩
abbrev main_c_33 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg3_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem1_0 : DmaSem sig := 17
abbrev cc3_sem2_0 : DmaSem sig := 18
abbrev cc3_sem3_0 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25
abbrev cc5_sem0_0 : DmaSem sig := 26
abbrev cc5_sem1_0 : DmaSem sig := 27
abbrev cc5_sem2_0 : DmaSem sig := 28
abbrev cc5_sem3_0 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S7813x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S7813x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S7813x128 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S7813x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8192x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S7813x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S7813x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S7813x128 .i32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S7813x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S7813x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S7813x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S7813x128 .i32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S7813x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

class Facts₀ : Prop where
  bcast_S_S1000000 : S_.BroadcastsInDim S1000000 (![] : Fin 0 → Fin S1000000.rank)
  bcast_S_S4096 : S_.BroadcastsInDim S4096 (![] : Fin 0 → Fin S4096.rank)
  bcast_S4096_S4096x1_0 : S4096.BroadcastsInDim S4096x1 (![0] : Fin 1 → Fin S4096x1.rank)
  bcast_S_S995904 : S_.BroadcastsInDim S995904 (![] : Fin 0 → Fin S995904.rank)
  bcast_S995904_S995904x1_0 : S995904.BroadcastsInDim S995904x1 (![0] : Fin 1 → Fin S995904x1.rank)
  bcast_S_S20000000 : S_.BroadcastsInDim S20000000 (![] : Fin 0 → Fin S20000000.rank)
  bcast_S20000000_S20000000x1_0 : S20000000.BroadcastsInDim S20000000x1 (![0] : Fin 1 → Fin S20000000x1.rank)
  pads_S20000000_S20971520_09715200 : S20000000.Pads (![0] : Fin 1 → Nat) ![971520] ![0] S20971520
  h_S_ : 0 < S_.numel
  shapeCasts_S20971520_S163840x128 : S20971520.ShapeCasts S163840x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S163840x128_S20971520 : S163840x128.ShapeCasts S20971520
  slices_S20971520_S20000000_0 : S20971520.Slices ![0] S20000000
  pads_S1000000_S1000064_0640 : S1000000.Pads (![0] : Fin 1 → Nat) ![64] ![0] S1000064
  shapeCasts_S1000064_S7813x128 : S1000064.ShapeCasts S7813x128
  inb_S7813x128_S7813x128_0_0 : ∀ a, (![0, 0] : Fin 2 → Nat) a + S7813x128.size a ≤ S7813x128.size a
  h_S7813x128 : 0 < S7813x128.numel
  shapeCasts_S7813x128_S7813x128 : S7813x128.ShapeCasts S7813x128
  shapeCasts_S7813x128_S1000064 : S7813x128.ShapeCasts S1000064
  slices_S1000064_S1000000_0 : S1000064.Slices ![0] S1000000
  scatter_S1000000_S4096x1_S4096_n_0_0_1_wf : ScatterDims.WF S1000000 S4096x1 S4096 [] [0] [0] 1
  scatter_S1000000_S995904x1_S995904_n_0_0_1_wf : ScatterDims.WF S1000000 S995904x1 S995904 [] [0] [0] 1
  gather_S1000000_S20000000x1_S20000000_n_0_n_n_0_1_1_wf : GatherDims.WF S1000000 S20000000x1 S20000000 [] [0] [] [0] [] 1 ![1]
  scatter_S1000000_S20000000x1_S20000000_n_0_0_1_wf : ScatterDims.WF S1000000 S20000000x1 S20000000 [] [0] [0] 1
  gather_S1000000_S4096x1_S4096_n_0_n_n_0_1_1_wf : GatherDims.WF S1000000 S4096x1 S4096 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S163840x128.size a
  hwx0_0 : ∀ i : grid0.Coords, EltTy.bits .f32 = 32 ∨ (Rect.block (s := S163840x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S163840x128.size a
  hwx0_1 : ∀ i : grid0.Coords, EltTy.bits .f32 = 32 ∨ (Rect.block (s := S163840x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S163840x128.size a
  hwx0_2 : ∀ i : grid0.Coords, EltTy.bits .f32 = 32 ∨ (Rect.block (s := S163840x128) S8192x128.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S7813x128.size a ≤ S7813x128.size a
  hwx1_0 : ∀ i : grid1.Coords, EltTy.bits .f32 = 32 ∨ (Rect.block (s := S7813x128) S7813x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S7813x128.size a ≤ S7813x128.size a
  hwx1_1 : ∀ i : grid1.Coords, EltTy.bits .f32 = 32 ∨ (Rect.block (s := S7813x128) S7813x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S7813x128.size a ≤ S7813x128.size a
  hwx1_2 : ∀ i : grid1.Coords, EltTy.bits .i32 = 32 ∨ (Rect.block (s := S7813x128) S7813x128.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S7813x128.size a ≤ S7813x128.size a
  hwx1_3 : ∀ i : grid1.Coords, EltTy.bits .f32 = 32 ∨ (Rect.block (s := S7813x128) S7813x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x128.size a ≤ S163840x128.size a
  hwx2_0 : ∀ i : grid2.Coords, EltTy.bits .f32 = 32 ∨ (Rect.block (s := S163840x128) S8192x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x128.size a ≤ S163840x128.size a
  hwx2_1 : ∀ i : grid2.Coords, EltTy.bits .f32 = 32 ∨ (Rect.block (s := S163840x128) S8192x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x128.size a ≤ S163840x128.size a
  hwx2_2 : ∀ i : grid2.Coords, EltTy.bits .f32 = 32 ∨ (Rect.block (s := S163840x128) S8192x128.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S7813x128.size a ≤ S7813x128.size a
  hwx3_0 : ∀ i : grid3.Coords, EltTy.bits .f32 = 32 ∨ (Rect.block (s := S7813x128) S7813x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S7813x128.size a ≤ S7813x128.size a
  hwx3_1 : ∀ i : grid3.Coords, EltTy.bits .f32 = 32 ∨ (Rect.block (s := S7813x128) S7813x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S7813x128.size a ≤ S7813x128.size a
  hwx3_2 : ∀ i : grid3.Coords, EltTy.bits .i32 = 32 ∨ (Rect.block (s := S7813x128) S7813x128.size (cc3_transform_2 i) (hinb3_2 i)).WholeWords (EltTy.packing .i32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S7813x128.size a ≤ S7813x128.size a
  hwx3_3 : ∀ i : grid3.Coords, EltTy.bits .f32 = 32 ∨ (Rect.block (s := S7813x128) S7813x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x128.size a ≤ S163840x128.size a
  hwx4_0 : ∀ i : grid4.Coords, EltTy.bits .f32 = 32 ∨ (Rect.block (s := S163840x128) S8192x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x128.size a ≤ S163840x128.size a
  hwx4_1 : ∀ i : grid4.Coords, EltTy.bits .f32 = 32 ∨ (Rect.block (s := S163840x128) S8192x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x128.size a ≤ S163840x128.size a
  hwx4_2 : ∀ i : grid4.Coords, EltTy.bits .f32 = 32 ∨ (Rect.block (s := S163840x128) S8192x128.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S7813x128.size a ≤ S7813x128.size a
  hwx5_0 : ∀ i : grid5.Coords, EltTy.bits .f32 = 32 ∨ (Rect.block (s := S7813x128) S7813x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S7813x128.size a ≤ S7813x128.size a
  hwx5_1 : ∀ i : grid5.Coords, EltTy.bits .f32 = 32 ∨ (Rect.block (s := S7813x128) S7813x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S7813x128.size a ≤ S7813x128.size a
  hwx5_2 : ∀ i : grid5.Coords, EltTy.bits .i32 = 32 ∨ (Rect.block (s := S7813x128) S7813x128.size (cc5_transform_2 i) (hinb5_2 i)).WholeWords (EltTy.packing .i32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S7813x128.size a ≤ S7813x128.size a
  hwx5_3 : ∀ i : grid5.Coords, EltTy.bits .f32 = 32 ∨ (Rect.block (s := S7813x128) S7813x128.size (cc5_transform_3 i) (hinb5_3 i)).WholeWords (EltTy.packing .f32)

variable [Facts₀]

def scatter_S1000000_S4096x1_S4096_n_0_0_1 : ScatterDims S1000000 S4096x1 S4096 where
  updateWindowDims := []
  insertedWindowDims := [0]
  scatterDimsToOperandDims := [0]
  indexVectorDim := 1
  wf := scatter_S1000000_S4096x1_S4096_n_0_0_1_wf
def scatter_S1000000_S995904x1_S995904_n_0_0_1 : ScatterDims S1000000 S995904x1 S995904 where
  updateWindowDims := []
  insertedWindowDims := [0]
  scatterDimsToOperandDims := [0]
  indexVectorDim := 1
  wf := scatter_S1000000_S995904x1_S995904_n_0_0_1_wf
def gather_S1000000_S20000000x1_S20000000_n_0_n_n_0_1_1 : GatherDims S1000000 S20000000x1 S20000000 where
  offsetDims := []
  collapsedSliceDims := [0]
  operandBatchingDims := []
  startIndicesBatchingDims := []
  startIndexMap := [0]
  indexVectorDim := 1
  sliceSizes := ![1]
  wf := gather_S1000000_S20000000x1_S20000000_n_0_n_n_0_1_1_wf
def scatter_S1000000_S20000000x1_S20000000_n_0_0_1 : ScatterDims S1000000 S20000000x1 S20000000 where
  updateWindowDims := []
  insertedWindowDims := [0]
  scatterDimsToOperandDims := [0]
  indexVectorDim := 1
  wf := scatter_S1000000_S20000000x1_S20000000_n_0_0_1_wf
def gather_S1000000_S4096x1_S4096_n_0_n_n_0_1_1 : GatherDims S1000000 S4096x1 S4096 where
  offsetDims := []
  collapsedSliceDims := [0]
  operandBatchingDims := []
  startIndicesBatchingDims := []
  startIndexMap := [0]
  indexVectorDim := 1
  sliceSizes := ![1]
  wf := gather_S1000000_S4096x1_S4096_n_0_n_n_0_1_1_wf

abbrev win0_0 : Pipeline.Window sig grid0 :=
  Pipeline.Window.ofSpec (Memref.whole main_v34) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S7813x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v46) S7813x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S7813x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S7813x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S8192x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S8192x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S8192x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v71) S7813x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v72) S7813x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v73) S7813x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74) S7813x128.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v86) S8192x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v87) S8192x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v88) S8192x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v97) S7813x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v98) S7813x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v99) S7813x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v100) S7813x128.size cc5_transform_3 reads5_3 true true 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S4096 : Shape := ⟨1, ![4096]⟩
abbrev S20000000 : Shape := ⟨1, ![20000000]⟩
abbrev S995904 : Shape := ⟨1, ![995904]⟩
abbrev S_ : Shape := ⟨0, ![]⟩
abbrev S1000000 : Shape := ⟨1, ![1000000]⟩
abbrev S4096x1 : Shape := ⟨2, ![4096, 1]⟩
abbrev S20000000x1 : Shape := ⟨2, ![20000000, 1]⟩
abbrev S995904x1 : Shape := ⟨2, ![995904, 1]⟩

abbrev nBuf : Space → Nat
  | .hbm => 116
  | .vmem => 0
  | .smem => 0
  | _ => 0

abbrev bufTy : (tb : Table) → Fin (tcTables nBuf tb) → BufTy
  | .hbm, ⟨0, _⟩ => ⟨S4096, .f32⟩
  | .hbm, ⟨1, _⟩ => ⟨S20000000, .f32⟩
  | .hbm, ⟨2, _⟩ => ⟨S995904, .f32⟩
  | .hbm, ⟨3, _⟩ => ⟨S20000000, .i32⟩
  | .hbm, ⟨4, _⟩ => ⟨S20000000, .i32⟩
  | .hbm, ⟨5, _⟩ => ⟨S4096, .i32⟩
  | .hbm, ⟨6, _⟩ => ⟨S4096, .i32⟩
  | .hbm, ⟨7, _⟩ => ⟨S995904, .i32⟩
  | .hbm, ⟨8, _⟩ => ⟨S_, .i1⟩
  | .hbm, ⟨9, _⟩ => ⟨S1000000, .i1⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S4096x1, .i32⟩
  | .hbm, ⟨18, _⟩ => ⟨S_, .i1⟩
  | .hbm, ⟨19, _⟩ => ⟨S4096, .i1⟩
  | .hbm, ⟨20, _⟩ => ⟨S1000000, .i1⟩
  | .hbm, ⟨21, _⟩ => ⟨S_, .f32⟩
  | .hbm, ⟨22, _⟩ => ⟨S1000000, .f32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S4096x1, .i32⟩
  | .hbm, ⟨31, _⟩ => ⟨S1000000, .f32⟩
  | .hbm, ⟨32, _⟩ => ⟨S_, .i32⟩
  | .hbm, ⟨33, _⟩ => ⟨S20000000, .i32⟩
  | .hbm, ⟨34, _⟩ => ⟨S20000000, .i1⟩
  | .hbm, ⟨35, _⟩ => ⟨S_, .i32⟩
  | .hbm, ⟨36, _⟩ => ⟨S20000000, .i32⟩
  | .hbm, ⟨37, _⟩ => ⟨S20000000, .i32⟩
  | .hbm, ⟨38, _⟩ => ⟨S20000000, .i32⟩
  | .hbm, ⟨39, _⟩ => ⟨S20000000x1, .i32⟩
  | .hbm, ⟨40, _⟩ => ⟨S20000000, .f32⟩
  | .hbm, ⟨41, _⟩ => ⟨S20000000, .f32⟩
  | .hbm, ⟨42, _⟩ => ⟨S_, .f32⟩
  | .hbm, ⟨43, _⟩ => ⟨S1000000, .f32⟩
  | .hbm, ⟨44, _⟩ => ⟨S20000000x1, .i32⟩
  | .hbm, ⟨45, _⟩ => ⟨S1000000, .f32⟩
  | .hbm, ⟨46, _⟩ => ⟨S_, .i32⟩
  | .hbm, ⟨47, _⟩ => ⟨S995904, .i32⟩
  | .hbm, ⟨48, _⟩ => ⟨S995904, .i1⟩
  | .hbm, ⟨49, _⟩ => ⟨S_, .i32⟩
  | .hbm, ⟨50, _⟩ => ⟨S995904, .i32⟩
  | .hbm, ⟨51, _⟩ => ⟨S995904, .i32⟩
  | .hbm, ⟨52, _⟩ => ⟨S995904, .i32⟩
  | .hbm, ⟨53, _⟩ => ⟨S995904x1, .i32⟩
  | .hbm, ⟨54, _⟩ => ⟨S1000000, .f32⟩
  | .hbm, ⟨55, _⟩ => ⟨S1000000, .f32⟩
  | .hbm, ⟨56, _⟩ => ⟨S1000000, .f32⟩
  | .hbm, ⟨57, _⟩ => ⟨S_, .i32⟩
  | .hbm, ⟨58, _⟩ => ⟨S20000000, .i32⟩
  | .hbm, ⟨59, _⟩ => ⟨S20000000, .i1⟩
  | .hbm, ⟨60, _⟩ => ⟨S_, .i32⟩
  | .hbm, ⟨61, _⟩ => ⟨S20000000, .i32⟩
  | .hbm, ⟨62, _⟩ => ⟨S20000000, .i32⟩
  | .hbm, ⟨63, _⟩ => ⟨S20000000, .i32⟩
  | .hbm, ⟨64, _⟩ => ⟨S20000000x1, .i32⟩
  | .hbm, ⟨65, _⟩ => ⟨S20000000, .f32⟩
  | .hbm, ⟨66, _⟩ => ⟨S20000000, .f32⟩
  | .hbm, ⟨67, _⟩ => ⟨S_, .f32⟩
  | .hbm, ⟨68, _⟩ => ⟨S1000000, .f32⟩
  | .hbm, ⟨69, _⟩ => ⟨S20000000x1, .i32⟩
  | .hbm, ⟨70, _⟩ => ⟨S1000000, .f32⟩
  | .hbm, ⟨71, _⟩ => ⟨S_, .i32⟩
  | .hbm, ⟨72, _⟩ => ⟨S995904, .i32⟩
  | .hbm, ⟨73, _⟩ => ⟨S995904, .i1⟩
  | .hbm, ⟨74, _⟩ => ⟨S_, .i32⟩
  | .hbm, ⟨75, _⟩ => ⟨S995904, .i32⟩
  | .hbm, ⟨76, _⟩ => ⟨S995904, .i32⟩
  | .hbm, ⟨77, _⟩ => ⟨S995904, .i32⟩
  | .hbm, ⟨78, _⟩ => ⟨S995904x1, .i32⟩
  | .hbm, ⟨79, _⟩ => ⟨S1000000, .f32⟩
  | .hbm, ⟨80, _⟩ => ⟨S1000000, .f32⟩
  | .hbm, ⟨81, _⟩ => ⟨S1000000, .f32⟩
  | .hbm, ⟨82, _⟩ => ⟨S_, .i32⟩
  | .hbm, ⟨83, _⟩ => ⟨S20000000, .i32⟩
  | .hbm, ⟨84, _⟩ => ⟨S20000000, .i1⟩
  | .hbm, ⟨85, _⟩ => ⟨S_, .i32⟩
  | .hbm, ⟨86, _⟩ => ⟨S20000000, .i32⟩
  | .hbm, ⟨87, _⟩ => ⟨S20000000, .i32⟩
  | .hbm, ⟨88, _⟩ => ⟨S20000000, .i32⟩
  | .hbm, ⟨89, _⟩ => ⟨S20000000x1, .i32⟩
  | .hbm, ⟨90, _⟩ => ⟨S20000000, .f32⟩
  | .hbm, ⟨91, _⟩ => ⟨S20000000, .f32⟩
  | .hbm, ⟨92, _⟩ => ⟨S_, .f32⟩
  | .hbm, ⟨93, _⟩ => ⟨S1000000, .f32⟩
  | .hbm, ⟨94, _⟩ => ⟨S20000000x1, .i32⟩
  | .hbm, ⟨95, _⟩ => ⟨S1000000, .f32⟩
  | .hbm, ⟨96, _⟩ => ⟨S_, .i32⟩
  | .hbm, ⟨97, _⟩ => ⟨S995904, .i32⟩
  | .hbm, ⟨98, _⟩ => ⟨S995904, .i1⟩
  | .hbm, ⟨99, _⟩ => ⟨S_, .i32⟩
  | .hbm, ⟨100, _⟩ => ⟨S995904, .i32⟩
  | .hbm, ⟨101, _⟩ => ⟨S995904, .i32⟩
  | .hbm, ⟨102, _⟩ => ⟨S995904, .i32⟩
  | .hbm, ⟨103, _⟩ => ⟨S995904x1, .i32⟩
  | .hbm, ⟨104, _⟩ => ⟨S1000000, .f32⟩
  | .hbm, ⟨105, _⟩ => ⟨S1000000, .f32⟩
  | .hbm, ⟨106, _⟩ => ⟨S1000000, .f32⟩
  | .hbm, ⟨107, _⟩ => ⟨S_, .i32⟩
  | .hbm, ⟨108, _⟩ => ⟨S4096, .i32⟩
  | .hbm, ⟨109, _⟩ => ⟨S4096, .i1⟩
  | .hbm, ⟨110, _⟩ => ⟨S_, .i32⟩
  | .hbm, ⟨111, _⟩ => ⟨S4096, .i32⟩
  | .hbm, ⟨112, _⟩ => ⟨S4096, .i32⟩
  | .hbm, ⟨113, _⟩ => ⟨S4096, .i32⟩
  | .hbm, ⟨114, _⟩ => ⟨S4096x1, .i32⟩
  | .hbm, ⟨115, _⟩ => ⟨S4096, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_c_0 : Ref sig .tc := ⟨.hbm, 10, rfl⟩
abbrev main_v1 : Ref sig .tc := ⟨.hbm, 11, rfl⟩
abbrev main_v2 : Ref sig .tc := ⟨.hbm, 12, rfl⟩
abbrev main_c_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_c_3 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_5 : Ref sig .tc := ⟨.hbm, 32, rfl⟩
abbrev main_v17 : Ref sig .tc := ⟨.hbm, 33, rfl⟩
abbrev main_v18 : Ref sig .tc := ⟨.hbm, 34, rfl⟩
abbrev main_c_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_8 : Ref sig .tc := ⟨.hbm, 46, rfl⟩
abbrev main_v28 : Ref sig .tc := ⟨.hbm, 47, rfl⟩
abbrev main_v29 : Ref sig .tc := ⟨.hbm, 48, rfl⟩
abbrev main_c_9 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_10 : Ref sig .tc := ⟨.hbm, 57, rfl⟩
abbrev main_v37 : Ref sig .tc := ⟨.hbm, 58, rfl⟩
abbrev main_v38 : Ref sig .tc := ⟨.hbm, 59, rfl⟩
abbrev main_c_11 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_12 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_13 : Ref sig .tc := ⟨.hbm, 71, rfl⟩
abbrev main_v48 : Ref sig .tc := ⟨.hbm, 72, rfl⟩
abbrev main_v49 : Ref sig .tc := ⟨.hbm, 73, rfl⟩
abbrev main_c_14 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_15 : Ref sig .tc := ⟨.hbm, 82, rfl⟩
abbrev main_v57 : Ref sig .tc := ⟨.hbm, 83, rfl⟩
abbrev main_v58 : Ref sig .tc := ⟨.hbm, 84, rfl⟩
abbrev main_c_16 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_17 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_18 : Ref sig .tc := ⟨.hbm, 96, rfl⟩
abbrev main_v68 : Ref sig .tc := ⟨.hbm, 97, rfl⟩
abbrev main_v69 : Ref sig .tc := ⟨.hbm, 98, rfl⟩
abbrev main_c_19 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_20 : Ref sig .tc := ⟨.hbm, 107, rfl⟩
abbrev main_v77 : Ref sig .tc := ⟨.hbm, 108, rfl⟩
abbrev main_v78 : Ref sig .tc := ⟨.hbm, 109, rfl⟩
abbrev main_c_21 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S4096 : S_.BroadcastsInDim S4096 (![] : Fin 0 → Fin S4096.rank)
  bcast_S4096_S4096x1_0 : S4096.BroadcastsInDim S4096x1 (![0] : Fin 1 → Fin S4096x1.rank)
  bcast_S_S20000000 : S_.BroadcastsInDim S20000000 (![] : Fin 0 → Fin S20000000.rank)
  bcast_S20000000_S20000000x1_0 : S20000000.BroadcastsInDim S20000000x1 (![0] : Fin 1 → Fin S20000000x1.rank)
  bcast_S_S995904 : S_.BroadcastsInDim S995904 (![] : Fin 0 → Fin S995904.rank)
  bcast_S995904_S995904x1_0 : S995904.BroadcastsInDim S995904x1 (![0] : Fin 1 → Fin S995904x1.rank)
  scatter_S1000000_S4096x1_S4096_n_0_0_1_wf : ScatterDims.WF S1000000 S4096x1 S4096 [] [0] [0] 1
  gather_S1000000_S20000000x1_S20000000_n_0_n_n_0_1_1_wf : GatherDims.WF S1000000 S20000000x1 S20000000 [] [0] [] [0] [] 1 ![1]
  scatter_S1000000_S20000000x1_S20000000_n_0_0_1_wf : ScatterDims.WF S1000000 S20000000x1 S20000000 [] [0] [0] 1
  scatter_S1000000_S995904x1_S995904_n_0_0_1_wf : ScatterDims.WF S1000000 S995904x1 S995904 [] [0] [0] 1
  gather_S1000000_S4096x1_S4096_n_0_n_n_0_1_1_wf : GatherDims.WF S1000000 S4096x1 S4096 [] [0] [] [0] [] 1 ![1]

variable [Facts₀]

def scatter_S1000000_S4096x1_S4096_n_0_0_1 : ScatterDims S1000000 S4096x1 S4096 where
  updateWindowDims := []
  insertedWindowDims := [0]
  scatterDimsToOperandDims := [0]
  indexVectorDim := 1
  wf := scatter_S1000000_S4096x1_S4096_n_0_0_1_wf
def gather_S1000000_S20000000x1_S20000000_n_0_n_n_0_1_1 : GatherDims S1000000 S20000000x1 S20000000 where
  offsetDims := []
  collapsedSliceDims := [0]
  operandBatchingDims := []
  startIndicesBatchingDims := []
  startIndexMap := [0]
  indexVectorDim := 1
  sliceSizes := ![1]
  wf := gather_S1000000_S20000000x1_S20000000_n_0_n_n_0_1_1_wf
def scatter_S1000000_S20000000x1_S20000000_n_0_0_1 : ScatterDims S1000000 S20000000x1 S20000000 where
  updateWindowDims := []
  insertedWindowDims := [0]
  scatterDimsToOperandDims := [0]
  indexVectorDim := 1
  wf := scatter_S1000000_S20000000x1_S20000000_n_0_0_1_wf
def scatter_S1000000_S995904x1_S995904_n_0_0_1 : ScatterDims S1000000 S995904x1 S995904 where
  updateWindowDims := []
  insertedWindowDims := [0]
  scatterDimsToOperandDims := [0]
  indexVectorDim := 1
  wf := scatter_S1000000_S995904x1_S995904_n_0_0_1_wf
def gather_S1000000_S4096x1_S4096_n_0_n_n_0_1_1 : GatherDims S1000000 S4096x1 S4096 where
  offsetDims := []
  collapsedSliceDims := [0]
  operandBatchingDims := []
  startIndicesBatchingDims := []
  startIndexMap := [0]
  indexVectorDim := 1
  sliceSizes := ![1]
  wf := gather_S1000000_S4096x1_S4096_n_0_n_n_0_1_1_wf

class Facts : Prop extends Facts₀ where

variable [Facts]
-- ==== Proof.RefOps.lean ====
/-
  The idealized reference's @main as a line of host operations, cut into five stretches — the marks and the initial
  state; the three network steps; the closing gather — and its run: every weakly fair execution terminates with each
  buffer at the fold of the operations' results over its launch contents.
-/
import proofs.«144078_j73942156967974_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 108 operations, in order (a called function's operation stands in its call's place). -/
abbrev ops : List (HloOp τ sig (Elt F)) :=
  [ nullary main_c (constantI S_ 1 0#1),
    unary main_c main_v0 (broadcastInDim S1000000 ![] bcast_S_S1000000 : (⟨S_, .i1⟩ : BufTy).Contents (Elt F) → (⟨S1000000, .i1⟩ : BufTy).Contents (Elt F)),
    nullary main_c_0 (constantI S_ 32 0#32),
    unary main_c_0 main_v1 (broadcastInDim S4096 ![] bcast_S_S4096 : (⟨S_, .i32⟩ : BufTy).Contents (Elt F) → (⟨S4096, .i32⟩ : BufTy).Contents (Elt F)),
    binary main_arg6 main_v1 main_v2 (cmpi .slt : (⟨S4096, .i32⟩ : BufTy).Contents (Elt F) → (⟨S4096, .i32⟩ : BufTy).Contents (Elt F) → (⟨S4096, .i1⟩ : BufTy).Contents (Elt F)),
    nullary main_c_1 (constantI S_ 32 1000000#32),
    unary main_c_1 main_v3 (broadcastInDim S4096 ![] bcast_S_S4096 : (⟨S_, .i32⟩ : BufTy).Contents (Elt F) → (⟨S4096, .i32⟩ : BufTy).Contents (Elt F)),
    binary main_arg6 main_v3 main_v4 (addi : (⟨S4096, .i32⟩ : BufTy).Contents (Elt F) → (⟨S4096, .i32⟩ : BufTy).Contents (Elt F) → (⟨S4096, .i32⟩ : BufTy).Contents (Elt F)),
    ternary main_v2 main_v4 main_arg6 main_v5 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v5 main_v6 (broadcastInDim S4096x1 ![0] bcast_S4096_S4096x1_0 : (⟨S4096, .i32⟩ : BufTy).Contents (Elt F) → (⟨S4096x1, .i32⟩ : BufTy).Contents (Elt F)),
    nullary main_c_2 (constantI S_ 1 1#1),
    unary main_c_2 main_v7 (broadcastInDim S4096 ![] bcast_S_S4096 : (⟨S_, .i1⟩ : BufTy).Contents (Elt F) → (⟨S4096, .i1⟩ : BufTy).Contents (Elt F)),
    ternary main_v0 main_v6 main_v7 main_v8 ((fun x i u => Host.scatter scatter_S1000000_S4096x1_S4096_n_0_0_1 (fun _ b => b) x i u) : (⟨S1000000, .i1⟩ : BufTy).Contents (Elt F) → (⟨S4096x1, .i32⟩ : BufTy).Contents (Elt F) → (⟨S4096, .i1⟩ : BufTy).Contents (Elt F) → (⟨S1000000, .i1⟩ : BufTy).Contents (Elt F)),
    nullary main_cst (constant S_ .f32 0x00000000#32),
    unary main_cst main_v9 (broadcastInDim S1000000 ![] bcast_S_S1000000 : (⟨S_, .f32⟩ : BufTy).Contents (Elt F) → (⟨S1000000, .f32⟩ : BufTy).Contents (Elt F)),
    nullary main_c_3 (constantI S_ 32 0#32),
    unary main_c_3 main_v10 (broadcastInDim S4096 ![] bcast_S_S4096 : (⟨S_, .i32⟩ : BufTy).Contents (Elt F) → (⟨S4096, .i32⟩ : BufTy).Contents (Elt F)),
    binary main_arg5 main_v10 main_v11 (cmpi .slt : (⟨S4096, .i32⟩ : BufTy).Contents (Elt F) → (⟨S4096, .i32⟩ : BufTy).Contents (Elt F) → (⟨S4096, .i1⟩ : BufTy).Contents (Elt F)),
    nullary main_c_4 (constantI S_ 32 1000000#32),
    unary main_c_4 main_v12 (broadcastInDim S4096 ![] bcast_S_S4096 : (⟨S_, .i32⟩ : BufTy).Contents (Elt F) → (⟨S4096, .i32⟩ : BufTy).Contents (Elt F)),
    binary main_arg5 main_v12 main_v13 (addi : (⟨S4096, .i32⟩ : BufTy).Contents (Elt F) → (⟨S4096, .i32⟩ : BufTy).Contents (Elt F) → (⟨S4096, .i32⟩ : BufTy).Contents (Elt F)),
    ternary main_v11 main_v13 main_arg5 main_v14 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v14 main_v15 (broadcastInDim S4096x1 ![0] bcast_S4096_S4096x1_0 : (⟨S4096, .i32⟩ : BufTy).Contents (Elt F) → (⟨S4096x1, .i32⟩ : BufTy).Contents (Elt F)),
    ternary main_v9 main_v15 main_arg0 main_v16 ((fun x i u => Host.scatter scatter_S1000000_S4096x1_S4096_n_0_0_1 (fun _ b => b) x i u) : (⟨S1000000, .f32⟩ : BufTy).Contents (Elt F) → (⟨S4096x1, .i32⟩ : BufTy).Contents (Elt F) → (⟨S4096, .f32⟩ : BufTy).Contents (Elt F) → (⟨S1000000, .f32⟩ : BufTy).Contents (Elt F)),
    nullary main_c_5 (constantI S_ 32 0#32),
    unary main_c_5 main_v17 (broadcastInDim S20000000 ![] bcast_S_S20000000 : (⟨S_, .i32⟩ : BufTy).Contents (Elt F) → (⟨S20000000, .i32⟩ : BufTy).Contents (Elt F)),
    binary main_arg3 main_v17 main_v18 (cmpi .slt : (⟨S20000000, .i32⟩ : BufTy).Contents (Elt F) → (⟨S20000000, .i32⟩ : BufTy).Contents (Elt F) → (⟨S20000000, .i1⟩ : BufTy).Contents (Elt F)),
    nullary main_c_6 (constantI S_ 32 1000000#32),
    unary main_c_6 main_v19 (broadcastInDim S20000000 ![] bcast_S_S20000000 : (⟨S_, .i32⟩ : BufTy).Contents (Elt F) → (⟨S20000000, .i32⟩ : BufTy).Contents (Elt F)),
    binary main_arg3 main_v19 main_v20 (addi : (⟨S20000000, .i32⟩ : BufTy).Contents (Elt F) → (⟨S20000000, .i32⟩ : BufTy).Contents (Elt F) → (⟨S20000000, .i32⟩ : BufTy).Contents (Elt F)),
    ternary main_v18 main_v20 main_arg3 main_v21 (select : (⟨S20000000, .i1⟩ : BufTy).Contents (Elt F) → (⟨S20000000, .i32⟩ : BufTy).Contents (Elt F) → (⟨S20000000, .i32⟩ : BufTy).Contents (Elt F) → (⟨S20000000, .i32⟩ : BufTy).Contents (Elt F)),
    unary main_v21 main_v22 (broadcastInDim S20000000x1 ![0] bcast_S20000000_S20000000x1_0 : (⟨S20000000, .i32⟩ : BufTy).Contents (Elt F) → (⟨S20000000x1, .i32⟩ : BufTy).Contents (Elt F)),
    binary main_v16 main_v22 main_v23 ((fun x i => Host.gather gather_S1000000_S20000000x1_S20000000_n_0_n_n_0_1_1 x i) : (⟨S1000000, .f32⟩ : BufTy).Contents (Elt F) → (⟨S20000000x1, .i32⟩ : BufTy).Contents (Elt F) → (⟨S20000000, .f32⟩ : BufTy).Contents (Elt F)),
    binary main_v23 main_arg1 main_v24 (mulf : (⟨S20000000, .f32⟩ : BufTy).Contents (Elt F) → (⟨S20000000, .f32⟩ : BufTy).Contents (Elt F) → (⟨S20000000, .f32⟩ : BufTy).Contents (Elt F)),
    nullary main_cst_7 (constant S_ .f32 0x00000000#32),
    unary main_cst_7 main_v25 (broadcastInDim S1000000 ![] bcast_S_S1000000 : (⟨S_, .f32⟩ : BufTy).Contents (Elt F) → (⟨S1000000, .f32⟩ : BufTy).Contents (Elt F)),
    unary main_arg4 main_v26 (broadcastInDim S20000000x1 ![0] bcast_S20000000_S20000000x1_0 : (⟨S20000000, .i32⟩ : BufTy).Contents (Elt F) → (⟨S20000000x1, .i32⟩ : BufTy).Contents (Elt F)),
    ternary main_v25 main_v26 main_v24 main_v27 ((fun x i u => Host.scatterAdd scatter_S1000000_S20000000x1_S20000000_n_0_0_1 x i u) : (⟨S1000000, .f32⟩ : BufTy).Contents (Elt F) → (⟨S20000000x1, .i32⟩ : BufTy).Contents (Elt F) → (⟨S20000000, .f32⟩ : BufTy).Contents (Elt F) → (⟨S1000000, .f32⟩ : BufTy).Contents (Elt F)),
    nullary main_c_8 (constantI S_ 32 0#32),
    unary main_c_8 main_v28 (broadcastInDim S995904 ![] bcast_S_S995904 : (⟨S_, .i32⟩ : BufTy).Contents (Elt F) → (⟨S995904, .i32⟩ : BufTy).Contents (Elt F)),
    binary main_arg7 main_v28 main_v29 (cmpi .slt : (⟨S995904, .i32⟩ : BufTy).Contents (Elt F) → (⟨S995904, .i32⟩ : BufTy).Contents (Elt F) → (⟨S995904, .i1⟩ : BufTy).Contents (Elt F)),
    nullary main_c_9 (constantI S_ 32 1000000#32),
    unary main_c_9 main_v30 (broadcastInDim S995904 ![] bcast_S_S995904 : (⟨S_, .i32⟩ : BufTy).Contents (Elt F) → (⟨S995904, .i32⟩ : BufTy).Contents (Elt F)),
    binary main_arg7 main_v30 main_v31 (addi : (⟨S995904, .i32⟩ : BufTy).Contents (Elt F) → (⟨S995904, .i32⟩ : BufTy).Contents (Elt F) → (⟨S995904, .i32⟩ : BufTy).Contents (Elt F)),
    ternary main_v29 main_v31 main_arg7 main_v32 (select : (⟨S995904, .i1⟩ : BufTy).Contents (Elt F) → (⟨S995904, .i32⟩ : BufTy).Contents (Elt F) → (⟨S995904, .i32⟩ : BufTy).Contents (Elt F) → (⟨S995904, .i32⟩ : BufTy).Contents (Elt F)),
    unary main_v32 main_v33 (broadcastInDim S995904x1 ![0] bcast_S995904_S995904x1_0 : (⟨S995904, .i32⟩ : BufTy).Contents (Elt F) → (⟨S995904x1, .i32⟩ : BufTy).Contents (Elt F)),
    ternary main_v27 main_v33 main_arg2 main_v34 ((fun x i u => Host.scatterAdd scatter_S1000000_S995904x1_S995904_n_0_0_1 x i u) : (⟨S1000000, .f32⟩ : BufTy).Contents (Elt F) → (⟨S995904x1, .i32⟩ : BufTy).Contents (Elt F) → (⟨S995904, .f32⟩ : BufTy).Contents (Elt F) → (⟨S1000000, .f32⟩ : BufTy).Contents (Elt F)),
    unary main_v34 main_v35 (Host.tanh : (⟨S1000000, .f32⟩ : BufTy).Contents (Elt F) → (⟨S1000000, .f32⟩ : BufTy).Contents (Elt F)),
    TRef.ternary (TRef.of (T := ⟨S1000000, .i1⟩) main_v8) (TRef.of (T := ⟨S1000000, .f32⟩) main_v34) (TRef.of (T := ⟨S1000000, .f32⟩) main_v35) (TRef.of (T := ⟨S1000000, .f32⟩) main_v36) select,
    nullary main_c_10 (constantI S_ 32 0#32),
    unary main_c_10 main_v37 (broadcastInDim S20000000 ![] bcast_S_S20000000 : (⟨S_, .i32⟩ : BufTy).Contents (Elt F) → (⟨S20000000, .i32⟩ : BufTy).Contents (Elt F)),
    binary main_arg3 main_v37 main_v38 (cmpi .slt : (⟨S20000000, .i32⟩ : BufTy).Contents (Elt F) → (⟨S20000000, .i32⟩ : BufTy).Contents (Elt F) → (⟨S20000000, .i1⟩ : BufTy).Contents (Elt F)),
    nullary main_c_11 (constantI S_ 32 1000000#32),
    unary main_c_11 main_v39 (broadcastInDim S20000000 ![] bcast_S_S20000000 : (⟨S_, .i32⟩ : BufTy).Contents (Elt F) → (⟨S20000000, .i32⟩ : BufTy).Contents (Elt F)),
    binary main_arg3 main_v39 main_v40 (addi : (⟨S20000000, .i32⟩ : BufTy).Contents (Elt F) → (⟨S20000000, .i32⟩ : BufTy).Contents (Elt F) → (⟨S20000000, .i32⟩ : BufTy).Contents (Elt F)),
    ternary main_v38 main_v40 main_arg3 main_v41 (select : (⟨S20000000, .i1⟩ : BufTy).Contents (Elt F) → (⟨S20000000, .i32⟩ : BufTy).Contents (Elt F) → (⟨S20000000, .i32⟩ : BufTy).Contents (Elt F) → (⟨S20000000, .i32⟩ : BufTy).Contents (Elt F)),
    unary main_v41 main_v42 (broadcastInDim S20000000x1 ![0] bcast_S20000000_S20000000x1_0 : (⟨S20000000, .i32⟩ : BufTy).Contents (Elt F) → (⟨S20000000x1, .i32⟩ : BufTy).Contents (Elt F)),
    binary main_v36 main_v42 main_v43 ((fun x i => Host.gather gather_S1000000_S20000000x1_S20000000_n_0_n_n_0_1_1 x i) : (⟨S1000000, .f32⟩ : BufTy).Contents (Elt F) → (⟨S20000000x1, .i32⟩ : BufTy).Contents (Elt F) → (⟨S20000000, .f32⟩ : BufTy).Contents (Elt F)),
    binary main_v43 main_arg1 main_v44 (mulf : (⟨S20000000, .f32⟩ : BufTy).Contents (Elt F) → (⟨S20000000, .f32⟩ : BufTy).Contents (Elt F) → (⟨S20000000, .f32⟩ : BufTy).Contents (Elt F)),
    nullary main_cst_12 (constant S_ .f32 0x00000000#32),
    unary main_cst_12 main_v45 (broadcastInDim S1000000 ![] bcast_S_S1000000 : (⟨S_, .f32⟩ : BufTy).Contents (Elt F) → (⟨S1000000, .f32⟩ : BufTy).Contents (Elt F)),
    unary main_arg4 main_v46 (broadcastInDim S20000000x1 ![0] bcast_S20000000_S20000000x1_0 : (⟨S20000000, .i32⟩ : BufTy).Contents (Elt F) → (⟨S20000000x1, .i32⟩ : BufTy).Contents (Elt F)),
    ternary main_v45 main_v46 main_v44 main_v47 ((fun x i u => Host.scatterAdd scatter_S1000000_S20000000x1_S20000000_n_0_0_1 x i u) : (⟨S1000000, .f32⟩ : BufTy).Contents (Elt F) → (⟨S20000000x1, .i32⟩ : BufTy).Contents (Elt F) → (⟨S20000000, .f32⟩ : BufTy).Contents (Elt F) → (⟨S1000000, .f32⟩ : BufTy).Contents (Elt F)),
    nullary main_c_13 (constantI S_ 32 0#32),
    unary main_c_13 main_v48 (broadcastInDim S995904 ![] bcast_S_S995904 : (⟨S_, .i32⟩ : BufTy).Contents (Elt F) → (⟨S995904, .i32⟩ : BufTy).Contents (Elt F)),
    binary main_arg7 main_v48 main_v49 (cmpi .slt : (⟨S995904, .i32⟩ : BufTy).Contents (Elt F) → (⟨S995904, .i32⟩ : BufTy).Contents (Elt F) → (⟨S995904, .i1⟩ : BufTy).Contents (Elt F)),
    nullary main_c_14 (constantI S_ 32 1000000#32),
    unary main_c_14 main_v50 (broadcastInDim S995904 ![] bcast_S_S995904 : (⟨S_, .i32⟩ : BufTy).Contents (Elt F) → (⟨S995904, .i32⟩ : BufTy).Contents (Elt F)),
    binary main_arg7 main_v50 main_v51 (addi : (⟨S995904, .i32⟩ : BufTy).Contents (Elt F) → (⟨S995904, .i32⟩ : BufTy).Contents (Elt F) → (⟨S995904, .i32⟩ : BufTy).Contents (Elt F)),
    ternary main_v49 main_v51 main_arg7 main_v52 (select : (⟨S995904, .i1⟩ : BufTy).Contents (Elt F) → (⟨S995904, .i32⟩ : BufTy).Contents (Elt F) → (⟨S995904, .i32⟩ : BufTy).Contents (Elt F) → (⟨S995904, .i32⟩ : BufTy).Contents (Elt F)),
    unary main_v52 main_v53 (broadcastInDim S995904x1 ![0] bcast_S995904_S995904x1_0 : (⟨S995904, .i32⟩ : BufTy).Contents (Elt F) → (⟨S995904x1, .i32⟩ : BufTy).Contents (Elt F)),
    ternary main_v47 main_v53 main_arg2 main_v54 ((fun x i u => Host.scatterAdd scatter_S1000000_S995904x1_S995904_n_0_0_1 x i u) : (⟨S1000000, .f32⟩ : BufTy).Contents (Elt F) → (⟨S995904x1, .i32⟩ : BufTy).Contents (Elt F) → (⟨S995904, .f32⟩ : BufTy).Contents (Elt F) → (⟨S1000000, .f32⟩ : BufTy).Contents (Elt F)),
    unary main_v54 main_v55 (Host.tanh : (⟨S1000000, .f32⟩ : BufTy).Contents (Elt F) → (⟨S1000000, .f32⟩ : BufTy).Contents (Elt F)),
    TRef.ternary (TRef.of (T := ⟨S1000000, .i1⟩) main_v8) (TRef.of (T := ⟨S1000000, .f32⟩) main_v54) (TRef.of (T := ⟨S1000000, .f32⟩) main_v55) (TRef.of (T := ⟨S1000000, .f32⟩) main_v56) select,
    nullary main_c_15 (constantI S_ 32 0#32),
    unary main_c_15 main_v57 (broadcastInDim S20000000 ![] bcast_S_S20000000 : (⟨S_, .i32⟩ : BufTy).Contents (Elt F) → (⟨S20000000, .i32⟩ : BufTy).Contents (Elt F)),
    binary main_arg3 main_v57 main_v58 (cmpi .slt : (⟨S20000000, .i32⟩ : BufTy).Contents (Elt F) → (⟨S20000000, .i32⟩ : BufTy).Contents (Elt F) → (⟨S20000000, .i1⟩ : BufTy).Contents (Elt F)),
    nullary main_c_16 (constantI S_ 32 1000000#32),
    unary main_c_16 main_v59 (broadcastInDim S20000000 ![] bcast_S_S20000000 : (⟨S_, .i32⟩ : BufTy).Contents (Elt F) → (⟨S20000000, .i32⟩ : BufTy).Contents (Elt F)),
    binary main_arg3 main_v59 main_v60 (addi : (⟨S20000000, .i32⟩ : BufTy).Contents (Elt F) → (⟨S20000000, .i32⟩ : BufTy).Contents (Elt F) → (⟨S20000000, .i32⟩ : BufTy).Contents (Elt F)),
    ternary main_v58 main_v60 main_arg3 main_v61 (select : (⟨S20000000, .i1⟩ : BufTy).Contents (Elt F) → (⟨S20000000, .i32⟩ : BufTy).Contents (Elt F) → (⟨S20000000, .i32⟩ : BufTy).Contents (Elt F) → (⟨S20000000, .i32⟩ : BufTy).Contents (Elt F)),
    unary main_v61 main_v62 (broadcastInDim S20000000x1 ![0] bcast_S20000000_S20000000x1_0 : (⟨S20000000, .i32⟩ : BufTy).Contents (Elt F) → (⟨S20000000x1, .i32⟩ : BufTy).Contents (Elt F)),
    binary main_v56 main_v62 main_v63 ((fun x i => Host.gather gather_S1000000_S20000000x1_S20000000_n_0_n_n_0_1_1 x i) : (⟨S1000000, .f32⟩ : BufTy).Contents (Elt F) → (⟨S20000000x1, .i32⟩ : BufTy).Contents (Elt F) → (⟨S20000000, .f32⟩ : BufTy).Contents (Elt F)),
    binary main_v63 main_arg1 main_v64 (mulf : (⟨S20000000, .f32⟩ : BufTy).Contents (Elt F) → (⟨S20000000, .f32⟩ : BufTy).Contents (Elt F) → (⟨S20000000, .f32⟩ : BufTy).Contents (Elt F)),
    nullary main_cst_17 (constant S_ .f32 0x00000000#32),
    unary main_cst_17 main_v65 (broadcastInDim S1000000 ![] bcast_S_S1000000 : (⟨S_, .f32⟩ : BufTy).Contents (Elt F) → (⟨S1000000, .f32⟩ : BufTy).Contents (Elt F)),
    unary main_arg4 main_v66 (broadcastInDim S20000000x1 ![0] bcast_S20000000_S20000000x1_0 : (⟨S20000000, .i32⟩ : BufTy).Contents (Elt F) → (⟨S20000000x1, .i32⟩ : BufTy).Contents (Elt F)),
    ternary main_v65 main_v66 main_v64 main_v67 ((fun x i u => Host.scatterAdd scatter_S1000000_S20000000x1_S20000000_n_0_0_1 x i u) : (⟨S1000000, .f32⟩ : BufTy).Contents (Elt F) → (⟨S20000000x1, .i32⟩ : BufTy).Contents (Elt F) → (⟨S20000000, .f32⟩ : BufTy).Contents (Elt F) → (⟨S1000000, .f32⟩ : BufTy).Contents (Elt F)),
    nullary main_c_18 (constantI S_ 32 0#32),
    unary main_c_18 main_v68 (broadcastInDim S995904 ![] bcast_S_S995904 : (⟨S_, .i32⟩ : BufTy).Contents (Elt F) → (⟨S995904, .i32⟩ : BufTy).Contents (Elt F)),
    binary main_arg7 main_v68 main_v69 (cmpi .slt : (⟨S995904, .i32⟩ : BufTy).Contents (Elt F) → (⟨S995904, .i32⟩ : BufTy).Contents (Elt F) → (⟨S995904, .i1⟩ : BufTy).Contents (Elt F)),
    nullary main_c_19 (constantI S_ 32 1000000#32),
    unary main_c_19 main_v70 (broadcastInDim S995904 ![] bcast_S_S995904 : (⟨S_, .i32⟩ : BufTy).Contents (Elt F) → (⟨S995904, .i32⟩ : BufTy).Contents (Elt F)),
    binary main_arg7 main_v70 main_v71 (addi : (⟨S995904, .i32⟩ : BufTy).Contents (Elt F) → (⟨S995904, .i32⟩ : BufTy).Contents (Elt F) → (⟨S995904, .i32⟩ : BufTy).Contents (Elt F)),
    ternary main_v69 main_v71 main_arg7 main_v72 (select : (⟨S995904, .i1⟩ : BufTy).Contents (Elt F) → (⟨S995904, .i32⟩ : BufTy).Contents (Elt F) → (⟨S995904, .i32⟩ : BufTy).Contents (Elt F) → (⟨S995904, .i32⟩ : BufTy).Contents (Elt F)),
    unary main_v72 main_v73 (broadcastInDim S995904x1 ![0] bcast_S995904_S995904x1_0 : (⟨S995904, .i32⟩ : BufTy).Contents (Elt F) → (⟨S995904x1, .i32⟩ : BufTy).Contents (Elt F)),
    ternary main_v67 main_v73 main_arg2 main_v74 ((fun x i u => Host.scatterAdd scatter_S1000000_S995904x1_S995904_n_0_0_1 x i u) : (⟨S1000000, .f32⟩ : BufTy).Contents (Elt F) → (⟨S995904x1, .i32⟩ : BufTy).Contents (Elt F) → (⟨S995904, .f32⟩ : BufTy).Contents (Elt F) → (⟨S1000000, .f32⟩ : BufTy).Contents (Elt F)),
    unary main_v74 main_v75 (Host.tanh : (⟨S1000000, .f32⟩ : BufTy).Contents (Elt F) → (⟨S1000000, .f32⟩ : BufTy).Contents (Elt F)),
    TRef.ternary (TRef.of (T := ⟨S1000000, .i1⟩) main_v8) (TRef.of (T := ⟨S1000000, .f32⟩) main_v74) (TRef.of (T := ⟨S1000000, .f32⟩) main_v75) (TRef.of (T := ⟨S1000000, .f32⟩) main_v76) select,
    nullary main_c_20 (constantI S_ 32 0#32),
    unary main_c_20 main_v77 (broadcastInDim S4096 ![] bcast_S_S4096 : (⟨S_, .i32⟩ : BufTy).Contents (Elt F) → (⟨S4096, .i32⟩ : BufTy).Contents (Elt F)),
    binary main_arg6 main_v77 main_v78 (cmpi .slt : (⟨S4096, .i32⟩ : BufTy).Contents (Elt F) → (⟨S4096, .i32⟩ : BufTy).Contents (Elt F) → (⟨S4096, .i1⟩ : BufTy).Contents (Elt F)),
    nullary main_c_21 (constantI S_ 32 1000000#32),
    unary main_c_21 main_v79 (broadcastInDim S4096 ![] bcast_S_S4096 : (⟨S_, .i32⟩ : BufTy).Contents (Elt F) → (⟨S4096, .i32⟩ : BufTy).Contents (Elt F)),
    binary main_arg6 main_v79 main_v80 (addi : (⟨S4096, .i32⟩ : BufTy).Contents (Elt F) → (⟨S4096, .i32⟩ : BufTy).Contents (Elt F) → (⟨S4096, .i32⟩ : BufTy).Contents (Elt F)),
    ternary main_v78 main_v80 main_arg6 main_v81 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v81 main_v82 (broadcastInDim S4096x1 ![0] bcast_S4096_S4096x1_0 : (⟨S4096, .i32⟩ : BufTy).Contents (Elt F) → (⟨S4096x1, .i32⟩ : BufTy).Contents (Elt F)),
    binary main_v76 main_v82 main_v83 ((fun x i => Host.gather gather_S1000000_S4096x1_S4096_n_0_n_n_0_1_1 x i) : (⟨S1000000, .f32⟩ : BufTy).Contents (Elt F) → (⟨S4096x1, .i32⟩ : BufTy).Contents (Elt F) → (⟨S4096, .f32⟩ : BufTy).Contents (Elt F)) ]

/-- The operations that mark the output neurons and build the initial state. -/
abbrev opsA : List (HloOp τ sig (Elt F)) :=
  [ nullary main_c (constantI S_ 1 0#1),
    unary main_c main_v0 (broadcastInDim S1000000 ![] bcast_S_S1000000 : (⟨S_, .i1⟩ : BufTy).Contents (Elt F) → (⟨S1000000, .i1⟩ : BufTy).Contents (Elt F)),
    nullary main_c_0 (constantI S_ 32 0#32),
    unary main_c_0 main_v1 (broadcastInDim S4096 ![] bcast_S_S4096 : (⟨S_, .i32⟩ : BufTy).Contents (Elt F) → (⟨S4096, .i32⟩ : BufTy).Contents (Elt F)),
    binary main_arg6 main_v1 main_v2 (cmpi .slt : (⟨S4096, .i32⟩ : BufTy).Contents (Elt F) → (⟨S4096, .i32⟩ : BufTy).Contents (Elt F) → (⟨S4096, .i1⟩ : BufTy).Contents (Elt F)),
    nullary main_c_1 (constantI S_ 32 1000000#32),
    unary main_c_1 main_v3 (broadcastInDim S4096 ![] bcast_S_S4096 : (⟨S_, .i32⟩ : BufTy).Contents (Elt F) → (⟨S4096, .i32⟩ : BufTy).Contents (Elt F)),
    binary main_arg6 main_v3 main_v4 (addi : (⟨S4096, .i32⟩ : BufTy).Contents (Elt F) → (⟨S4096, .i32⟩ : BufTy).Contents (Elt F) → (⟨S4096, .i32⟩ : BufTy).Contents (Elt F)),
    ternary main_v2 main_v4 main_arg6 main_v5 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v5 main_v6 (broadcastInDim S4096x1 ![0] bcast_S4096_S4096x1_0 : (⟨S4096, .i32⟩ : BufTy).Contents (Elt F) → (⟨S4096x1, .i32⟩ : BufTy).Contents (Elt F)),
    nullary main_c_2 (constantI S_ 1 1#1),
    unary main_c_2 main_v7 (broadcastInDim S4096 ![] bcast_S_S4096 : (⟨S_, .i1⟩ : BufTy).Contents (Elt F) → (⟨S4096, .i1⟩ : BufTy).Contents (Elt F)),
    ternary main_v0 main_v6 main_v7 main_v8 ((fun x i u => Host.scatter scatter_S1000000_S4096x1_S4096_n_0_0_1 (fun _ b => b) x i u) : (⟨S1000000, .i1⟩ : BufTy).Contents (Elt F) → (⟨S4096x1, .i32⟩ : BufTy).Contents (Elt F) → (⟨S4096, .i1⟩ : BufTy).Contents (Elt F) → (⟨S1000000, .i1⟩ : BufTy).Contents (Elt F)),
    nullary main_cst (constant S_ .f32 0x00000000#32),
    unary main_cst main_v9 (broadcastInDim S1000000 ![] bcast_S_S1000000 : (⟨S_, .f32⟩ : BufTy).Contents (Elt F) → (⟨S1000000, .f32⟩ : BufTy).Contents (Elt F)),
    nullary main_c_3 (constantI S_ 32 0#32),
    unary main_c_3 main_v10 (broadcastInDim S4096 ![] bcast_S_S4096 : (⟨S_, .i32⟩ : BufTy).Contents (Elt F) → (⟨S4096, .i32⟩ : BufTy).Contents (Elt F)),
    binary main_arg5 main_v10 main_v11 (cmpi .slt : (⟨S4096, .i32⟩ : BufTy).Contents (Elt F) → (⟨S4096, .i32⟩ : BufTy).Contents (Elt F) → (⟨S4096, .i1⟩ : BufTy).Contents (Elt F)),
    nullary main_c_4 (constantI S_ 32 1000000#32),
    unary main_c_4 main_v12 (broadcastInDim S4096 ![] bcast_S_S4096 : (⟨S_, .i32⟩ : BufTy).Contents (Elt F) → (⟨S4096, .i32⟩ : BufTy).Contents (Elt F)),
    binary main_arg5 main_v12 main_v13 (addi : (⟨S4096, .i32⟩ : BufTy).Contents (Elt F) → (⟨S4096, .i32⟩ : BufTy).Contents (Elt F) → (⟨S4096, .i32⟩ : BufTy).Contents (Elt F)),
    ternary main_v11 main_v13 main_arg5 main_v14 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v14 main_v15 (broadcastInDim S4096x1 ![0] bcast_S4096_S4096x1_0 : (⟨S4096, .i32⟩ : BufTy).Contents (Elt F) → (⟨S4096x1, .i32⟩ : BufTy).Contents (Elt F)),
    ternary main_v9 main_v15 main_arg0 main_v16 ((fun x i u => Host.scatter scatter_S1000000_S4096x1_S4096_n_0_0_1 (fun _ b => b) x i u) : (⟨S1000000, .f32⟩ : BufTy).Contents (Elt F) → (⟨S4096x1, .i32⟩ : BufTy).Contents (Elt F) → (⟨S4096, .f32⟩ : BufTy).Contents (Elt F) → (⟨S1000000, .f32⟩ : BufTy).Contents (Elt F)) ]

/-- The first step's operations. -/
abbrev opsS1 : List (HloOp τ sig (Elt F)) :=
  [ nullary main_c_5 (constantI S_ 32 0#32),
    unary main_c_5 main_v17 (broadcastInDim S20000000 ![] bcast_S_S20000000 : (⟨S_, .i32⟩ : BufTy).Contents (Elt F) → (⟨S20000000, .i32⟩ : BufTy).Contents (Elt F)),
    binary main_arg3 main_v17 main_v18 (cmpi .slt : (⟨S20000000, .i32⟩ : BufTy).Contents (Elt F) → (⟨S20000000, .i32⟩ : BufTy).Contents (Elt F) → (⟨S20000000, .i1⟩ : BufTy).Contents (Elt F)),
    nullary main_c_6 (constantI S_ 32 1000000#32),
    unary main_c_6 main_v19 (broadcastInDim S20000000 ![] bcast_S_S20000000 : (⟨S_, .i32⟩ : BufTy).Contents (Elt F) → (⟨S20000000, .i32⟩ : BufTy).Contents (Elt F)),
    binary main_arg3 main_v19 main_v20 (addi : (⟨S20000000, .i32⟩ : BufTy).Contents (Elt F) → (⟨S20000000, .i32⟩ : BufTy).Contents (Elt F) → (⟨S20000000, .i32⟩ : BufTy).Contents (Elt F)),
    ternary main_v18 main_v20 main_arg3 main_v21 (select : (⟨S20000000, .i1⟩ : BufTy).Contents (Elt F) → (⟨S20000000, .i32⟩ : BufTy).Contents (Elt F) → (⟨S20000000, .i32⟩ : BufTy).Contents (Elt F) → (⟨S20000000, .i32⟩ : BufTy).Contents (Elt F)),
    unary main_v21 main_v22 (broadcastInDim S20000000x1 ![0] bcast_S20000000_S20000000x1_0 : (⟨S20000000, .i32⟩ : BufTy).Contents (Elt F) → (⟨S20000000x1, .i32⟩ : BufTy).Contents (Elt F)),
    binary main_v16 main_v22 main_v23 ((fun x i => Host.gather gather_S1000000_S20000000x1_S20000000_n_0_n_n_0_1_1 x i) : (⟨S1000000, .f32⟩ : BufTy).Contents (Elt F) → (⟨S20000000x1, .i32⟩ : BufTy).Contents (Elt F) → (⟨S20000000, .f32⟩ : BufTy).Contents (Elt F)),
    binary main_v23 main_arg1 main_v24 (mulf : (⟨S20000000, .f32⟩ : BufTy).Contents (Elt F) → (⟨S20000000, .f32⟩ : BufTy).Contents (Elt F) → (⟨S20000000, .f32⟩ : BufTy).Contents (Elt F)),
    nullary main_cst_7 (constant S_ .f32 0x00000000#32),
    unary main_cst_7 main_v25 (broadcastInDim S1000000 ![] bcast_S_S1000000 : (⟨S_, .f32⟩ : BufTy).Contents (Elt F) → (⟨S1000000, .f32⟩ : BufTy).Contents (Elt F)),
    unary main_arg4 main_v26 (broadcastInDim S20000000x1 ![0] bcast_S20000000_S20000000x1_0 : (⟨S20000000, .i32⟩ : BufTy).Contents (Elt F) → (⟨S20000000x1, .i32⟩ : BufTy).Contents (Elt F)),
    ternary main_v25 main_v26 main_v24 main_v27 ((fun x i u => Host.scatterAdd scatter_S1000000_S20000000x1_S20000000_n_0_0_1 x i u) : (⟨S1000000, .f32⟩ : BufTy).Contents (Elt F) → (⟨S20000000x1, .i32⟩ : BufTy).Contents (Elt F) → (⟨S20000000, .f32⟩ : BufTy).Contents (Elt F) → (⟨S1000000, .f32⟩ : BufTy).Contents (Elt F)),
    nullary main_c_8 (constantI S_ 32 0#32),
    unary main_c_8 main_v28 (broadcastInDim S995904 ![] bcast_S_S995904 : (⟨S_, .i32⟩ : BufTy).Contents (Elt F) → (⟨S995904, .i32⟩ : BufTy).Contents (Elt F)),
    binary main_arg7 main_v28 main_v29 (cmpi .slt : (⟨S995904, .i32⟩ : BufTy).Contents (Elt F) → (⟨S995904, .i32⟩ : BufTy).Contents (Elt F) → (⟨S995904, .i1⟩ : BufTy).Contents (Elt F)),
    nullary main_c_9 (constantI S_ 32 1000000#32),
    unary main_c_9 main_v30 (broadcastInDim S995904 ![] bcast_S_S995904 : (⟨S_, .i32⟩ : BufTy).Contents (Elt F) → (⟨S995904, .i32⟩ : BufTy).Contents (Elt F)),
    binary main_arg7 main_v30 main_v31 (addi : (⟨S995904, .i32⟩ : BufTy).Contents (Elt F) → (⟨S995904, .i32⟩ : BufTy).Contents (Elt F) → (⟨S995904, .i32⟩ : BufTy).Contents (Elt F)),
    ternary main_v29 main_v31 main_arg7 main_v32 (select : (⟨S995904, .i1⟩ : BufTy).Contents (Elt F) → (⟨S995904, .i32⟩ : BufTy).Contents (Elt F) → (⟨S995904, .i32⟩ : BufTy).Contents (Elt F) → (⟨S995904, .i32⟩ : BufTy).Contents (Elt F)),
    unary main_v32 main_v33 (broadcastInDim S995904x1 ![0] bcast_S995904_S995904x1_0 : (⟨S995904, .i32⟩ : BufTy).Contents (Elt F) → (⟨S995904x1, .i32⟩ : BufTy).Contents (Elt F)),
    ternary main_v27 main_v33 main_arg2 main_v34 ((fun x i u => Host.scatterAdd scatter_S1000000_S995904x1_S995904_n_0_0_1 x i u) : (⟨S1000000, .f32⟩ : BufTy).Contents (Elt F) → (⟨S995904x1, .i32⟩ : BufTy).Contents (Elt F) → (⟨S995904, .f32⟩ : BufTy).Contents (Elt F) → (⟨S1000000, .f32⟩ : BufTy).Contents (Elt F)),
    unary main_v34 main_v35 (Host.tanh : (⟨S1000000, .f32⟩ : BufTy).Contents (Elt F) → (⟨S1000000, .f32⟩ : BufTy).Contents (Elt F)),
    TRef.ternary (TRef.of (T := ⟨S1000000, .i1⟩) main_v8) (TRef.of (T := ⟨S1000000, .f32⟩) main_v34) (TRef.of (T := ⟨S1000000, .f32⟩) main_v35) (TRef.of (T := ⟨S1000000, .f32⟩) main_v36) select ]

/-- The second step's operations. -/
abbrev opsS2 : List (HloOp τ sig (Elt F)) :=
  [ nullary main_c_10 (constantI S_ 32 0#32),
    unary main_c_10 main_v37 (broadcastInDim S20000000 ![] bcast_S_S20000000 : (⟨S_, .i32⟩ : BufTy).Contents (Elt F) → (⟨S20000000, .i32⟩ : BufTy).Contents (Elt F)),
    binary main_arg3 main_v37 main_v38 (cmpi .slt : (⟨S20000000, .i32⟩ : BufTy).Contents (Elt F) → (⟨S20000000, .i32⟩ : BufTy).Contents (Elt F) → (⟨S20000000, .i1⟩ : BufTy).Contents (Elt F)),
    nullary main_c_11 (constantI S_ 32 1000000#32),
    unary main_c_11 main_v39 (broadcastInDim S20000000 ![] bcast_S_S20000000 : (⟨S_, .i32⟩ : BufTy).Contents (Elt F) → (⟨S20000000, .i32⟩ : BufTy).Contents (Elt F)),
    binary main_arg3 main_v39 main_v40 (addi : (⟨S20000000, .i32⟩ : BufTy).Contents (Elt F) → (⟨S20000000, .i32⟩ : BufTy).Contents (Elt F) → (⟨S20000000, .i32⟩ : BufTy).Contents (Elt F)),
    ternary main_v38 main_v40 main_arg3 main_v41 (select : (⟨S20000000, .i1⟩ : BufTy).Contents (Elt F) → (⟨S20000000, .i32⟩ : BufTy).Contents (Elt F) → (⟨S20000000, .i32⟩ : BufTy).Contents (Elt F) → (⟨S20000000, .i32⟩ : BufTy).Contents (Elt F)),
    unary main_v41 main_v42 (broadcastInDim S20000000x1 ![0] bcast_S20000000_S20000000x1_0 : (⟨S20000000, .i32⟩ : BufTy).Contents (Elt F) → (⟨S20000000x1, .i32⟩ : BufTy).Contents (Elt F)),
    binary main_v36 main_v42 main_v43 ((fun x i => Host.gather gather_S1000000_S20000000x1_S20000000_n_0_n_n_0_1_1 x i) : (⟨S1000000, .f32⟩ : BufTy).Contents (Elt F) → (⟨S20000000x1, .i32⟩ : BufTy).Contents (Elt F) → (⟨S20000000, .f32⟩ : BufTy).Contents (Elt F)),
    binary main_v43 main_arg1 main_v44 (mulf : (⟨S20000000, .f32⟩ : BufTy).Contents (Elt F) → (⟨S20000000, .f32⟩ : BufTy).Contents (Elt F) → (⟨S20000000, .f32⟩ : BufTy).Contents (Elt F)),
    nullary main_cst_12 (constant S_ .f32 0x00000000#32),
    unary main_cst_12 main_v45 (broadcastInDim S1000000 ![] bcast_S_S1000000 : (⟨S_, .f32⟩ : BufTy).Contents (Elt F) → (⟨S1000000, .f32⟩ : BufTy).Contents (Elt F)),
    unary main_arg4 main_v46 (broadcastInDim S20000000x1 ![0] bcast_S20000000_S20000000x1_0 : (⟨S20000000, .i32⟩ : BufTy).Contents (Elt F) → (⟨S20000000x1, .i32⟩ : BufTy).Contents (Elt F)),
    ternary main_v45 main_v46 main_v44 main_v47 ((fun x i u => Host.scatterAdd scatter_S1000000_S20000000x1_S20000000_n_0_0_1 x i u) : (⟨S1000000, .f32⟩ : BufTy).Contents (Elt F) → (⟨S20000000x1, .i32⟩ : BufTy).Contents (Elt F) → (⟨S20000000, .f32⟩ : BufTy).Contents (Elt F) → (⟨S1000000, .f32⟩ : BufTy).Contents (Elt F)),
    nullary main_c_13 (constantI S_ 32 0#32),
    unary main_c_13 main_v48 (broadcastInDim S995904 ![] bcast_S_S995904 : (⟨S_, .i32⟩ : BufTy).Contents (Elt F) → (⟨S995904, .i32⟩ : BufTy).Contents (Elt F)),
    binary main_arg7 main_v48 main_v49 (cmpi .slt : (⟨S995904, .i32⟩ : BufTy).Contents (Elt F) → (⟨S995904, .i32⟩ : BufTy).Contents (Elt F) → (⟨S995904, .i1⟩ : BufTy).Contents (Elt F)),
    nullary main_c_14 (constantI S_ 32 1000000#32),
    unary main_c_14 main_v50 (broadcastInDim S995904 ![] bcast_S_S995904 : (⟨S_, .i32⟩ : BufTy).Contents (Elt F) → (⟨S995904, .i32⟩ : BufTy).Contents (Elt F)),
    binary main_arg7 main_v50 main_v51 (addi : (⟨S995904, .i32⟩ : BufTy).Contents (Elt F) → (⟨S995904, .i32⟩ : BufTy).Contents (Elt F) → (⟨S995904, .i32⟩ : BufTy).Contents (Elt F)),
    ternary main_v49 main_v51 main_arg7 main_v52 (select : (⟨S995904, .i1⟩ : BufTy).Contents (Elt F) → (⟨S995904, .i32⟩ : BufTy).Contents (Elt F) → (⟨S995904, .i32⟩ : BufTy).Contents (Elt F) → (⟨S995904, .i32⟩ : BufTy).Contents (Elt F)),
    unary main_v52 main_v53 (broadcastInDim S995904x1 ![0] bcast_S995904_S995904x1_0 : (⟨S995904, .i32⟩ : BufTy).Contents (Elt F) → (⟨S995904x1, .i32⟩ : BufTy).Contents (Elt F)),
    ternary main_v47 main_v53 main_arg2 main_v54 ((fun x i u => Host.scatterAdd scatter_S1000000_S995904x1_S995904_n_0_0_1 x i u) : (⟨S1000000, .f32⟩ : BufTy).Contents (Elt F) → (⟨S995904x1, .i32⟩ : BufTy).Contents (Elt F) → (⟨S995904, .f32⟩ : BufTy).Contents (Elt F) → (⟨S1000000, .f32⟩ : BufTy).Contents (Elt F)),
    unary main_v54 main_v55 (Host.tanh : (⟨S1000000, .f32⟩ : BufTy).Contents (Elt F) → (⟨S1000000, .f32⟩ : BufTy).Contents (Elt F)),
    TRef.ternary (TRef.of (T := ⟨S1000000, .i1⟩) main_v8) (TRef.of (T := ⟨S1000000, .f32⟩) main_v54) (TRef.of (T := ⟨S1000000, .f32⟩) main_v55) (TRef.of (T := ⟨S1000000, .f32⟩) main_v56) select ]

/-- The third step's operations. -/
abbrev opsS3 : List (HloOp τ sig (Elt F)) :=
  [ nullary main_c_15 (constantI S_ 32 0#32),
    unary main_c_15 main_v57 (broadcastInDim S20000000 ![] bcast_S_S20000000 : (⟨S_, .i32⟩ : BufTy).Contents (Elt F) → (⟨S20000000, .i32⟩ : BufTy).Contents (Elt F)),
    binary main_arg3 main_v57 main_v58 (cmpi .slt : (⟨S20000000, .i32⟩ : BufTy).Contents (Elt F) → (⟨S20000000, .i32⟩ : BufTy).Contents (Elt F) → (⟨S20000000, .i1⟩ : BufTy).Contents (Elt F)),
    nullary main_c_16 (constantI S_ 32 1000000#32),
    unary main_c_16 main_v59 (broadcastInDim S20000000 ![] bcast_S_S20000000 : (⟨S_, .i32⟩ : BufTy).Contents (Elt F) → (⟨S20000000, .i32⟩ : BufTy).Contents (Elt F)),
    binary main_arg3 main_v59 main_v60 (addi : (⟨S20000000, .i32⟩ : BufTy).Contents (Elt F) → (⟨S20000000, .i32⟩ : BufTy).Contents (Elt F) → (⟨S20000000, .i32⟩ : BufTy).Contents (Elt F)),
    ternary main_v58 main_v60 main_arg3 main_v61 (select : (⟨S20000000, .i1⟩ : BufTy).Contents (Elt F) → (⟨S20000000, .i32⟩ : BufTy).Contents (Elt F) → (⟨S20000000, .i32⟩ : BufTy).Contents (Elt F) → (⟨S20000000, .i32⟩ : BufTy).Contents (Elt F)),
    unary main_v61 main_v62 (broadcastInDim S20000000x1 ![0] bcast_S20000000_S20000000x1_0 : (⟨S20000000, .i32⟩ : BufTy).Contents (Elt F) → (⟨S20000000x1, .i32⟩ : BufTy).Contents (Elt F)),
    binary main_v56 main_v62 main_v63 ((fun x i => Host.gather gather_S1000000_S20000000x1_S20000000_n_0_n_n_0_1_1 x i) : (⟨S1000000, .f32⟩ : BufTy).Contents (Elt F) → (⟨S20000000x1, .i32⟩ : BufTy).Contents (Elt F) → (⟨S20000000, .f32⟩ : BufTy).Contents (Elt F)),
    binary main_v63 main_arg1 main_v64 (mulf : (⟨S20000000, .f32⟩ : BufTy).Contents (Elt F) → (⟨S20000000, .f32⟩ : BufTy).Contents (Elt F) → (⟨S20000000, .f32⟩ : BufTy).Contents (Elt F)),
    nullary main_cst_17 (constant S_ .f32 0x00000000#32),
    unary main_cst_17 main_v65 (broadcastInDim S1000000 ![] bcast_S_S1000000 : (⟨S_, .f32⟩ : BufTy).Contents (Elt F) → (⟨S1000000, .f32⟩ : BufTy).Contents (Elt F)),
    unary main_arg4 main_v66 (broadcastInDim S20000000x1 ![0] bcast_S20000000_S20000000x1_0 : (⟨S20000000, .i32⟩ : BufTy).Contents (Elt F) → (⟨S20000000x1, .i32⟩ : BufTy).Contents (Elt F)),
    ternary main_v65 main_v66 main_v64 main_v67 ((fun x i u => Host.scatterAdd scatter_S1000000_S20000000x1_S20000000_n_0_0_1 x i u) : (⟨S1000000, .f32⟩ : BufTy).Contents (Elt F) → (⟨S20000000x1, .i32⟩ : BufTy).Contents (Elt F) → (⟨S20000000, .f32⟩ : BufTy).Contents (Elt F) → (⟨S1000000, .f32⟩ : BufTy).Contents (Elt F)),
    nullary main_c_18 (constantI S_ 32 0#32),
    unary main_c_18 main_v68 (broadcastInDim S995904 ![] bcast_S_S995904 : (⟨S_, .i32⟩ : BufTy).Contents (Elt F) → (⟨S995904, .i32⟩ : BufTy).Contents (Elt F)),
    binary main_arg7 main_v68 main_v69 (cmpi .slt : (⟨S995904, .i32⟩ : BufTy).Contents (Elt F) → (⟨S995904, .i32⟩ : BufTy).Contents (Elt F) → (⟨S995904, .i1⟩ : BufTy).Contents (Elt F)),
    nullary main_c_19 (constantI S_ 32 1000000#32),
    unary main_c_19 main_v70 (broadcastInDim S995904 ![] bcast_S_S995904 : (⟨S_, .i32⟩ : BufTy).Contents (Elt F) → (⟨S995904, .i32⟩ : BufTy).Contents (Elt F)),
    binary main_arg7 main_v70 main_v71 (addi : (⟨S995904, .i32⟩ : BufTy).Contents (Elt F) → (⟨S995904, .i32⟩ : BufTy).Contents (Elt F) → (⟨S995904, .i32⟩ : BufTy).Contents (Elt F)),
    ternary main_v69 main_v71 main_arg7 main_v72 (select : (⟨S995904, .i1⟩ : BufTy).Contents (Elt F) → (⟨S995904, .i32⟩ : BufTy).Contents (Elt F) → (⟨S995904, .i32⟩ : BufTy).Contents (Elt F) → (⟨S995904, .i32⟩ : BufTy).Contents (Elt F)),
    unary main_v72 main_v73 (broadcastInDim S995904x1 ![0] bcast_S995904_S995904x1_0 : (⟨S995904, .i32⟩ : BufTy).Contents (Elt F) → (⟨S995904x1, .i32⟩ : BufTy).Contents (Elt F)),
    ternary main_v67 main_v73 main_arg2 main_v74 ((fun x i u => Host.scatterAdd scatter_S1000000_S995904x1_S995904_n_0_0_1 x i u) : (⟨S1000000, .f32⟩ : BufTy).Contents (Elt F) → (⟨S995904x1, .i32⟩ : BufTy).Contents (Elt F) → (⟨S995904, .f32⟩ : BufTy).Contents (Elt F) → (⟨S1000000, .f32⟩ : BufTy).Contents (Elt F)),
    unary main_v74 main_v75 (Host.tanh : (⟨S1000000, .f32⟩ : BufTy).Contents (Elt F) → (⟨S1000000, .f32⟩ : BufTy).Contents (Elt F)),
    TRef.ternary (TRef.of (T := ⟨S1000000, .i1⟩) main_v8) (TRef.of (T := ⟨S1000000, .f32⟩) main_v74) (TRef.of (T := ⟨S1000000, .f32⟩) main_v75) (TRef.of (T := ⟨S1000000, .f32⟩) main_v76) select ]

/-- The closing gather's operations. -/
abbrev opsT : List (HloOp τ sig (Elt F)) :=
  [ nullary main_c_20 (constantI S_ 32 0#32),
    unary main_c_20 main_v77 (broadcastInDim S4096 ![] bcast_S_S4096 : (⟨S_, .i32⟩ : BufTy).Contents (Elt F) → (⟨S4096, .i32⟩ : BufTy).Contents (Elt F)),
    binary main_arg6 main_v77 main_v78 (cmpi .slt : (⟨S4096, .i32⟩ : BufTy).Contents (Elt F) → (⟨S4096, .i32⟩ : BufTy).Contents (Elt F) → (⟨S4096, .i1⟩ : BufTy).Contents (Elt F)),
    nullary main_c_21 (constantI S_ 32 1000000#32),
    unary main_c_21 main_v79 (broadcastInDim S4096 ![] bcast_S_S4096 : (⟨S_, .i32⟩ : BufTy).Contents (Elt F) → (⟨S4096, .i32⟩ : BufTy).Contents (Elt F)),
    binary main_arg6 main_v79 main_v80 (addi : (⟨S4096, .i32⟩ : BufTy).Contents (Elt F) → (⟨S4096, .i32⟩ : BufTy).Contents (Elt F) → (⟨S4096, .i32⟩ : BufTy).Contents (Elt F)),
    ternary main_v78 main_v80 main_arg6 main_v81 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v81 main_v82 (broadcastInDim S4096x1 ![0] bcast_S4096_S4096x1_0 : (⟨S4096, .i32⟩ : BufTy).Contents (Elt F) → (⟨S4096x1, .i32⟩ : BufTy).Contents (Elt F)),
    binary main_v76 main_v82 main_v83 ((fun x i => Host.gather gather_S1000000_S4096x1_S4096_n_0_n_n_0_1_1 x i) : (⟨S1000000, .f32⟩ : BufTy).Contents (Elt F) → (⟨S4096x1, .i32⟩ : BufTy).Contents (Elt F) → (⟨S4096, .f32⟩ : BufTy).Contents (Elt F)) ]

/-- The line is the five stretches one after the other. -/
theorem ops_split : (ops : List (HloOp τ sig (Elt F))) = opsA ++ (opsS1 ++ (opsS2 ++ (opsS3 ++ opsT))) := rfl

/-- The fold over two joined lines is the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The fold over the whole line, stretch by stretch. -/
theorem after_ops (V : Valuation τ sig (Elt F)) :
    after ops V = after opsT (after opsS3 (after opsS2 (after opsS1 (after opsA V)))) := by
  rw [ops_split, after_append, after_append, after_append, after_append]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub ..⟩

set_option maxRecDepth 8192 in
set_option maxHeartbeats 4000000 in
/-- Every weakly fair execution of @main terminates with each buffer at the fold of the operations over the
    launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.HandRun

end
-- ==== Proof.Net.lean ====
/-
  The idealized kernel program's value, as pure functions of the argument arrays (any float instance).

  There are N = 1 000 000 neurons and E = 20 000 000 synapses. The program first writes the input vector into a
  zero state at the (wrapped) input indices (`start`), marks the output neurons with ones in a zero integer array
  (`marks`) and accumulates the biases into a zero array at the (wrapped) non-input indices (`biasAll`). Then,
  three times (`step`): gather the state at each synapse's (wrapped) source (`gatherSrc`); multiply by the synapse
  weights — done on the vectors padded with zeros and folded to [163840, 128] (`foldEdge`), entry by entry, and
  brought back (`unfoldEdge`): `messages` —; accumulate the messages at each synapse's destination (`totals`);
  and, on the arrays padded and folded to [7813, 128] (`foldNode`, `foldMark`), add the bias and keep the sum where
  the mark is positive, its hyperbolic tangent elsewhere (`squash`), brought back (`unfoldNode`). The result is the
  last state gathered at the (wrapped) output indices (`result`).
-/
import proofs.«144078_j73942156967974_1_alg».proof.KernelIdeal
import proofs.«144078_j73942156967974_1_alg».proof.Proof.Gen.KernelIdeal

noncomputable section

namespace Cert.KernelIdeal.Net

open Idealize.ShloMosaic Idealize.ShloMosaic.TcCoe Idealize.SL.Sem
open Cert.KernelIdeal Cert.KernelIdeal.Gen

variable {F : FTy → Type} [FloatOps F]

/-- jnp's wrap of a possibly negative index (add N where negative), laid down a column: for the input and the
    output indices, -/
def wrapIn (a : (⟨S4096, .i32⟩ : BufTy).Contents (Elt F)) : (⟨S4096x1, .i32⟩ : BufTy).Contents (Elt F) :=
  broadcastInDim S4096x1 ![0] bcast_S4096_S4096x1_0
    (select (cmpi .slt a (broadcastInDim S4096 ![] bcast_S_S4096 (constantI S_ 32 0#32)))
      (addi a (broadcastInDim S4096 ![] bcast_S_S4096 (constantI S_ 32 1000000#32))) a)

/-- for the synapse sources, -/
def wrapEdge (a : (⟨S20000000, .i32⟩ : BufTy).Contents (Elt F)) : (⟨S20000000x1, .i32⟩ : BufTy).Contents (Elt F) :=
  broadcastInDim S20000000x1 ![0] bcast_S20000000_S20000000x1_0
    (select (cmpi .slt a (broadcastInDim S20000000 ![] bcast_S_S20000000 (constantI S_ 32 0#32)))
      (addi a (broadcastInDim S20000000 ![] bcast_S_S20000000 (constantI S_ 32 1000000#32))) a)

/-- and for the non-input indices. -/
def wrapRest (a : (⟨S995904, .i32⟩ : BufTy).Contents (Elt F)) : (⟨S995904x1, .i32⟩ : BufTy).Contents (Elt F) :=
  broadcastInDim S995904x1 ![0] bcast_S995904_S995904x1_0
    (select (cmpi .slt a (broadcastInDim S995904 ![] bcast_S_S995904 (constantI S_ 32 0#32)))
      (addi a (broadcastInDim S995904 ![] bcast_S_S995904 (constantI S_ 32 1000000#32))) a)

/-- The zero state. -/
def zerosN : (⟨S1000000, .f32⟩ : BufTy).Contents (Elt F) :=
  broadcastInDim S1000000 ![] bcast_S_S1000000 (constant S_ .f32 0x00000000#32)

/-- The initial state: the inputs written into zeros at the input indices. -/
def start (a5 : (⟨S4096, .i32⟩ : BufTy).Contents (Elt F)) (a0 : (⟨S4096, .f32⟩ : BufTy).Contents (Elt F)) :
    (⟨S1000000, .f32⟩ : BufTy).Contents (Elt F) :=
  Host.scatter scatter_S1000000_S4096x1_S4096_n_0_0_1 (fun _ b => b) zerosN (wrapIn a5) a0

/-- The output neurons' marks: ones written into integer zeros at the output indices. -/
def marks (a6 : (⟨S4096, .i32⟩ : BufTy).Contents (Elt F)) : (⟨S1000000, .i32⟩ : BufTy).Contents (Elt F) :=
  Host.scatter scatter_S1000000_S4096x1_S4096_n_0_0_1 (fun _ b => b)
    (broadcastInDim S1000000 ![] bcast_S_S1000000 (constantI S_ 32 0#32)) (wrapIn a6)
    (broadcastInDim S4096 ![] bcast_S_S4096 (constantI S_ 32 1#32))

/-- The biases accumulated into zeros at the non-input indices. -/
def biasAll (a7 : (⟨S995904, .i32⟩ : BufTy).Contents (Elt F)) (a2 : (⟨S995904, .f32⟩ : BufTy).Contents (Elt F)) :
    (⟨S1000000, .f32⟩ : BufTy).Contents (Elt F) :=
  Host.scatterAdd scatter_S1000000_S995904x1_S995904_n_0_0_1 zerosN (wrapRest a7) a2

/-- The state at every synapse's source. -/
def gatherSrc (a3 : (⟨S20000000, .i32⟩ : BufTy).Contents (Elt F)) (v : (⟨S1000000, .f32⟩ : BufTy).Contents (Elt F)) :
    (⟨S20000000, .f32⟩ : BufTy).Contents (Elt F) :=
  Host.gather gather_S1000000_S20000000x1_S20000000_n_0_n_n_0_1_1 v (wrapEdge a3)

/-- The padding value: integer zero converted to a float. -/
def zeroPad : (⟨S_, .f32⟩ : BufTy).Contents (Elt F) := sitofp .f32 (constantI S_ 32 0#32)

/-- A per-synapse vector padded at the end and folded to [163840, 128]. -/
def foldEdge (x : (⟨S20000000, .f32⟩ : BufTy).Contents (Elt F)) : (⟨S163840x128, .f32⟩ : BufTy).Contents (Elt F) :=
  shapeCast S163840x128 (pad S20971520 ![0] ![971520] ![0] x (zeroPad (F := F)) pads_S20000000_S20971520_09715200 h_S_)
    shapeCasts_S20971520_S163840x128

/-- A [163840, 128] array unfolded and cut back to a per-synapse vector. -/
def unfoldEdge (y : (⟨S163840x128, .f32⟩ : BufTy).Contents (Elt F)) : (⟨S20000000, .f32⟩ : BufTy).Contents (Elt F) :=
  extractStridedSlice S20000000 ![0] (shapeCast S20971520 y shapeCasts_S163840x128_S20971520) slices_S20971520_S20000000_0

/-- The messages: the gathered state times the weights, computed on the folded arrays. -/
def messages (a1 : (⟨S20000000, .f32⟩ : BufTy).Contents (Elt F)) (a3 : (⟨S20000000, .i32⟩ : BufTy).Contents (Elt F))
    (v : (⟨S1000000, .f32⟩ : BufTy).Contents (Elt F)) : (⟨S20000000, .f32⟩ : BufTy).Contents (Elt F) :=
  unfoldEdge (fun i => FloatOps.mulf (foldEdge (gatherSrc a3 v) i) (foldEdge a1 i))

/-- The messages accumulated at their destinations, into zeros. -/
def totals (a4 : (⟨S20000000, .i32⟩ : BufTy).Contents (Elt F)) (ms : (⟨S20000000, .f32⟩ : BufTy).Contents (Elt F)) :
    (⟨S1000000, .f32⟩ : BufTy).Contents (Elt F) :=
  Host.scatterAdd scatter_S1000000_S20000000x1_S20000000_n_0_0_1 zerosN
    (broadcastInDim S20000000x1 ![0] bcast_S20000000_S20000000x1_0 a4) ms

/-- A per-neuron float vector padded at the end and folded to [7813, 128]. -/
def foldNode (x : (⟨S1000000, .f32⟩ : BufTy).Contents (Elt F)) : (⟨S7813x128, .f32⟩ : BufTy).Contents (Elt F) :=
  shapeCast S7813x128 (pad S1000064 ![0] ![64] ![0] x (zeroPad (F := F)) pads_S1000000_S1000064_0640 h_S_)
    shapeCasts_S1000064_S7813x128

/-- The marks padded with integer zeros and folded to [7813, 128]. -/
def foldMark (x : (⟨S1000000, .i32⟩ : BufTy).Contents (Elt F)) : (⟨S7813x128, .i32⟩ : BufTy).Contents (Elt F) :=
  shapeCast S7813x128 (pad S1000064 ![0] ![64] ![0] x (constantI S_ 32 0#32) pads_S1000000_S1000064_0640 h_S_)
    shapeCasts_S1000064_S7813x128

/-- A [7813, 128] array unfolded and cut back to a per-neuron vector. -/
def unfoldNode (y : (⟨S7813x128, .f32⟩ : BufTy).Contents (Elt F)) : (⟨S1000000, .f32⟩ : BufTy).Contents (Elt F) :=
  extractStridedSlice S1000000 ![0] (shapeCast S1000064 y shapeCasts_S7813x128_S1000064) slices_S1000064_S1000000_0

/-- Total plus bias, kept where the mark is positive and squashed by tanh elsewhere, entry by entry. -/
def squash (n b : FVec F S7813x128 .f32) (k : IVec S7813x128 32) : FVec F S7813x128 .f32 :=
  select (cmpi .sgt k (broadcast S7813x128 0#32)) (addf n b) (tanh (addf n b))

/-- One step of the network. -/
def step (a1 : (⟨S20000000, .f32⟩ : BufTy).Contents (Elt F)) (a3 a4 : (⟨S20000000, .i32⟩ : BufTy).Contents (Elt F))
    (bias : (⟨S1000000, .f32⟩ : BufTy).Contents (Elt F)) (mark : (⟨S1000000, .i32⟩ : BufTy).Contents (Elt F))
    (v : (⟨S1000000, .f32⟩ : BufTy).Contents (Elt F)) : (⟨S1000000, .f32⟩ : BufTy).Contents (Elt F) :=
  unfoldNode (squash (foldNode (totals a4 (messages a1 a3 v))) (foldNode bias) (foldMark mark))

/-- The program's result: three steps from the initial state, gathered at the output indices. -/
def result (a0 : (⟨S4096, .f32⟩ : BufTy).Contents (Elt F)) (a1 : (⟨S20000000, .f32⟩ : BufTy).Contents (Elt F))
    (a2 : (⟨S995904, .f32⟩ : BufTy).Contents (Elt F)) (a3 a4 : (⟨S20000000, .i32⟩ : BufTy).Contents (Elt F))
    (a5 a6 : (⟨S4096, .i32⟩ : BufTy).Contents (Elt F)) (a7 : (⟨S995904, .i32⟩ : BufTy).Contents (Elt F)) :
    (⟨S4096, .f32⟩ : BufTy).Contents (Elt F) :=
  Host.gather gather_S1000000_S4096x1_S4096_n_0_n_n_0_1_1
    (step a1 a3 a4 (biasAll a7 a2) (marks a6) (step a1 a3 a4 (biasAll a7 a2) (marks a6)
      (step a1 a3 a4 (biasAll a7 a2) (marks a6) (start a5 a0))))
    (wrapIn a6)

end Cert.KernelIdeal.Net

end
-- ==== Proof.RefNet.lean ====
/-
  The idealized reference's value, as pure functions of the argument arrays (any float instance), written over the
  same vocabulary as the kernel program's (`Net`): boolean marks at the output indices (`marksB`); a step's total —
  the messages accumulated at their destinations into zeros, then the biases accumulated ON TOP of that at the
  non-input indices (`refTotal`); the step — the total at the marked neurons, its hyperbolic tangent elsewhere
  (`refStep`); and three steps from the initial state, gathered at the output indices (`refResult`).
-/
import proofs.«144078_j73942156967974_1_alg».proof.Proof.Net

noncomputable section

namespace Cert.KernelIdeal.Net

open Idealize.ShloMosaic Idealize.ShloMosaic.TcCoe Idealize.SL.Sem
open Cert.KernelIdeal Cert.KernelIdeal.Gen

variable {F : FTy → Type} [FloatOps F]

/-- The output neurons' boolean marks: true written into false at the output indices. -/
def marksB (a6 : (⟨S4096, .i32⟩ : BufTy).Contents (Elt F)) : (⟨S1000000, .i1⟩ : BufTy).Contents (Elt F) :=
  Host.scatter scatter_S1000000_S4096x1_S4096_n_0_0_1 (fun _ b => b)
    (broadcastInDim S1000000 ![] bcast_S_S1000000 (constantI S_ 1 0#1)) (wrapIn a6)
    (broadcastInDim S4096 ![] bcast_S_S4096 (constantI S_ 1 1#1))

/-- A step's total: the accumulated messages with the biases accumulated on top. -/
def refTotal (a1 : (⟨S20000000, .f32⟩ : BufTy).Contents (Elt F)) (a2 : (⟨S995904, .f32⟩ : BufTy).Contents (Elt F)) (a3 a4 : (⟨S20000000, .i32⟩ : BufTy).Contents (Elt F))
    (a7 : (⟨S995904, .i32⟩ : BufTy).Contents (Elt F)) (v : (⟨S1000000, .f32⟩ : BufTy).Contents (Elt F)) : (⟨S1000000, .f32⟩ : BufTy).Contents (Elt F) :=
  Host.scatterAdd scatter_S1000000_S995904x1_S995904_n_0_0_1 (totals a4 (mulf (gatherSrc a3 v) a1)) (wrapRest a7) a2

/-- One step of the reference: the total where the mark is set, its tanh elsewhere. -/
def refStep (mask : (⟨S1000000, .i1⟩ : BufTy).Contents (Elt F)) (a1 : (⟨S20000000, .f32⟩ : BufTy).Contents (Elt F)) (a2 : (⟨S995904, .f32⟩ : BufTy).Contents (Elt F))
    (a3 a4 : (⟨S20000000, .i32⟩ : BufTy).Contents (Elt F)) (a7 : (⟨S995904, .i32⟩ : BufTy).Contents (Elt F)) (v : (⟨S1000000, .f32⟩ : BufTy).Contents (Elt F)) : (⟨S1000000, .f32⟩ : BufTy).Contents (Elt F) :=
  select mask (refTotal a1 a2 a3 a4 a7 v) (Host.tanh (refTotal a1 a2 a3 a4 a7 v))

/-- The reference's result: three steps from the initial state, gathered at the output indices. -/
def refResult (a0 : (⟨S4096, .f32⟩ : BufTy).Contents (Elt F)) (a1 : (⟨S20000000, .f32⟩ : BufTy).Contents (Elt F)) (a2 : (⟨S995904, .f32⟩ : BufTy).Contents (Elt F))
    (a3 a4 : (⟨S20000000, .i32⟩ : BufTy).Contents (Elt F)) (a5 a6 : (⟨S4096, .i32⟩ : BufTy).Contents (Elt F)) (a7 : (⟨S995904, .i32⟩ : BufTy).Contents (Elt F)) : (⟨S4096, .f32⟩ : BufTy).Contents (Elt F) :=
  Host.gather gather_S1000000_S4096x1_S4096_n_0_n_n_0_1_1
    (refStep (marksB a6) a1 a2 a3 a4 a7 (refStep (marksB a6) a1 a2 a3 a4 a7 (refStep (marksB a6) a1 a2 a3 a4 a7 (start a5 a0))))
    (wrapIn a6)

end Cert.KernelIdeal.Net

end
-- ==== Proof.RefRead.lean ====
/-
  The idealized reference's run, read: what its result buffer holds after @main, stretch by stretch. The first
  stretch leaves the boolean marks and the initial state; each step's stretch leaves `refStep` of the marks, the
  arguments and the state before it; the last gathers at the output indices; nothing writes an argument array. So
  every weakly fair execution ends with the result at `refResult` of the arguments and the arguments unchanged.
-/
import proofs.«144078_j73942156967974_1_alg».proof.Proof.RefOps
import proofs.«144078_j73942156967974_1_alg».proof.Proof.RefNet

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- A buffer no operation of the stretch writes holds after it what it held before. -/
macro "ref_kept" : tactic => `(tactic|
  refine (StableHlo.after_of_forall_not_mem _ _ (List.forall_iff_forall_mem.mp (by
    simp only [ops, opsA, opsS1, opsS2, opsS3, opsT,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans ?_)

/-! ## The first stretch -/

set_option maxHeartbeats 8000000 in
/-- The boolean marks. -/
theorem readA_v8 (V : Valuation τ sig (Elt F)) : after opsA V (Proc.devRef .tc main_v8) = Cert.KernelIdeal.Net.marksB (V (Proc.devRef .tc main_arg6)) := by
  simp only [opsA]
  after_results_simp
  rfl
set_option maxHeartbeats 8000000 in
/-- The initial state. -/
theorem readA_v16 (V : Valuation τ sig (Elt F)) : after opsA V (Proc.devRef .tc main_v16) = Cert.KernelIdeal.Net.start (V (Proc.devRef .tc main_arg5)) (V (Proc.devRef .tc main_arg0)) := by
  simp only [opsA]
  after_results_simp
  rfl
theorem keepA_arg1 (V : Valuation τ sig (Elt F)) : after opsA V (Proc.devRef .tc main_arg1) = V (Proc.devRef .tc main_arg1) := by
  ref_kept; rfl
theorem keepA_arg2 (V : Valuation τ sig (Elt F)) : after opsA V (Proc.devRef .tc main_arg2) = V (Proc.devRef .tc main_arg2) := by
  ref_kept; rfl
theorem keepA_arg3 (V : Valuation τ sig (Elt F)) : after opsA V (Proc.devRef .tc main_arg3) = V (Proc.devRef .tc main_arg3) := by
  ref_kept; rfl
theorem keepA_arg4 (V : Valuation τ sig (Elt F)) : after opsA V (Proc.devRef .tc main_arg4) = V (Proc.devRef .tc main_arg4) := by
  ref_kept; rfl
theorem keepA_arg6 (V : Valuation τ sig (Elt F)) : after opsA V (Proc.devRef .tc main_arg6) = V (Proc.devRef .tc main_arg6) := by
  ref_kept; rfl
theorem keepA_arg7 (V : Valuation τ sig (Elt F)) : after opsA V (Proc.devRef .tc main_arg7) = V (Proc.devRef .tc main_arg7) := by
  ref_kept; rfl

/-! ## The three steps -/

set_option maxHeartbeats 8000000 in
/-- The state after the first step, from the buffers before it. -/
theorem readS1 (V : Valuation τ sig (Elt F)) : after opsS1 V (Proc.devRef .tc main_v36) = Cert.KernelIdeal.Net.refStep (V (Proc.devRef .tc main_v8)) (V (Proc.devRef .tc main_arg1)) (V (Proc.devRef .tc main_arg2)) (V (Proc.devRef .tc main_arg3)) (V (Proc.devRef .tc main_arg4)) (V (Proc.devRef .tc main_arg7)) (V (Proc.devRef .tc main_v16)) := by
  simp only [opsS1]
  after_results_simp
  rfl
theorem keepS1_v8 (V : Valuation τ sig (Elt F)) : after opsS1 V (Proc.devRef .tc main_v8) = V (Proc.devRef .tc main_v8) := by
  ref_kept; rfl
theorem keepS1_arg1 (V : Valuation τ sig (Elt F)) : after opsS1 V (Proc.devRef .tc main_arg1) = V (Proc.devRef .tc main_arg1) := by
  ref_kept; rfl
theorem keepS1_arg2 (V : Valuation τ sig (Elt F)) : after opsS1 V (Proc.devRef .tc main_arg2) = V (Proc.devRef .tc main_arg2) := by
  ref_kept; rfl
theorem keepS1_arg3 (V : Valuation τ sig (Elt F)) : after opsS1 V (Proc.devRef .tc main_arg3) = V (Proc.devRef .tc main_arg3) := by
  ref_kept; rfl
theorem keepS1_arg4 (V : Valuation τ sig (Elt F)) : after opsS1 V (Proc.devRef .tc main_arg4) = V (Proc.devRef .tc main_arg4) := by
  ref_kept; rfl
theorem keepS1_arg6 (V : Valuation τ sig (Elt F)) : after opsS1 V (Proc.devRef .tc main_arg6) = V (Proc.devRef .tc main_arg6) := by
  ref_kept; rfl
theorem keepS1_arg7 (V : Valuation τ sig (Elt F)) : after opsS1 V (Proc.devRef .tc main_arg7) = V (Proc.devRef .tc main_arg7) := by
  ref_kept; rfl
set_option maxHeartbeats 8000000 in
/-- The state after the second step, from the buffers before it. -/
theorem readS2 (V : Valuation τ sig (Elt F)) : after opsS2 V (Proc.devRef .tc main_v56) = Cert.KernelIdeal.Net.refStep (V (Proc.devRef .tc main_v8)) (V (Proc.devRef .tc main_arg1)) (V (Proc.devRef .tc main_arg2)) (V (Proc.devRef .tc main_arg3)) (V (Proc.devRef .tc main_arg4)) (V (Proc.devRef .tc main_arg7)) (V (Proc.devRef .tc main_v36)) := by
  simp only [opsS2]
  after_results_simp
  rfl
theorem keepS2_v8 (V : Valuation τ sig (Elt F)) : after opsS2 V (Proc.devRef .tc main_v8) = V (Proc.devRef .tc main_v8) := by
  ref_kept; rfl
theorem keepS2_arg1 (V : Valuation τ sig (Elt F)) : after opsS2 V (Proc.devRef .tc main_arg1) = V (Proc.devRef .tc main_arg1) := by
  ref_kept; rfl
theorem keepS2_arg2 (V : Valuation τ sig (Elt F)) : after opsS2 V (Proc.devRef .tc main_arg2) = V (Proc.devRef .tc main_arg2) := by
  ref_kept; rfl
theorem keepS2_arg3 (V : Valuation τ sig (Elt F)) : after opsS2 V (Proc.devRef .tc main_arg3) = V (Proc.devRef .tc main_arg3) := by
  ref_kept; rfl
theorem keepS2_arg4 (V : Valuation τ sig (Elt F)) : after opsS2 V (Proc.devRef .tc main_arg4) = V (Proc.devRef .tc main_arg4) := by
  ref_kept; rfl
theorem keepS2_arg6 (V : Valuation τ sig (Elt F)) : after opsS2 V (Proc.devRef .tc main_arg6) = V (Proc.devRef .tc main_arg6) := by
  ref_kept; rfl
theorem keepS2_arg7 (V : Valuation τ sig (Elt F)) : after opsS2 V (Proc.devRef .tc main_arg7) = V (Proc.devRef .tc main_arg7) := by
  ref_kept; rfl
set_option maxHeartbeats 8000000 in
/-- The state after the third step, from the buffers before it. -/
theorem readS3 (V : Valuation τ sig (Elt F)) : after opsS3 V (Proc.devRef .tc main_v76) = Cert.KernelIdeal.Net.refStep (V (Proc.devRef .tc main_v8)) (V (Proc.devRef .tc main_arg1)) (V (Proc.devRef .tc main_arg2)) (V (Proc.devRef .tc main_arg3)) (V (Proc.devRef .tc main_arg4)) (V (Proc.devRef .tc main_arg7)) (V (Proc.devRef .tc main_v56)) := by
  simp only [opsS3]
  after_results_simp
  rfl
theorem keepS3_arg6 (V : Valuation τ sig (Elt F)) : after opsS3 V (Proc.devRef .tc main_arg6) = V (Proc.devRef .tc main_arg6) := by
  ref_kept; rfl

/-! ## The closing gather -/

set_option maxHeartbeats 8000000 in
/-- The result, from the last state. -/
theorem readT (V : Valuation τ sig (Elt F)) : after opsT V (Proc.devRef .tc main_v83) = Host.gather Cert.KernelIdeal.gather_S1000000_S4096x1_S4096_n_0_n_n_0_1_1 (V (Proc.devRef .tc main_v76)) (Cert.KernelIdeal.Net.wrapIn (V (Proc.devRef .tc main_arg6))) := by
  simp only [opsT]
  after_results_simp
  rfl

/-! ## The whole line -/

/-- The result buffer after the whole line, from the contents the line starts from. -/
theorem value (V : Valuation τ sig (Elt F)) : after ops V (Proc.devRef .tc main_v83)
    = Cert.KernelIdeal.Net.refResult (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [after_ops, readT, readS3, keepS3_arg6,
    readS2, keepS2_v8, keepS2_arg1, keepS2_arg2, keepS2_arg3, keepS2_arg4, keepS2_arg6, keepS2_arg7,
    readS1, keepS1_v8, keepS1_arg1, keepS1_arg2, keepS1_arg3, keepS1_arg4, keepS1_arg6, keepS1_arg7,
    readA_v8, readA_v16, keepA_arg1, keepA_arg2, keepA_arg3, keepA_arg4, keepA_arg6, keepA_arg7]
  first | done | rfl

set_option maxHeartbeats 4000000 in
theorem kept_arg0 (V : Valuation τ sig (Elt F)) : after ops V (Proc.devRef .tc main_arg0) = V (Proc.devRef .tc main_arg0) := by
  ref_kept; rfl
set_option maxHeartbeats 4000000 in
theorem kept_arg1 (V : Valuation τ sig (Elt F)) : after ops V (Proc.devRef .tc main_arg1) = V (Proc.devRef .tc main_arg1) := by
  ref_kept; rfl
set_option maxHeartbeats 4000000 in
theorem kept_arg2 (V : Valuation τ sig (Elt F)) : after ops V (Proc.devRef .tc main_arg2) = V (Proc.devRef .tc main_arg2) := by
  ref_kept; rfl
set_option maxHeartbeats 4000000 in
theorem kept_arg3 (V : Valuation τ sig (Elt F)) : after ops V (Proc.devRef .tc main_arg3) = V (Proc.devRef .tc main_arg3) := by
  ref_kept; rfl
set_option maxHeartbeats 4000000 in
theorem kept_arg4 (V : Valuation τ sig (Elt F)) : after ops V (Proc.devRef .tc main_arg4) = V (Proc.devRef .tc main_arg4) := by
  ref_kept; rfl
set_option maxHeartbeats 4000000 in
theorem kept_arg5 (V : Valuation τ sig (Elt F)) : after ops V (Proc.devRef .tc main_arg5) = V (Proc.devRef .tc main_arg5) := by
  ref_kept; rfl
set_option maxHeartbeats 4000000 in
theorem kept_arg6 (V : Valuation τ sig (Elt F)) : after ops V (Proc.devRef .tc main_arg6) = V (Proc.devRef .tc main_arg6) := by
  ref_kept; rfl
set_option maxHeartbeats 4000000 in
theorem kept_arg7 (V : Valuation τ sig (Elt F)) : after ops V (Proc.devRef .tc main_arg7) = V (Proc.devRef .tc main_arg7) := by
  ref_kept; rfl

/-- On every device, for any float values, from any memory with zero counters: every weakly fair execution of
    @main terminates with the result at `refResult` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v83)
        = Cert.KernelIdeal.Net.refResult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v83).trans (value _),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _)⟩)
    (run_fold m ρ)

end Cert.ReferenceIdeal.HandRun

end
-- ==== Proof.ResultRun.lean ====
/-
  The idealized kernel's run with its RESULT named. The program's @main is a chain of host stretches and six
  kernel regions; the buffers' contents at each boundary are a fold from the launch memory, and after the last
  stretch every unscoped buffer holds the fold's last value. The frame statement keeps of that only the argument
  arrays; here the result buffer is kept as well: it ends at the last fold's value at the result's reference.
-/
import proofs.«144078_j73942156967974_1_alg».proof.Proof.Gen.KernelIdeal.Frame

set_option maxRecDepth 16384

noncomputable section

namespace Cert.KernelIdeal.ResultRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the value the
    fold through @main's segments leaves there and the argument arrays as launched. -/
theorem run_result : θ_run defs (onTc (τ := τ) (main (F := F))) ⟨m, fun _ => 0, ρ⟩ (fun r => ∀ c : Dev nD,
      r.2.mem ((c.tc : Thread nD τ).loc main_v109) = W43 m ρ c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W43 m ρ c b)
    (hfin := fun c s' => by
      iintro ⟨⟨Hh, -⟩, HSI⟩
      unfold StableHlo.held
      imodintro
      iapply (pointsTo_read_all (Pipeline.ucRefs τ sig) (fun b => (((c : Thread nD τ)).1, b)) (W43 m ρ c) s')
      isplitl [Hh] <;> iassumption)
    (hQ := fun s h c =>
      ⟨h c _ (mem_uc main_v109 (by decide)),
       (h c _ (mem_uc main_arg0 (by decide))).trans (W43_main_arg0 m ρ c),
       (h c _ (mem_uc main_arg1 (by decide))).trans (W43_main_arg1 m ρ c),
       (h c _ (mem_uc main_arg2 (by decide))).trans (W43_main_arg2 m ρ c),
       (h c _ (mem_uc main_arg3 (by decide))).trans (W43_main_arg3 m ρ c),
       (h c _ (mem_uc main_arg4 (by decide))).trans (W43_main_arg4 m ρ c),
       (h c _ (mem_uc main_arg5 (by decide))).trans (W43_main_arg5 m ρ c),
       (h c _ (mem_uc main_arg6 (by decide))).trans (W43_main_arg6 m ρ c),
       (h c _ (mem_uc main_arg7 (by decide))).trans (W43_main_arg7 m ρ c)⟩)

end Cert.KernelIdeal.ResultRun

end
-- ==== Proof.FoldTactics.lean ====
/-
  Two tactics for reading the fold of buffer contents through a stretch of host operations.

  `kept_one`: a buffer that no operation of the outermost stretch writes holds after it what it held before;
  one step back through the fold, leaving the same question one stretch earlier.
  `read_stretches`: a buffer's contents after the stretches, as the writing operation's function of its operands'
  contents, operation by operation back to the contents the stretches started from.
-/
import proofs.«144078_j73942156967974_1_alg».proof.Proof.Gen.KernelIdeal.Frame

namespace Cert.KernelIdeal.Fold

open Idealize.ShloMosaic Idealize.ShloMosaic.StableHlo Cert.KernelIdeal Cert.KernelIdeal.Gen

/-- One stretch back for a buffer the stretch does not write. -/
macro "kept_one" : tactic => `(tactic|
  refine (StableHlo.after_of_forall_not_mem _ _ (List.forall_iff_forall_mem.mp (by
    simp only [hostOps0, hostOps0_1, hostOps0_2, hostOps0_3, hostOps0_4, hostOps1, hostOps1_1, hostOps1_2, hostOps1_3, hostOps1_4, hostOps1_5, hostOps1_6, hostOps2, hostOps2_1, hostOps2_2, hostOps2_3, hostOps2_4, hostOps3, hostOps3_1, hostOps3_2, hostOps3_3, hostOps3_4, hostOps3_5, hostOps3_6, hostOps4, hostOps4_1, hostOps4_2, hostOps4_3, hostOps4_4, hostOps5, hostOps5_1, hostOps5_2, hostOps5_3, hostOps5_4, hostOps5_5, hostOps5_6, hostOps6,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans ?_)

/-- The stretches' operations opened and each result read at its own buffer. -/
macro "read_stretches" : tactic => `(tactic|
  (simp only [hostOps0, hostOps0_1, hostOps0_2, hostOps0_3, hostOps0_4, hostOps1, hostOps1_1, hostOps1_2, hostOps1_3, hostOps1_4, hostOps1_5, hostOps1_6, hostOps2, hostOps2_1, hostOps2_2, hostOps2_3, hostOps2_4, hostOps3, hostOps3_1, hostOps3_2, hostOps3_3, hostOps3_4, hostOps3_5, hostOps3_6, hostOps4, hostOps4_1, hostOps4_2, hostOps4_3, hostOps4_4, hostOps5, hostOps5_1, hostOps5_2, hostOps5_3, hostOps5_4, hostOps5_5, hostOps5_6, hostOps6]
   after_results_simp))

end Cert.KernelIdeal.Fold
-- ==== Proof.Entry0a.lean ====
/-
  The first edge-product region's first operand as the region finds it: the initial state gathered at the synapse
  sources (what the first stretch leaves), then padded and folded by the short stretches before the region.
-/
import proofs.«144078_j73942156967974_1_alg».proof.Proof.FoldTactics
import proofs.«144078_j73942156967974_1_alg».proof.Proof.Net

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Net

variable {F : FTy → Type} [FloatOps F]
variable (m : (ℓ : Loc nD τ sig) → Buf (Elt F) ℓ) (ρ : Dev nD → PrngReg)

set_option maxHeartbeats 8000000 in
/-- After the first stretch: the initial state gathered at the synapse sources. -/
theorem W1_v31 (c : Dev nD) : W1 m ρ c (Proc.devRef .tc main_v31) = gatherSrc (m ((c : Thread nD τ).loc main_arg3)) (start (m ((c : Thread nD τ).loc main_arg5)) (m ((c : Thread nD τ).loc main_arg0))) := by
  dsimp only [W1]
  read_stretches
  rfl

set_option maxHeartbeats 8000000 in
/-- After the first stretch: the integer zero the padding value is converted from. -/
theorem W1_c10 (c : Dev nD) : W1 m ρ c (Proc.devRef .tc main_c_10) = constantI S_ 32 0#32 := by
  dsimp only [W1]
  read_stretches

set_option maxHeartbeats 8000000 in
/-- Region 0's first operand: what the first stretch left in the gathered-state buffer, padded and folded. -/
theorem W5_v34_of_W1 (c : Dev nD) : W5 m ρ c (Proc.devRef .tc main_v34) = foldEdge (W1 m ρ c (Proc.devRef .tc main_v31)) := by
  dsimp only [W5, W4, W3, W2]
  have h10 := W1_c10 m ρ c
  generalize W1 m ρ c = V1 at h10 ⊢
  read_stretches
  rw [h10]
  rfl

/-- Region 0's first operand: the gathered initial state, folded. -/
theorem W5_v34 (c : Dev nD) : W5 m ρ c (Proc.devRef .tc main_v34) = foldEdge (gatherSrc (m ((c : Thread nD τ).loc main_arg3)) (start (m ((c : Thread nD τ).loc main_arg5)) (m ((c : Thread nD τ).loc main_arg0)))) := by
  rw [W5_v34_of_W1, W1_v31]

end Cert.KernelIdeal.Fold

end
-- ==== Proof.Entry0b.lean ====
/-
  What the first edge-product region finds besides its first operand: the folded weights, the output marks, the
  accumulated biases, and the argument arrays later stretches read.
-/
import proofs.«144078_j73942156967974_1_alg».proof.Proof.FoldTactics
import proofs.«144078_j73942156967974_1_alg».proof.Proof.Net

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Net

variable {F : FTy → Type} [FloatOps F]
variable (m : (ℓ : Loc nD τ sig) → Buf (Elt F) ℓ) (ρ : Dev nD → PrngReg)

set_option maxHeartbeats 8000000 in
/-- Region 0's second operand: the weights, folded. -/
theorem W5_v35 (c : Dev nD) : W5 m ρ c (Proc.devRef .tc main_v35) = foldEdge (m ((c : Thread nD τ).loc main_arg1)) := by
  dsimp only [W5, W4, W3, W2, W1]
  read_stretches
  rfl
set_option maxHeartbeats 8000000 in
/-- The output marks. -/
theorem W5_v16 (c : Dev nD) : W5 m ρ c (Proc.devRef .tc main_v16) = marks (m ((c : Thread nD τ).loc main_arg6)) := by
  dsimp only [W5, W4, W3, W2, W1]
  read_stretches
  rfl
set_option maxHeartbeats 8000000 in
/-- The accumulated biases. -/
theorem W5_v24 (c : Dev nD) : W5 m ρ c (Proc.devRef .tc main_v24) = biasAll (m ((c : Thread nD τ).loc main_arg7)) (m ((c : Thread nD τ).loc main_arg2)) := by
  dsimp only [W5, W4, W3, W2, W1]
  read_stretches
  rfl
theorem W5_keep_arg1 (c : Dev nD) : W5 m ρ c (Proc.devRef .tc main_arg1) = W0 m ρ c (Proc.devRef .tc main_arg1) := by
  kept_one; kept_one; kept_one; kept_one; kept_one; rfl
theorem W5_keep_arg3 (c : Dev nD) : W5 m ρ c (Proc.devRef .tc main_arg3) = W0 m ρ c (Proc.devRef .tc main_arg3) := by
  kept_one; kept_one; kept_one; kept_one; kept_one; rfl
theorem W5_keep_arg4 (c : Dev nD) : W5 m ρ c (Proc.devRef .tc main_arg4) = W0 m ρ c (Proc.devRef .tc main_arg4) := by
  kept_one; kept_one; kept_one; kept_one; kept_one; rfl
theorem W5_keep_arg6 (c : Dev nD) : W5 m ρ c (Proc.devRef .tc main_arg6) = W0 m ρ c (Proc.devRef .tc main_arg6) := by
  kept_one; kept_one; kept_one; kept_one; kept_one; rfl

end Cert.KernelIdeal.Fold

end
-- ==== Proof.EdgeProduct0.lean ====
/-
  The edge-product region number 0 of the program (one of the three per-step launches of the multiply kernel), read
  as one function of the arrays it finds: the grid walks the [163840, 128] operands in twenty row blocks of
  [8192, 128]; at each point the body multiplies the two input blocks entry by entry and stores the product block;
  all three windows move with the same block index, the blocks tile the array, so the output array ends holding
  the entry-by-entry product of the two input arrays (`final`).
-/
import proofs.«144078_j73942156967974_1_alg».proof.Proof.Gen.KernelIdeal.Frame
import Idealize.ShloMosaic.Lib.Pipeline.Value

set_option maxRecDepth 16384

noncomputable section

namespace Cert.KernelIdeal.EdgeProduct0

open Idealize.ShloMosaic Idealize.ShloMosaic.TcCoe Idealize.SL.Sem
open Cert.KernelIdeal Cert.KernelIdeal.Gen
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Two [163840, 128] arrays multiplied entry by entry. -/
abbrev prod (a0 a1 : S163840x128.Idx → Elt F .f32) : S163840x128.Idx → Elt F .f32 := fun i => FloatOps.mulf (a0 i) (a1 i)

/-- The body's stored value is the entry-by-entry product of its two loaded blocks (its shape casts are to the
    blocks' own shape). -/
theorem pay_eq (x0 x1 : Vec F S8192x128 .f32) : k0_pay1 x0 x1 = mulf x0 x1 := by
  unfold k0_pay1; rw [shapeCast_self, shapeCast_self]

/-- Over the grid: the three windows share one block index, which runs over the twenty row blocks. -/
theorem idx_facts : ∀ t : Fin cfg0.N,
    win0_0.index t (0 : Fin 2) = win0_2.index t (0 : Fin 2) ∧ win0_0.index t (1 : Fin 2) = win0_2.index t (1 : Fin 2)
    ∧ win0_1.index t (0 : Fin 2) = win0_2.index t (0 : Fin 2) ∧ win0_1.index t (1 : Fin 2) = win0_2.index t (1 : Fin 2)
    ∧ win0_2.index t (0 : Fin 2) ≤ 19 ∧ win0_2.index t (1 : Fin 2) = 0 :=
  (by decide +kernel : ∀ t : Fin grid0.N, _)

/-- Every row block is some point's. -/
theorem idx_onto : ∀ q0 : Fin 20, ∃ t : Fin cfg0.N, win0_2.index t = ![q0.val, 0] :=
  (by decide +kernel : ∀ q0 : Fin 20, ∃ t : Fin grid0.N, win0_2.index t = ![q0.val, 0])

/-- What point `t` writes back is block `t` of the product of the two input arrays. -/
theorem flushed_eq (c : Dev nD) (t : Fin cfg0.N) :
    (dat0 V c).flushed 2 t = ((cfg0.win 2).blk t).view.read (Elt F) (prod (V c main_v34) (V c main_v35)) := by
  show (cfg0.win 2).cut (grid0.coords t) ((dat0 V c).after 2 t) = _
  rw [after0_2]
  unfold out0_2
  rw [View.canon_unit_zero hz]
  simp only [View.ld_unit_zero (S := S8192x128) hz]
  rw [pay_eq]
  obtain ⟨e0, e1, e2, e3, -, -⟩ := idx_facts t
  funext j
  show FloatOps.mulf (V c main_v34 (((cfg0.win 0).blk t).view.emb j)) (V c main_v35 (((cfg0.win 1).blk t).view.emb j))
    = FloatOps.mulf (V c main_v34 (((cfg0.win 2).blk t).view.emb j)) (V c main_v35 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 8192 + 1 * (j 0).val = win0_2.index t (0 : Fin 2) * 8192 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 8192 + 1 * (j 0).val = win0_2.index t (0 : Fin 2) * 8192 + 1 * (j 0).val; omega
    | ⟨1, _⟩ => show win0_1.index t (1 : Fin 2) * 128 + 1 * (j 1).val = win0_2.index t (1 : Fin 2) * 128 + 1 * (j 1).val; omega
  rw [h0, h1]

/-- An index of the output array is in point `t`'s block iff each coordinate is in the block's range. -/
theorem mem_blk (t : Fin cfg0.N) (i : S163840x128.Idx) :
    i ∈ ((cfg0.win 2).blk t).view.set ↔ ∀ a : Fin 2, win0_2.index t a * S8192x128.size a ≤ (i a).val ∧ (i a).val < win0_2.index t a * S8192x128.size a + S8192x128.size a := by
  show i ∈ ((View.whole main_v36).slice (win0_2.rect t)).set ↔ _
  rw [View.set_slice_whole, Rect.mem_set_unit]
  exact Iff.rfl

/-- Every index of the output array is in the block of the point whose block index is its row divided by 8192. -/
theorem cover (i : S163840x128.Idx) :
    ∃ t : Fin cfg0.N, (cfg0.win 2).flush t = true ∧ i ∈ ((cfg0.win 2).blk t).view.set := by
  have hi0 : (i 0).val < 163840 := (i 0).isLt
  have hi1 : (i 1).val < 128 := (i 1).isLt
  obtain ⟨t, ht⟩ := idx_onto ⟨(i 0).val / 8192, by omega⟩
  have q0 : win0_2.index t (0 : Fin 2) = (i 0).val / 8192 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 128 ≤ (i 1).val ∧ (i 1).val < win0_2.index t (1 : Fin 2) * 128 + 128; omega

/-- The output array after the region: the entry-by-entry product of the two input arrays as the region found them. -/
theorem final (c : Dev nD) : (dat0 V c).arrAt 2 cfg0.N = prod (V c main_v34) (V c main_v35) :=
  (dat0 V c).arrAt_eq_of_cover 2 _ (fun t _ => flushed_eq V c t) cover

end Cert.KernelIdeal.EdgeProduct0

end
-- ==== Proof.Exit0.lean ====
/-
  Edge-product region 0's exit: its output array holds the entry-by-entry product of its two operands as it found
  them; every other buffer is as at its entry.
-/
import proofs.«144078_j73942156967974_1_alg».proof.Proof.Net
import proofs.«144078_j73942156967974_1_alg».proof.Proof.EdgeProduct0

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Net

variable {F : FTy → Type} [FloatOps F]
variable (m : (ℓ : Loc nD τ sig) → Buf (Elt F) ℓ) (ρ : Dev nD → PrngReg)

/-- The region's output array at its exit. -/
theorem W6_v36 (c : Dev nD) : W6 m ρ c (Proc.devRef .tc main_v36)
    = fun i => FloatOps.mulf (W5 m ρ c (Proc.devRef .tc main_v34) i) (W5 m ρ c (Proc.devRef .tc main_v35) i) :=
  (W6_arr m ρ c 2).trans (EdgeProduct0.final (V5 m ρ) c)
theorem W6_keep_v16 (c : Dev nD) : W6 m ρ c (Proc.devRef .tc main_v16) = W5 m ρ c (Proc.devRef .tc main_v16) := W6_of_ne m ρ c main_v16 (by decide)
theorem W6_keep_v24 (c : Dev nD) : W6 m ρ c (Proc.devRef .tc main_v24) = W5 m ρ c (Proc.devRef .tc main_v24) := W6_of_ne m ρ c main_v24 (by decide)
theorem W6_keep_arg1 (c : Dev nD) : W6 m ρ c (Proc.devRef .tc main_arg1) = W5 m ρ c (Proc.devRef .tc main_arg1) := W6_of_ne m ρ c main_arg1 (by decide)
theorem W6_keep_arg3 (c : Dev nD) : W6 m ρ c (Proc.devRef .tc main_arg3) = W5 m ρ c (Proc.devRef .tc main_arg3) := W6_of_ne m ρ c main_arg3 (by decide)
theorem W6_keep_arg4 (c : Dev nD) : W6 m ρ c (Proc.devRef .tc main_arg4) = W5 m ρ c (Proc.devRef .tc main_arg4) := W6_of_ne m ρ c main_arg4 (by decide)
theorem W6_keep_arg6 (c : Dev nD) : W6 m ρ c (Proc.devRef .tc main_arg6) = W5 m ρ c (Proc.devRef .tc main_arg6) := W6_of_ne m ρ c main_arg6 (by decide)

end Cert.KernelIdeal.Fold

end
-- ==== Proof.Entry1.lean ====
/-
  What bias-and-squash region 1 finds: the messages the preceding edge-product region left, unfolded and
  accumulated at their destinations, padded and folded; the biases and the marks, padded and folded; and the buffers
  later stretches still read, unchanged.
-/
import proofs.«144078_j73942156967974_1_alg».proof.Proof.FoldTactics
import proofs.«144078_j73942156967974_1_alg».proof.Proof.Net

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Net

variable {F : FTy → Type} [FloatOps F]
variable (m : (ℓ : Loc nD τ sig) → Buf (Elt F) ℓ) (ρ : Dev nD → PrngReg)

set_option maxHeartbeats 8000000 in
/-- The region's first operand: the accumulated messages, folded. -/
theorem W13_v45 (c : Dev nD) : W13 m ρ c (Proc.devRef .tc main_v45) = foldNode (totals (W6 m ρ c (Proc.devRef .tc main_arg4)) (unfoldEdge (W6 m ρ c (Proc.devRef .tc main_v36)))) := by
  dsimp only [W13, W12, W11, W10, W9, W8, W7]
  read_stretches
  rfl
set_option maxHeartbeats 8000000 in
/-- The region's second operand: the biases, folded. -/
theorem W13_v46 (c : Dev nD) : W13 m ρ c (Proc.devRef .tc main_v46) = foldNode (W6 m ρ c (Proc.devRef .tc main_v24)) := by
  dsimp only [W13, W12, W11, W10, W9, W8, W7]
  read_stretches
  rfl
set_option maxHeartbeats 8000000 in
/-- The region's third operand: the marks, folded. -/
theorem W13_v47 (c : Dev nD) : W13 m ρ c (Proc.devRef .tc main_v47) = foldMark (W6 m ρ c (Proc.devRef .tc main_v16)) := by
  dsimp only [W13, W12, W11, W10, W9, W8, W7]
  read_stretches
  rfl
theorem W13_keep_v16 (c : Dev nD) : W13 m ρ c (Proc.devRef .tc main_v16) = W6 m ρ c (Proc.devRef .tc main_v16) := by
  kept_one; kept_one; kept_one; kept_one; kept_one; kept_one; kept_one; rfl
theorem W13_keep_v24 (c : Dev nD) : W13 m ρ c (Proc.devRef .tc main_v24) = W6 m ρ c (Proc.devRef .tc main_v24) := by
  kept_one; kept_one; kept_one; kept_one; kept_one; kept_one; kept_one; rfl
theorem W13_keep_arg1 (c : Dev nD) : W13 m ρ c (Proc.devRef .tc main_arg1) = W6 m ρ c (Proc.devRef .tc main_arg1) := by
  kept_one; kept_one; kept_one; kept_one; kept_one; kept_one; kept_one; rfl
theorem W13_keep_arg3 (c : Dev nD) : W13 m ρ c (Proc.devRef .tc main_arg3) = W6 m ρ c (Proc.devRef .tc main_arg3) := by
  kept_one; kept_one; kept_one; kept_one; kept_one; kept_one; kept_one; rfl
theorem W13_keep_arg4 (c : Dev nD) : W13 m ρ c (Proc.devRef .tc main_arg4) = W6 m ρ c (Proc.devRef .tc main_arg4) := by
  kept_one; kept_one; kept_one; kept_one; kept_one; kept_one; kept_one; rfl
theorem W13_keep_arg6 (c : Dev nD) : W13 m ρ c (Proc.devRef .tc main_arg6) = W6 m ρ c (Proc.devRef .tc main_arg6) := by
  kept_one; kept_one; kept_one; kept_one; kept_one; kept_one; kept_one; rfl

end Cert.KernelIdeal.Fold

end
-- ==== Proof.BiasSquash1.lean ====
/-
  The bias-and-squash region number 1 of the program (one of the three per-step launches of the second kernel), read
  as one function of the arrays it finds: the grid has ONE point and every window's block is its whole
  [7813, 128] array, so the output array ends holding the body's value of the three whole input arrays (`final`):
  entry by entry, with s = total + bias, the entry is s where the mark is positive and tanh s elsewhere.
-/
import proofs.«144078_j73942156967974_1_alg».proof.Proof.Gen.KernelIdeal.Frame
import Idealize.ShloMosaic.Lib.Pipeline.Value

set_option maxRecDepth 16384

noncomputable section

namespace Cert.KernelIdeal.BiasSquash1

open Idealize.ShloMosaic Idealize.ShloMosaic.TcCoe Idealize.SL.Sem
open Cert.KernelIdeal Cert.KernelIdeal.Gen
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Over the grid's one point every window's block index is zero on both axes. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- A block's element sits, in its array, at the same coordinates: the block is the array. -/
theorem emb0 (t : Fin cfg1.N) (j : S7813x128.Idx) : ((cfg1.win 0).blk t).view.emb j = j := by
  obtain ⟨e0, e1, -⟩ := idx_facts t
  funext a; apply Fin.ext
  match a with
  | ⟨0, _⟩ => show win1_0.index t (0 : Fin 2) * 7813 + 1 * (j 0).val = (j 0).val; omega
  | ⟨1, _⟩ => show win1_0.index t (1 : Fin 2) * 128 + 1 * (j 1).val = (j 1).val; omega
theorem emb1 (t : Fin cfg1.N) (j : S7813x128.Idx) : ((cfg1.win 1).blk t).view.emb j = j := by
  obtain ⟨-, -, e0, e1, -⟩ := idx_facts t
  funext a; apply Fin.ext
  match a with
  | ⟨0, _⟩ => show win1_1.index t (0 : Fin 2) * 7813 + 1 * (j 0).val = (j 0).val; omega
  | ⟨1, _⟩ => show win1_1.index t (1 : Fin 2) * 128 + 1 * (j 1).val = (j 1).val; omega
theorem emb2 (t : Fin cfg1.N) (j : S7813x128.Idx) : ((cfg1.win 2).blk t).view.emb j = j := by
  obtain ⟨-, -, -, -, e0, e1, -⟩ := idx_facts t
  funext a; apply Fin.ext
  match a with
  | ⟨0, _⟩ => show win1_2.index t (0 : Fin 2) * 7813 + 1 * (j 0).val = (j 0).val; omega
  | ⟨1, _⟩ => show win1_2.index t (1 : Fin 2) * 128 + 1 * (j 1).val = (j 1).val; omega
theorem emb3 (t : Fin cfg1.N) (j : S7813x128.Idx) : ((cfg1.win 3).blk t).view.emb j = j := by
  obtain ⟨-, -, -, -, -, -, e0, e1⟩ := idx_facts t
  funext a; apply Fin.ext
  match a with
  | ⟨0, _⟩ => show win1_3.index t (0 : Fin 2) * 7813 + 1 * (j 0).val = (j 0).val; omega
  | ⟨1, _⟩ => show win1_3.index t (1 : Fin 2) * 128 + 1 * (j 1).val = (j 1).val; omega

/-- Each input window's block at the point is its whole array. -/
theorem blk0 (c : Dev nD) (t : Fin cfg1.N) : (iblk1 V c 0 t : S7813x128.Idx → Elt F .f32) = V c main_v45 := by
  funext j
  show V c main_v45 (((cfg1.win 0).blk t).view.emb j) = V c main_v45 j
  rw [emb0]
theorem blk1 (c : Dev nD) (t : Fin cfg1.N) : (iblk1 V c 1 t : S7813x128.Idx → Elt F .f32) = V c main_v46 := by
  funext j
  show V c main_v46 (((cfg1.win 1).blk t).view.emb j) = V c main_v46 j
  rw [emb1]
theorem blk2 (c : Dev nD) (t : Fin cfg1.N) : (iblk1 V c 2 t : S7813x128.Idx → Elt F .i32) = V c main_v47 := by
  funext j
  show V c main_v47 (((cfg1.win 2).blk t).view.emb j) = V c main_v47 j
  rw [emb2]

/-- What the one point writes back is the whole of the body's value of the three input arrays. -/
theorem flushed_eq (c : Dev nD) (t : Fin cfg1.N) :
    (dat1 V c).flushed 3 t = ((cfg1.win 3).blk t).view.read (Elt F) (k1_pay1 (V c main_v45) (V c main_v46) (V c main_v47)) := by
  show (cfg1.win 3).cut (grid1.coords t) ((dat1 V c).after 3 t) = _
  rw [after1_3]
  unfold out1_3
  rw [View.canon_unit_zero hz]
  simp only [View.ld_unit_zero (S := S7813x128) hz]
  funext j
  show k1_pay1 (iblk1 V c 0 t) (iblk1 V c 1 t) (iblk1 V c 2 t) j
    = k1_pay1 (V c main_v45) (V c main_v46) (V c main_v47) (((cfg1.win 3).blk t).view.emb j)
  rw [emb3, blk0, blk1, blk2]

/-- An index of the output array is in the point's block iff each coordinate is in the block's range. -/
theorem mem_blk (t : Fin cfg1.N) (i : S7813x128.Idx) :
    i ∈ ((cfg1.win 3).blk t).view.set ↔ ∀ a : Fin 2, win1_3.index t a * S7813x128.size a ≤ (i a).val ∧ (i a).val < win1_3.index t a * S7813x128.size a + S7813x128.size a := by
  show i ∈ ((View.whole main_v48).slice (win1_3.rect t)).set ↔ _
  rw [View.set_slice_whole, Rect.mem_set_unit]
  exact Iff.rfl

/-- The one block covers the output array. -/
theorem cover (i : S7813x128.Idx) :
    ∃ t : Fin cfg1.N, (cfg1.win 3).flush t = true ∧ i ∈ ((cfg1.win 3).blk t).view.set := by
  have hi0 : (i 0).val < 7813 := (i 0).isLt
  have hi1 : (i 1).val < 128 := (i 1).isLt
  obtain ⟨-, -, -, -, -, -, q0, q1⟩ := idx_facts t1_0
  refine ⟨t1_0, flush1_3 t1_0, ?_⟩
  rw [mem_blk]
  intro a
  match a with
  | ⟨0, _⟩ => show win1_3.index t1_0 (0 : Fin 2) * 7813 ≤ (i 0).val ∧ (i 0).val < win1_3.index t1_0 (0 : Fin 2) * 7813 + 7813; omega
  | ⟨1, _⟩ => show win1_3.index t1_0 (1 : Fin 2) * 128 ≤ (i 1).val ∧ (i 1).val < win1_3.index t1_0 (1 : Fin 2) * 128 + 128; omega

/-- The output array after the region: the body's value of the three input arrays as the region found them. -/
theorem final (c : Dev nD) : (dat1 V c).arrAt 3 cfg1.N = k1_pay1 (V c main_v45) (V c main_v46) (V c main_v47) :=
  (dat1 V c).arrAt_eq_of_cover 3 _ (fun t _ => flushed_eq V c t) cover

end Cert.KernelIdeal.BiasSquash1

end
-- ==== Proof.Exit1.lean ====
/-
  Bias-and-squash region 1's exit: its output array holds the squashed sum of its operands as it found them; every
  other buffer is as at its entry.
-/
import proofs.«144078_j73942156967974_1_alg».proof.Proof.Net
import proofs.«144078_j73942156967974_1_alg».proof.Proof.BiasSquash1
import Idealize.ShloMosaic.Lib.Pipeline.Value

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Net

variable {F : FTy → Type} [FloatOps F]
variable (m : (ℓ : Loc nD τ sig) → Buf (Elt F) ℓ) (ρ : Dev nD → PrngReg)

/-- The body's stored value is `squash` of its three loaded blocks (its shape casts are to the blocks' own shape). -/
theorem pay1_eq (x0 x1 : Vec F S7813x128 .f32) (x2 : Vec F S7813x128 .i32) : k1_pay1 x0 x1 x2 = squash x0 x1 x2 := by
  unfold k1_pay1 squash
  dsimp only
  rw [shapeCast_self, shapeCast_self, shapeCast_self]

/-- The region's output array at its exit. -/
theorem W14_v48 (c : Dev nD) : W14 m ρ c (Proc.devRef .tc main_v48)
    = squash (W13 m ρ c (Proc.devRef .tc main_v45)) (W13 m ρ c (Proc.devRef .tc main_v46)) (W13 m ρ c (Proc.devRef .tc main_v47)) :=
  ((W14_arr m ρ c 3).trans (BiasSquash1.final (V13 m ρ) c)).trans (pay1_eq _ _ _)
theorem W14_keep_v16 (c : Dev nD) : W14 m ρ c (Proc.devRef .tc main_v16) = W13 m ρ c (Proc.devRef .tc main_v16) := W14_of_ne m ρ c main_v16 (by decide)
theorem W14_keep_v24 (c : Dev nD) : W14 m ρ c (Proc.devRef .tc main_v24) = W13 m ρ c (Proc.devRef .tc main_v24) := W14_of_ne m ρ c main_v24 (by decide)
theorem W14_keep_arg1 (c : Dev nD) : W14 m ρ c (Proc.devRef .tc main_arg1) = W13 m ρ c (Proc.devRef .tc main_arg1) := W14_of_ne m ρ c main_arg1 (by decide)
theorem W14_keep_arg3 (c : Dev nD) : W14 m ρ c (Proc.devRef .tc main_arg3) = W13 m ρ c (Proc.devRef .tc main_arg3) := W14_of_ne m ρ c main_arg3 (by decide)
theorem W14_keep_arg4 (c : Dev nD) : W14 m ρ c (Proc.devRef .tc main_arg4) = W13 m ρ c (Proc.devRef .tc main_arg4) := W14_of_ne m ρ c main_arg4 (by decide)
theorem W14_keep_arg6 (c : Dev nD) : W14 m ρ c (Proc.devRef .tc main_arg6) = W13 m ρ c (Proc.devRef .tc main_arg6) := W14_of_ne m ρ c main_arg6 (by decide)

end Cert.KernelIdeal.Fold

end
-- ==== Proof.Entry2.lean ====
/-
  What edge-product region 2 finds: the state the preceding bias-and-squash region left, unfolded, gathered at
  the synapse sources, padded and folded; the weights, padded and folded; and the buffers later stretches still
  read, unchanged.
-/
import proofs.«144078_j73942156967974_1_alg».proof.Proof.FoldTactics
import proofs.«144078_j73942156967974_1_alg».proof.Proof.Net

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Net

variable {F : FTy → Type} [FloatOps F]
variable (m : (ℓ : Loc nD τ sig) → Buf (Elt F) ℓ) (ρ : Dev nD → PrngReg)

set_option maxHeartbeats 8000000 in
/-- The region's first operand: the gathered state, folded. -/
theorem W19_v60 (c : Dev nD) : W19 m ρ c (Proc.devRef .tc main_v60) = foldEdge (gatherSrc (W14 m ρ c (Proc.devRef .tc main_arg3)) (unfoldNode (W14 m ρ c (Proc.devRef .tc main_v48)))) := by
  dsimp only [W19, W18, W17, W16, W15]
  read_stretches
  rfl
set_option maxHeartbeats 8000000 in
/-- The region's second operand: the weights, folded. -/
theorem W19_v61 (c : Dev nD) : W19 m ρ c (Proc.devRef .tc main_v61) = foldEdge (W14 m ρ c (Proc.devRef .tc main_arg1)) := by
  dsimp only [W19, W18, W17, W16, W15]
  read_stretches
  rfl
theorem W19_keep_v16 (c : Dev nD) : W19 m ρ c (Proc.devRef .tc main_v16) = W14 m ρ c (Proc.devRef .tc main_v16) := by
  kept_one; kept_one; kept_one; kept_one; kept_one; rfl
theorem W19_keep_v24 (c : Dev nD) : W19 m ρ c (Proc.devRef .tc main_v24) = W14 m ρ c (Proc.devRef .tc main_v24) := by
  kept_one; kept_one; kept_one; kept_one; kept_one; rfl
theorem W19_keep_arg1 (c : Dev nD) : W19 m ρ c (Proc.devRef .tc main_arg1) = W14 m ρ c (Proc.devRef .tc main_arg1) := by
  kept_one; kept_one; kept_one; kept_one; kept_one; rfl
theorem W19_keep_arg3 (c : Dev nD) : W19 m ρ c (Proc.devRef .tc main_arg3) = W14 m ρ c (Proc.devRef .tc main_arg3) := by
  kept_one; kept_one; kept_one; kept_one; kept_one; rfl
theorem W19_keep_arg4 (c : Dev nD) : W19 m ρ c (Proc.devRef .tc main_arg4) = W14 m ρ c (Proc.devRef .tc main_arg4) := by
  kept_one; kept_one; kept_one; kept_one; kept_one; rfl
theorem W19_keep_arg6 (c : Dev nD) : W19 m ρ c (Proc.devRef .tc main_arg6) = W14 m ρ c (Proc.devRef .tc main_arg6) := by
  kept_one; kept_one; kept_one; kept_one; kept_one; rfl

end Cert.KernelIdeal.Fold

end
-- ==== Proof.EdgeProduct2.lean ====
/-
  The edge-product region number 2 of the program (one of the three per-step launches of the multiply kernel), read
  as one function of the arrays it finds: the grid walks the [163840, 128] operands in twenty row blocks of
  [8192, 128]; at each point the body multiplies the two input blocks entry by entry and stores the product block;
  all three windows move with the same block index, the blocks tile the array, so the output array ends holding
  the entry-by-entry product of the two input arrays (`final`).
-/
import proofs.«144078_j73942156967974_1_alg».proof.Proof.Gen.KernelIdeal.Frame
import Idealize.ShloMosaic.Lib.Pipeline.Value

set_option maxRecDepth 16384

noncomputable section

namespace Cert.KernelIdeal.EdgeProduct2

open Idealize.ShloMosaic Idealize.ShloMosaic.TcCoe Idealize.SL.Sem
open Cert.KernelIdeal Cert.KernelIdeal.Gen
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Two [163840, 128] arrays multiplied entry by entry. -/
abbrev prod (a0 a1 : S163840x128.Idx → Elt F .f32) : S163840x128.Idx → Elt F .f32 := fun i => FloatOps.mulf (a0 i) (a1 i)

/-- The body's stored value is the entry-by-entry product of its two loaded blocks (its shape casts are to the
    blocks' own shape). -/
theorem pay_eq (x0 x1 : Vec F S8192x128 .f32) : k2_pay1 x0 x1 = mulf x0 x1 := by
  unfold k2_pay1; rw [shapeCast_self, shapeCast_self]

/-- Over the grid: the three windows share one block index, which runs over the twenty row blocks. -/
theorem idx_facts : ∀ t : Fin cfg2.N,
    win2_0.index t (0 : Fin 2) = win2_2.index t (0 : Fin 2) ∧ win2_0.index t (1 : Fin 2) = win2_2.index t (1 : Fin 2)
    ∧ win2_1.index t (0 : Fin 2) = win2_2.index t (0 : Fin 2) ∧ win2_1.index t (1 : Fin 2) = win2_2.index t (1 : Fin 2)
    ∧ win2_2.index t (0 : Fin 2) ≤ 19 ∧ win2_2.index t (1 : Fin 2) = 0 :=
  (by decide +kernel : ∀ t : Fin grid2.N, _)

/-- Every row block is some point's. -/
theorem idx_onto : ∀ q0 : Fin 20, ∃ t : Fin cfg2.N, win2_2.index t = ![q0.val, 0] :=
  (by decide +kernel : ∀ q0 : Fin 20, ∃ t : Fin grid2.N, win2_2.index t = ![q0.val, 0])

/-- What point `t` writes back is block `t` of the product of the two input arrays. -/
theorem flushed_eq (c : Dev nD) (t : Fin cfg2.N) :
    (dat2 V c).flushed 2 t = ((cfg2.win 2).blk t).view.read (Elt F) (prod (V c main_v60) (V c main_v61)) := by
  show (cfg2.win 2).cut (grid2.coords t) ((dat2 V c).after 2 t) = _
  rw [after2_2]
  unfold out2_2
  rw [View.canon_unit_zero hz]
  simp only [View.ld_unit_zero (S := S8192x128) hz]
  rw [pay_eq]
  obtain ⟨e0, e1, e2, e3, -, -⟩ := idx_facts t
  funext j
  show FloatOps.mulf (V c main_v60 (((cfg2.win 0).blk t).view.emb j)) (V c main_v61 (((cfg2.win 1).blk t).view.emb j))
    = FloatOps.mulf (V c main_v60 (((cfg2.win 2).blk t).view.emb j)) (V c main_v61 (((cfg2.win 2).blk t).view.emb j))
  have h0 : ((cfg2.win 0).blk t).view.emb j = ((cfg2.win 2).blk t).view.emb j := by
    funext a; apply Fin.ext
    match a with
    | ⟨0, _⟩ => show win2_0.index t (0 : Fin 2) * 8192 + 1 * (j 0).val = win2_2.index t (0 : Fin 2) * 8192 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb j = ((cfg2.win 2).blk t).view.emb j := by
    funext a; apply Fin.ext
    match a with
    | ⟨0, _⟩ => show win2_1.index t (0 : Fin 2) * 8192 + 1 * (j 0).val = win2_2.index t (0 : Fin 2) * 8192 + 1 * (j 0).val; omega
    | ⟨1, _⟩ => show win2_1.index t (1 : Fin 2) * 128 + 1 * (j 1).val = win2_2.index t (1 : Fin 2) * 128 + 1 * (j 1).val; omega
  rw [h0, h1]

/-- An index of the output array is in point `t`'s block iff each coordinate is in the block's range. -/
theorem mem_blk (t : Fin cfg2.N) (i : S163840x128.Idx) :
    i ∈ ((cfg2.win 2).blk t).view.set ↔ ∀ a : Fin 2, win2_2.index t a * S8192x128.size a ≤ (i a).val ∧ (i a).val < win2_2.index t a * S8192x128.size a + S8192x128.size a := by
  show i ∈ ((View.whole main_v62).slice (win2_2.rect t)).set ↔ _
  rw [View.set_slice_whole, Rect.mem_set_unit]
  exact Iff.rfl

/-- Every index of the output array is in the block of the point whose block index is its row divided by 8192. -/
theorem cover (i : S163840x128.Idx) :
    ∃ t : Fin cfg2.N, (cfg2.win 2).flush t = true ∧ i ∈ ((cfg2.win 2).blk t).view.set := by
  have hi0 : (i 0).val < 163840 := (i 0).isLt
  have hi1 : (i 1).val < 128 := (i 1).isLt
  obtain ⟨t, ht⟩ := idx_onto ⟨(i 0).val / 8192, by omega⟩
  have q0 : win2_2.index t (0 : Fin 2) = (i 0).val / 8192 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 8192 ≤ (i 0).val ∧ (i 0).val < win2_2.index t (0 : Fin 2) * 8192 + 8192; omega
  | ⟨1, _⟩ => show win2_2.index t (1 : Fin 2) * 128 ≤ (i 1).val ∧ (i 1).val < win2_2.index t (1 : Fin 2) * 128 + 128; omega

/-- The output array after the region: the entry-by-entry product of the two input arrays as the region found them. -/
theorem final (c : Dev nD) : (dat2 V c).arrAt 2 cfg2.N = prod (V c main_v60) (V c main_v61) :=
  (dat2 V c).arrAt_eq_of_cover 2 _ (fun t _ => flushed_eq V c t) cover

end Cert.KernelIdeal.EdgeProduct2

end
-- ==== Proof.Exit2.lean ====
/-
  Edge-product region 2's exit: its output array holds the entry-by-entry product of its two operands as it found
  them; every other buffer is as at its entry.
-/
import proofs.«144078_j73942156967974_1_alg».proof.Proof.Net
import proofs.«144078_j73942156967974_1_alg».proof.Proof.EdgeProduct2

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Net

variable {F : FTy → Type} [FloatOps F]
variable (m : (ℓ : Loc nD τ sig) → Buf (Elt F) ℓ) (ρ : Dev nD → PrngReg)

/-- The region's output array at its exit. -/
theorem W20_v62 (c : Dev nD) : W20 m ρ c (Proc.devRef .tc main_v62)
    = fun i => FloatOps.mulf (W19 m ρ c (Proc.devRef .tc main_v60) i) (W19 m ρ c (Proc.devRef .tc main_v61) i) :=
  (W20_arr m ρ c 2).trans (EdgeProduct2.final (V19 m ρ) c)
theorem W20_keep_v16 (c : Dev nD) : W20 m ρ c (Proc.devRef .tc main_v16) = W19 m ρ c (Proc.devRef .tc main_v16) := W20_of_ne m ρ c main_v16 (by decide)
theorem W20_keep_v24 (c : Dev nD) : W20 m ρ c (Proc.devRef .tc main_v24) = W19 m ρ c (Proc.devRef .tc main_v24) := W20_of_ne m ρ c main_v24 (by decide)
theorem W20_keep_arg1 (c : Dev nD) : W20 m ρ c (Proc.devRef .tc main_arg1) = W19 m ρ c (Proc.devRef .tc main_arg1) := W20_of_ne m ρ c main_arg1 (by decide)
theorem W20_keep_arg3 (c : Dev nD) : W20 m ρ c (Proc.devRef .tc main_arg3) = W19 m ρ c (Proc.devRef .tc main_arg3) := W20_of_ne m ρ c main_arg3 (by decide)
theorem W20_keep_arg4 (c : Dev nD) : W20 m ρ c (Proc.devRef .tc main_arg4) = W19 m ρ c (Proc.devRef .tc main_arg4) := W20_of_ne m ρ c main_arg4 (by decide)
theorem W20_keep_arg6 (c : Dev nD) : W20 m ρ c (Proc.devRef .tc main_arg6) = W19 m ρ c (Proc.devRef .tc main_arg6) := W20_of_ne m ρ c main_arg6 (by decide)

end Cert.KernelIdeal.Fold

end
-- ==== Proof.Entry3.lean ====
/-
  What bias-and-squash region 3 finds: the messages the preceding edge-product region left, unfolded and
  accumulated at their destinations, padded and folded; the biases and the marks, padded and folded; and the buffers
  later stretches still read, unchanged.
-/
import proofs.«144078_j73942156967974_1_alg».proof.Proof.FoldTactics
import proofs.«144078_j73942156967974_1_alg».proof.Proof.Net

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Net

variable {F : FTy → Type} [FloatOps F]
variable (m : (ℓ : Loc nD τ sig) → Buf (Elt F) ℓ) (ρ : Dev nD → PrngReg)

set_option maxHeartbeats 8000000 in
/-- The region's first operand: the accumulated messages, folded. -/
theorem W27_v71 (c : Dev nD) : W27 m ρ c (Proc.devRef .tc main_v71) = foldNode (totals (W20 m ρ c (Proc.devRef .tc main_arg4)) (unfoldEdge (W20 m ρ c (Proc.devRef .tc main_v62)))) := by
  dsimp only [W27, W26, W25, W24, W23, W22, W21]
  read_stretches
  rfl
set_option maxHeartbeats 8000000 in
/-- The region's second operand: the biases, folded. -/
theorem W27_v72 (c : Dev nD) : W27 m ρ c (Proc.devRef .tc main_v72) = foldNode (W20 m ρ c (Proc.devRef .tc main_v24)) := by
  dsimp only [W27, W26, W25, W24, W23, W22, W21]
  read_stretches
  rfl
set_option maxHeartbeats 8000000 in
/-- The region's third operand: the marks, folded. -/
theorem W27_v73 (c : Dev nD) : W27 m ρ c (Proc.devRef .tc main_v73) = foldMark (W20 m ρ c (Proc.devRef .tc main_v16)) := by
  dsimp only [W27, W26, W25, W24, W23, W22, W21]
  read_stretches
  rfl
theorem W27_keep_v16 (c : Dev nD) : W27 m ρ c (Proc.devRef .tc main_v16) = W20 m ρ c (Proc.devRef .tc main_v16) := by
  kept_one; kept_one; kept_one; kept_one; kept_one; kept_one; kept_one; rfl
theorem W27_keep_v24 (c : Dev nD) : W27 m ρ c (Proc.devRef .tc main_v24) = W20 m ρ c (Proc.devRef .tc main_v24) := by
  kept_one; kept_one; kept_one; kept_one; kept_one; kept_one; kept_one; rfl
theorem W27_keep_arg1 (c : Dev nD) : W27 m ρ c (Proc.devRef .tc main_arg1) = W20 m ρ c (Proc.devRef .tc main_arg1) := by
  kept_one; kept_one; kept_one; kept_one; kept_one; kept_one; kept_one; rfl
theorem W27_keep_arg3 (c : Dev nD) : W27 m ρ c (Proc.devRef .tc main_arg3) = W20 m ρ c (Proc.devRef .tc main_arg3) := by
  kept_one; kept_one; kept_one; kept_one; kept_one; kept_one; kept_one; rfl
theorem W27_keep_arg4 (c : Dev nD) : W27 m ρ c (Proc.devRef .tc main_arg4) = W20 m ρ c (Proc.devRef .tc main_arg4) := by
  kept_one; kept_one; kept_one; kept_one; kept_one; kept_one; kept_one; rfl
theorem W27_keep_arg6 (c : Dev nD) : W27 m ρ c (Proc.devRef .tc main_arg6) = W20 m ρ c (Proc.devRef .tc main_arg6) := by
  kept_one; kept_one; kept_one; kept_one; kept_one; kept_one; kept_one; rfl

end Cert.KernelIdeal.Fold

end
-- ==== Proof.BiasSquash3.lean ====
/-
  The bias-and-squash region number 3 of the program (one of the three per-step launches of the second kernel), read
  as one function of the arrays it finds: the grid has ONE point and every window's block is its whole
  [7813, 128] array, so the output array ends holding the body's value of the three whole input arrays (`final`):
  entry by entry, with s = total + bias, the entry is s where the mark is positive and tanh s elsewhere.
-/
import proofs.«144078_j73942156967974_1_alg».proof.Proof.Gen.KernelIdeal.Frame
import Idealize.ShloMosaic.Lib.Pipeline.Value

set_option maxRecDepth 16384

noncomputable section

namespace Cert.KernelIdeal.BiasSquash3

open Idealize.ShloMosaic Idealize.ShloMosaic.TcCoe Idealize.SL.Sem
open Cert.KernelIdeal Cert.KernelIdeal.Gen
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Over the grid's one point every window's block index is zero on both axes. -/
theorem idx_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- A block's element sits, in its array, at the same coordinates: the block is the array. -/
theorem emb0 (t : Fin cfg3.N) (j : S7813x128.Idx) : ((cfg3.win 0).blk t).view.emb j = j := by
  obtain ⟨e0, e1, -⟩ := idx_facts t
  funext a; apply Fin.ext
  match a with
  | ⟨0, _⟩ => show win3_0.index t (0 : Fin 2) * 7813 + 1 * (j 0).val = (j 0).val; omega
  | ⟨1, _⟩ => show win3_0.index t (1 : Fin 2) * 128 + 1 * (j 1).val = (j 1).val; omega
theorem emb1 (t : Fin cfg3.N) (j : S7813x128.Idx) : ((cfg3.win 1).blk t).view.emb j = j := by
  obtain ⟨-, -, e0, e1, -⟩ := idx_facts t
  funext a; apply Fin.ext
  match a with
  | ⟨0, _⟩ => show win3_1.index t (0 : Fin 2) * 7813 + 1 * (j 0).val = (j 0).val; omega
  | ⟨1, _⟩ => show win3_1.index t (1 : Fin 2) * 128 + 1 * (j 1).val = (j 1).val; omega
theorem emb2 (t : Fin cfg3.N) (j : S7813x128.Idx) : ((cfg3.win 2).blk t).view.emb j = j := by
  obtain ⟨-, -, -, -, e0, e1, -⟩ := idx_facts t
  funext a; apply Fin.ext
  match a with
  | ⟨0, _⟩ => show win3_2.index t (0 : Fin 2) * 7813 + 1 * (j 0).val = (j 0).val; omega
  | ⟨1, _⟩ => show win3_2.index t (1 : Fin 2) * 128 + 1 * (j 1).val = (j 1).val; omega
theorem emb3 (t : Fin cfg3.N) (j : S7813x128.Idx) : ((cfg3.win 3).blk t).view.emb j = j := by
  obtain ⟨-, -, -, -, -, -, e0, e1⟩ := idx_facts t
  funext a; apply Fin.ext
  match a with
  | ⟨0, _⟩ => show win3_3.index t (0 : Fin 2) * 7813 + 1 * (j 0).val = (j 0).val; omega
  | ⟨1, _⟩ => show win3_3.index t (1 : Fin 2) * 128 + 1 * (j 1).val = (j 1).val; omega

/-- Each input window's block at the point is its whole array. -/
theorem blk0 (c : Dev nD) (t : Fin cfg3.N) : (iblk3 V c 0 t : S7813x128.Idx → Elt F .f32) = V c main_v71 := by
  funext j
  show V c main_v71 (((cfg3.win 0).blk t).view.emb j) = V c main_v71 j
  rw [emb0]
theorem blk1 (c : Dev nD) (t : Fin cfg3.N) : (iblk3 V c 1 t : S7813x128.Idx → Elt F .f32) = V c main_v72 := by
  funext j
  show V c main_v72 (((cfg3.win 1).blk t).view.emb j) = V c main_v72 j
  rw [emb1]
theorem blk2 (c : Dev nD) (t : Fin cfg3.N) : (iblk3 V c 2 t : S7813x128.Idx → Elt F .i32) = V c main_v73 := by
  funext j
  show V c main_v73 (((cfg3.win 2).blk t).view.emb j) = V c main_v73 j
  rw [emb2]

/-- What the one point writes back is the whole of the body's value of the three input arrays. -/
theorem flushed_eq (c : Dev nD) (t : Fin cfg3.N) :
    (dat3 V c).flushed 3 t = ((cfg3.win 3).blk t).view.read (Elt F) (k3_pay1 (V c main_v71) (V c main_v72) (V c main_v73)) := by
  show (cfg3.win 3).cut (grid3.coords t) ((dat3 V c).after 3 t) = _
  rw [after3_3]
  unfold out3_3
  rw [View.canon_unit_zero hz]
  simp only [View.ld_unit_zero (S := S7813x128) hz]
  funext j
  show k3_pay1 (iblk3 V c 0 t) (iblk3 V c 1 t) (iblk3 V c 2 t) j
    = k3_pay1 (V c main_v71) (V c main_v72) (V c main_v73) (((cfg3.win 3).blk t).view.emb j)
  rw [emb3, blk0, blk1, blk2]

/-- An index of the output array is in the point's block iff each coordinate is in the block's range. -/
theorem mem_blk (t : Fin cfg3.N) (i : S7813x128.Idx) :
    i ∈ ((cfg3.win 3).blk t).view.set ↔ ∀ a : Fin 2, win3_3.index t a * S7813x128.size a ≤ (i a).val ∧ (i a).val < win3_3.index t a * S7813x128.size a + S7813x128.size a := by
  show i ∈ ((View.whole main_v74).slice (win3_3.rect t)).set ↔ _
  rw [View.set_slice_whole, Rect.mem_set_unit]
  exact Iff.rfl

/-- The one block covers the output array. -/
theorem cover (i : S7813x128.Idx) :
    ∃ t : Fin cfg3.N, (cfg3.win 3).flush t = true ∧ i ∈ ((cfg3.win 3).blk t).view.set := by
  have hi0 : (i 0).val < 7813 := (i 0).isLt
  have hi1 : (i 1).val < 128 := (i 1).isLt
  obtain ⟨-, -, -, -, -, -, q0, q1⟩ := idx_facts t3_0
  refine ⟨t3_0, flush3_3 t3_0, ?_⟩
  rw [mem_blk]
  intro a
  match a with
  | ⟨0, _⟩ => show win3_3.index t3_0 (0 : Fin 2) * 7813 ≤ (i 0).val ∧ (i 0).val < win3_3.index t3_0 (0 : Fin 2) * 7813 + 7813; omega
  | ⟨1, _⟩ => show win3_3.index t3_0 (1 : Fin 2) * 128 ≤ (i 1).val ∧ (i 1).val < win3_3.index t3_0 (1 : Fin 2) * 128 + 128; omega

/-- The output array after the region: the body's value of the three input arrays as the region found them. -/
theorem final (c : Dev nD) : (dat3 V c).arrAt 3 cfg3.N = k3_pay1 (V c main_v71) (V c main_v72) (V c main_v73) :=
  (dat3 V c).arrAt_eq_of_cover 3 _ (fun t _ => flushed_eq V c t) cover

end Cert.KernelIdeal.BiasSquash3

end
-- ==== Proof.Exit3.lean ====
/-
  Bias-and-squash region 3's exit: its output array holds the squashed sum of its operands as it found them; every
  other buffer is as at its entry.
-/
import proofs.«144078_j73942156967974_1_alg».proof.Proof.Net
import proofs.«144078_j73942156967974_1_alg».proof.Proof.BiasSquash3
import Idealize.ShloMosaic.Lib.Pipeline.Value

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Net

variable {F : FTy → Type} [FloatOps F]
variable (m : (ℓ : Loc nD τ sig) → Buf (Elt F) ℓ) (ρ : Dev nD → PrngReg)

/-- The body's stored value is `squash` of its three loaded blocks (its shape casts are to the blocks' own shape). -/
theorem pay3_eq (x0 x1 : Vec F S7813x128 .f32) (x2 : Vec F S7813x128 .i32) : k3_pay1 x0 x1 x2 = squash x0 x1 x2 := by
  unfold k3_pay1 squash
  dsimp only
  rw [shapeCast_self, shapeCast_self, shapeCast_self]

/-- The region's output array at its exit. -/
theorem W28_v74 (c : Dev nD) : W28 m ρ c (Proc.devRef .tc main_v74)
    = squash (W27 m ρ c (Proc.devRef .tc main_v71)) (W27 m ρ c (Proc.devRef .tc main_v72)) (W27 m ρ c (Proc.devRef .tc main_v73)) :=
  ((W28_arr m ρ c 3).trans (BiasSquash3.final (V27 m ρ) c)).trans (pay3_eq _ _ _)
theorem W28_keep_v16 (c : Dev nD) : W28 m ρ c (Proc.devRef .tc main_v16) = W27 m ρ c (Proc.devRef .tc main_v16) := W28_of_ne m ρ c main_v16 (by decide)
theorem W28_keep_v24 (c : Dev nD) : W28 m ρ c (Proc.devRef .tc main_v24) = W27 m ρ c (Proc.devRef .tc main_v24) := W28_of_ne m ρ c main_v24 (by decide)
theorem W28_keep_arg1 (c : Dev nD) : W28 m ρ c (Proc.devRef .tc main_arg1) = W27 m ρ c (Proc.devRef .tc main_arg1) := W28_of_ne m ρ c main_arg1 (by decide)
theorem W28_keep_arg3 (c : Dev nD) : W28 m ρ c (Proc.devRef .tc main_arg3) = W27 m ρ c (Proc.devRef .tc main_arg3) := W28_of_ne m ρ c main_arg3 (by decide)
theorem W28_keep_arg4 (c : Dev nD) : W28 m ρ c (Proc.devRef .tc main_arg4) = W27 m ρ c (Proc.devRef .tc main_arg4) := W28_of_ne m ρ c main_arg4 (by decide)
theorem W28_keep_arg6 (c : Dev nD) : W28 m ρ c (Proc.devRef .tc main_arg6) = W27 m ρ c (Proc.devRef .tc main_arg6) := W28_of_ne m ρ c main_arg6 (by decide)

end Cert.KernelIdeal.Fold

end
-- ==== Proof.Entry4.lean ====
/-
  What edge-product region 4 finds: the state the preceding bias-and-squash region left, unfolded, gathered at
  the synapse sources, padded and folded; the weights, padded and folded; and the buffers later stretches still
  read, unchanged.
-/
import proofs.«144078_j73942156967974_1_alg».proof.Proof.FoldTactics
import proofs.«144078_j73942156967974_1_alg».proof.Proof.Net

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Net

variable {F : FTy → Type} [FloatOps F]
variable (m : (ℓ : Loc nD τ sig) → Buf (Elt F) ℓ) (ρ : Dev nD → PrngReg)

set_option maxHeartbeats 8000000 in
/-- The region's first operand: the gathered state, folded. -/
theorem W33_v86 (c : Dev nD) : W33 m ρ c (Proc.devRef .tc main_v86) = foldEdge (gatherSrc (W28 m ρ c (Proc.devRef .tc main_arg3)) (unfoldNode (W28 m ρ c (Proc.devRef .tc main_v74)))) := by
  dsimp only [W33, W32, W31, W30, W29]
  read_stretches
  rfl
set_option maxHeartbeats 8000000 in
/-- The region's second operand: the weights, folded. -/
theorem W33_v87 (c : Dev nD) : W33 m ρ c (Proc.devRef .tc main_v87) = foldEdge (W28 m ρ c (Proc.devRef .tc main_arg1)) := by
  dsimp only [W33, W32, W31, W30, W29]
  read_stretches
  rfl
theorem W33_keep_v16 (c : Dev nD) : W33 m ρ c (Proc.devRef .tc main_v16) = W28 m ρ c (Proc.devRef .tc main_v16) := by
  kept_one; kept_one; kept_one; kept_one; kept_one; rfl
theorem W33_keep_v24 (c : Dev nD) : W33 m ρ c (Proc.devRef .tc main_v24) = W28 m ρ c (Proc.devRef .tc main_v24) := by
  kept_one; kept_one; kept_one; kept_one; kept_one; rfl
theorem W33_keep_arg4 (c : Dev nD) : W33 m ρ c (Proc.devRef .tc main_arg4) = W28 m ρ c (Proc.devRef .tc main_arg4) := by
  kept_one; kept_one; kept_one; kept_one; kept_one; rfl
theorem W33_keep_arg6 (c : Dev nD) : W33 m ρ c (Proc.devRef .tc main_arg6) = W28 m ρ c (Proc.devRef .tc main_arg6) := by
  kept_one; kept_one; kept_one; kept_one; kept_one; rfl

end Cert.KernelIdeal.Fold

end
-- ==== Proof.EdgeProduct4.lean ====
/-
  The edge-product region number 4 of the program (one of the three per-step launches of the multiply kernel), read
  as one function of the arrays it finds: the grid walks the [163840, 128] operands in twenty row blocks of
  [8192, 128]; at each point the body multiplies the two input blocks entry by entry and stores the product block;
  all three windows move with the same block index, the blocks tile the array, so the output array ends holding
  the entry-by-entry product of the two input arrays (`final`).
-/
import proofs.«144078_j73942156967974_1_alg».proof.Proof.Gen.KernelIdeal.Frame
import Idealize.ShloMosaic.Lib.Pipeline.Value

set_option maxRecDepth 16384

noncomputable section

namespace Cert.KernelIdeal.EdgeProduct4

open Idealize.ShloMosaic Idealize.ShloMosaic.TcCoe Idealize.SL.Sem
open Cert.KernelIdeal Cert.KernelIdeal.Gen
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Two [163840, 128] arrays multiplied entry by entry. -/
abbrev prod (a0 a1 : S163840x128.Idx → Elt F .f32) : S163840x128.Idx → Elt F .f32 := fun i => FloatOps.mulf (a0 i) (a1 i)

/-- The body's stored value is the entry-by-entry product of its two loaded blocks (its shape casts are to the
    blocks' own shape). -/
theorem pay_eq (x0 x1 : Vec F S8192x128 .f32) : k4_pay1 x0 x1 = mulf x0 x1 := by
  unfold k4_pay1; rw [shapeCast_self, shapeCast_self]

/-- Over the grid: the three windows share one block index, which runs over the twenty row blocks. -/
theorem idx_facts : ∀ t : Fin cfg4.N,
    win4_0.index t (0 : Fin 2) = win4_2.index t (0 : Fin 2) ∧ win4_0.index t (1 : Fin 2) = win4_2.index t (1 : Fin 2)
    ∧ win4_1.index t (0 : Fin 2) = win4_2.index t (0 : Fin 2) ∧ win4_1.index t (1 : Fin 2) = win4_2.index t (1 : Fin 2)
    ∧ win4_2.index t (0 : Fin 2) ≤ 19 ∧ win4_2.index t (1 : Fin 2) = 0 :=
  (by decide +kernel : ∀ t : Fin grid4.N, _)

/-- Every row block is some point's. -/
theorem idx_onto : ∀ q0 : Fin 20, ∃ t : Fin cfg4.N, win4_2.index t = ![q0.val, 0] :=
  (by decide +kernel : ∀ q0 : Fin 20, ∃ t : Fin grid4.N, win4_2.index t = ![q0.val, 0])

/-- What point `t` writes back is block `t` of the product of the two input arrays. -/
theorem flushed_eq (c : Dev nD) (t : Fin cfg4.N) :
    (dat4 V c).flushed 2 t = ((cfg4.win 2).blk t).view.read (Elt F) (prod (V c main_v86) (V c main_v87)) := by
  show (cfg4.win 2).cut (grid4.coords t) ((dat4 V c).after 2 t) = _
  rw [after4_2]
  unfold out4_2
  rw [View.canon_unit_zero hz]
  simp only [View.ld_unit_zero (S := S8192x128) hz]
  rw [pay_eq]
  obtain ⟨e0, e1, e2, e3, -, -⟩ := idx_facts t
  funext j
  show FloatOps.mulf (V c main_v86 (((cfg4.win 0).blk t).view.emb j)) (V c main_v87 (((cfg4.win 1).blk t).view.emb j))
    = FloatOps.mulf (V c main_v86 (((cfg4.win 2).blk t).view.emb j)) (V c main_v87 (((cfg4.win 2).blk t).view.emb j))
  have h0 : ((cfg4.win 0).blk t).view.emb j = ((cfg4.win 2).blk t).view.emb j := by
    funext a; apply Fin.ext
    match a with
    | ⟨0, _⟩ => show win4_0.index t (0 : Fin 2) * 8192 + 1 * (j 0).val = win4_2.index t (0 : Fin 2) * 8192 + 1 * (j 0).val; omega
    | ⟨1, _⟩ => show win4_0.index t (1 : Fin 2) * 128 + 1 * (j 1).val = win4_2.index t (1 : Fin 2) * 128 + 1 * (j 1).val; omega
  have h1 : ((cfg4.win 1).blk t).view.emb j = ((cfg4.win 2).blk t).view.emb j := by
    funext a; apply Fin.ext
    match a with
    | ⟨0, _⟩ => show win4_1.index t (0 : Fin 2) * 8192 + 1 * (j 0).val = win4_2.index t (0 : Fin 2) * 8192 + 1 * (j 0).val; omega
    | ⟨1, _⟩ => show win4_1.index t (1 : Fin 2) * 128 + 1 * (j 1).val = win4_2.index t (1 : Fin 2) * 128 + 1 * (j 1).val; omega
  rw [h0, h1]

/-- An index of the output array is in point `t`'s block iff each coordinate is in the block's range. -/
theorem mem_blk (t : Fin cfg4.N) (i : S163840x128.Idx) :
    i ∈ ((cfg4.win 2).blk t).view.set ↔ ∀ a : Fin 2, win4_2.index t a * S8192x128.size a ≤ (i a).val ∧ (i a).val < win4_2.index t a * S8192x128.size a + S8192x128.size a := by
  show i ∈ ((View.whole main_v88).slice (win4_2.rect t)).set ↔ _
  rw [View.set_slice_whole, Rect.mem_set_unit]
  exact Iff.rfl

/-- Every index of the output array is in the block of the point whose block index is its row divided by 8192. -/
theorem cover (i : S163840x128.Idx) :
    ∃ t : Fin cfg4.N, (cfg4.win 2).flush t = true ∧ i ∈ ((cfg4.win 2).blk t).view.set := by
  have hi0 : (i 0).val < 163840 := (i 0).isLt
  have hi1 : (i 1).val < 128 := (i 1).isLt
  obtain ⟨t, ht⟩ := idx_onto ⟨(i 0).val / 8192, by omega⟩
  have q0 : win4_2.index t (0 : Fin 2) = (i 0).val / 8192 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 8192 ≤ (i 0).val ∧ (i 0).val < win4_2.index t (0 : Fin 2) * 8192 + 8192; omega
  | ⟨1, _⟩ => show win4_2.index t (1 : Fin 2) * 128 ≤ (i 1).val ∧ (i 1).val < win4_2.index t (1 : Fin 2) * 128 + 128; omega

/-- The output array after the region: the entry-by-entry product of the two input arrays as the region found them. -/
theorem final (c : Dev nD) : (dat4 V c).arrAt 2 cfg4.N = prod (V c main_v86) (V c main_v87) :=
  (dat4 V c).arrAt_eq_of_cover 2 _ (fun t _ => flushed_eq V c t) cover

end Cert.KernelIdeal.EdgeProduct4

end
-- ==== Proof.Exit4.lean ====
/-
  Edge-product region 4's exit: its output array holds the entry-by-entry product of its two operands as it found
  them; every other buffer is as at its entry.
-/
import proofs.«144078_j73942156967974_1_alg».proof.Proof.Net
import proofs.«144078_j73942156967974_1_alg».proof.Proof.EdgeProduct4

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Net

variable {F : FTy → Type} [FloatOps F]
variable (m : (ℓ : Loc nD τ sig) → Buf (Elt F) ℓ) (ρ : Dev nD → PrngReg)

/-- The region's output array at its exit. -/
theorem W34_v88 (c : Dev nD) : W34 m ρ c (Proc.devRef .tc main_v88)
    = fun i => FloatOps.mulf (W33 m ρ c (Proc.devRef .tc main_v86) i) (W33 m ρ c (Proc.devRef .tc main_v87) i) :=
  (W34_arr m ρ c 2).trans (EdgeProduct4.final (V33 m ρ) c)
theorem W34_keep_v16 (c : Dev nD) : W34 m ρ c (Proc.devRef .tc main_v16) = W33 m ρ c (Proc.devRef .tc main_v16) := W34_of_ne m ρ c main_v16 (by decide)
theorem W34_keep_v24 (c : Dev nD) : W34 m ρ c (Proc.devRef .tc main_v24) = W33 m ρ c (Proc.devRef .tc main_v24) := W34_of_ne m ρ c main_v24 (by decide)
theorem W34_keep_arg4 (c : Dev nD) : W34 m ρ c (Proc.devRef .tc main_arg4) = W33 m ρ c (Proc.devRef .tc main_arg4) := W34_of_ne m ρ c main_arg4 (by decide)
theorem W34_keep_arg6 (c : Dev nD) : W34 m ρ c (Proc.devRef .tc main_arg6) = W33 m ρ c (Proc.devRef .tc main_arg6) := W34_of_ne m ρ c main_arg6 (by decide)

end Cert.KernelIdeal.Fold

end
-- ==== Proof.Entry5.lean ====
/-
  What bias-and-squash region 5 finds: the messages the preceding edge-product region left, unfolded and
  accumulated at their destinations, padded and folded; the biases and the marks, padded and folded; and the buffers
  later stretches still read, unchanged.
-/
import proofs.«144078_j73942156967974_1_alg».proof.Proof.FoldTactics
import proofs.«144078_j73942156967974_1_alg».proof.Proof.Net

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Net

variable {F : FTy → Type} [FloatOps F]
variable (m : (ℓ : Loc nD τ sig) → Buf (Elt F) ℓ) (ρ : Dev nD → PrngReg)

set_option maxHeartbeats 8000000 in
/-- The region's first operand: the accumulated messages, folded. -/
theorem W41_v97 (c : Dev nD) : W41 m ρ c (Proc.devRef .tc main_v97) = foldNode (totals (W34 m ρ c (Proc.devRef .tc main_arg4)) (unfoldEdge (W34 m ρ c (Proc.devRef .tc main_v88)))) := by
  dsimp only [W41, W40, W39, W38, W37, W36, W35]
  read_stretches
  rfl
set_option maxHeartbeats 8000000 in
/-- The region's second operand: the biases, folded. -/
theorem W41_v98 (c : Dev nD) : W41 m ρ c (Proc.devRef .tc main_v98) = foldNode (W34 m ρ c (Proc.devRef .tc main_v24)) := by
  dsimp only [W41, W40, W39, W38, W37, W36, W35]
  read_stretches
  rfl
set_option maxHeartbeats 8000000 in
/-- The region's third operand: the marks, folded. -/
theorem W41_v99 (c : Dev nD) : W41 m ρ c (Proc.devRef .tc main_v99) = foldMark (W34 m ρ c (Proc.devRef .tc main_v16)) := by
  dsimp only [W41, W40, W39, W38, W37, W36, W35]
  read_stretches
  rfl
theorem W41_keep_arg6 (c : Dev nD) : W41 m ρ c (Proc.devRef .tc main_arg6) = W34 m ρ c (Proc.devRef .tc main_arg6) := by
  kept_one; kept_one; kept_one; kept_one; kept_one; kept_one; kept_one; rfl

end Cert.KernelIdeal.Fold

end
-- ==== Proof.BiasSquash5.lean ====
/-
  The bias-and-squash region number 5 of the program (one of the three per-step launches of the second kernel), read
  as one function of the arrays it finds: the grid has ONE point and every window's block is its whole
  [7813, 128] array, so the output array ends holding the body's value of the three whole input arrays (`final`):
  entry by entry, with s = total + bias, the entry is s where the mark is positive and tanh s elsewhere.
-/
import proofs.«144078_j73942156967974_1_alg».proof.Proof.Gen.KernelIdeal.Frame
import Idealize.ShloMosaic.Lib.Pipeline.Value

set_option maxRecDepth 16384

noncomputable section

namespace Cert.KernelIdeal.BiasSquash5

open Idealize.ShloMosaic Idealize.ShloMosaic.TcCoe Idealize.SL.Sem
open Cert.KernelIdeal Cert.KernelIdeal.Gen
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Over the grid's one point every window's block index is zero on both axes. -/
theorem idx_facts : ∀ t : Fin cfg5.N,
    win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0 :=
  (by decide +kernel : ∀ t : Fin grid5.N, _)

/-- A block's element sits, in its array, at the same coordinates: the block is the array. -/
theorem emb0 (t : Fin cfg5.N) (j : S7813x128.Idx) : ((cfg5.win 0).blk t).view.emb j = j := by
  obtain ⟨e0, e1, -⟩ := idx_facts t
  funext a; apply Fin.ext
  match a with
  | ⟨0, _⟩ => show win5_0.index t (0 : Fin 2) * 7813 + 1 * (j 0).val = (j 0).val; omega
  | ⟨1, _⟩ => show win5_0.index t (1 : Fin 2) * 128 + 1 * (j 1).val = (j 1).val; omega
theorem emb1 (t : Fin cfg5.N) (j : S7813x128.Idx) : ((cfg5.win 1).blk t).view.emb j = j := by
  obtain ⟨-, -, e0, e1, -⟩ := idx_facts t
  funext a; apply Fin.ext
  match a with
  | ⟨0, _⟩ => show win5_1.index t (0 : Fin 2) * 7813 + 1 * (j 0).val = (j 0).val; omega
  | ⟨1, _⟩ => show win5_1.index t (1 : Fin 2) * 128 + 1 * (j 1).val = (j 1).val; omega
theorem emb2 (t : Fin cfg5.N) (j : S7813x128.Idx) : ((cfg5.win 2).blk t).view.emb j = j := by
  obtain ⟨-, -, -, -, e0, e1, -⟩ := idx_facts t
  funext a; apply Fin.ext
  match a with
  | ⟨0, _⟩ => show win5_2.index t (0 : Fin 2) * 7813 + 1 * (j 0).val = (j 0).val; omega
  | ⟨1, _⟩ => show win5_2.index t (1 : Fin 2) * 128 + 1 * (j 1).val = (j 1).val; omega
theorem emb3 (t : Fin cfg5.N) (j : S7813x128.Idx) : ((cfg5.win 3).blk t).view.emb j = j := by
  obtain ⟨-, -, -, -, -, -, e0, e1⟩ := idx_facts t
  funext a; apply Fin.ext
  match a with
  | ⟨0, _⟩ => show win5_3.index t (0 : Fin 2) * 7813 + 1 * (j 0).val = (j 0).val; omega
  | ⟨1, _⟩ => show win5_3.index t (1 : Fin 2) * 128 + 1 * (j 1).val = (j 1).val; omega

/-- Each input window's block at the point is its whole array. -/
theorem blk0 (c : Dev nD) (t : Fin cfg5.N) : (iblk5 V c 0 t : S7813x128.Idx → Elt F .f32) = V c main_v97 := by
  funext j
  show V c main_v97 (((cfg5.win 0).blk t).view.emb j) = V c main_v97 j
  rw [emb0]
theorem blk1 (c : Dev nD) (t : Fin cfg5.N) : (iblk5 V c 1 t : S7813x128.Idx → Elt F .f32) = V c main_v98 := by
  funext j
  show V c main_v98 (((cfg5.win 1).blk t).view.emb j) = V c main_v98 j
  rw [emb1]
theorem blk2 (c : Dev nD) (t : Fin cfg5.N) : (iblk5 V c 2 t : S7813x128.Idx → Elt F .i32) = V c main_v99 := by
  funext j
  show V c main_v99 (((cfg5.win 2).blk t).view.emb j) = V c main_v99 j
  rw [emb2]

/-- What the one point writes back is the whole of the body's value of the three input arrays. -/
theorem flushed_eq (c : Dev nD) (t : Fin cfg5.N) :
    (dat5 V c).flushed 3 t = ((cfg5.win 3).blk t).view.read (Elt F) (k5_pay1 (V c main_v97) (V c main_v98) (V c main_v99)) := by
  show (cfg5.win 3).cut (grid5.coords t) ((dat5 V c).after 3 t) = _
  rw [after5_3]
  unfold out5_3
  rw [View.canon_unit_zero hz]
  simp only [View.ld_unit_zero (S := S7813x128) hz]
  funext j
  show k5_pay1 (iblk5 V c 0 t) (iblk5 V c 1 t) (iblk5 V c 2 t) j
    = k5_pay1 (V c main_v97) (V c main_v98) (V c main_v99) (((cfg5.win 3).blk t).view.emb j)
  rw [emb3, blk0, blk1, blk2]

/-- An index of the output array is in the point's block iff each coordinate is in the block's range. -/
theorem mem_blk (t : Fin cfg5.N) (i : S7813x128.Idx) :
    i ∈ ((cfg5.win 3).blk t).view.set ↔ ∀ a : Fin 2, win5_3.index t a * S7813x128.size a ≤ (i a).val ∧ (i a).val < win5_3.index t a * S7813x128.size a + S7813x128.size a := by
  show i ∈ ((View.whole main_v100).slice (win5_3.rect t)).set ↔ _
  rw [View.set_slice_whole, Rect.mem_set_unit]
  exact Iff.rfl

/-- The one block covers the output array. -/
theorem cover (i : S7813x128.Idx) :
    ∃ t : Fin cfg5.N, (cfg5.win 3).flush t = true ∧ i ∈ ((cfg5.win 3).blk t).view.set := by
  have hi0 : (i 0).val < 7813 := (i 0).isLt
  have hi1 : (i 1).val < 128 := (i 1).isLt
  obtain ⟨-, -, -, -, -, -, q0, q1⟩ := idx_facts t5_0
  refine ⟨t5_0, flush5_3 t5_0, ?_⟩
  rw [mem_blk]
  intro a
  match a with
  | ⟨0, _⟩ => show win5_3.index t5_0 (0 : Fin 2) * 7813 ≤ (i 0).val ∧ (i 0).val < win5_3.index t5_0 (0 : Fin 2) * 7813 + 7813; omega
  | ⟨1, _⟩ => show win5_3.index t5_0 (1 : Fin 2) * 128 ≤ (i 1).val ∧ (i 1).val < win5_3.index t5_0 (1 : Fin 2) * 128 + 128; omega

/-- The output array after the region: the body's value of the three input arrays as the region found them. -/
theorem final (c : Dev nD) : (dat5 V c).arrAt 3 cfg5.N = k5_pay1 (V c main_v97) (V c main_v98) (V c main_v99) :=
  (dat5 V c).arrAt_eq_of_cover 3 _ (fun t _ => flushed_eq V c t) cover

end Cert.KernelIdeal.BiasSquash5

end
-- ==== Proof.Exit5.lean ====
/-
  Bias-and-squash region 5's exit: its output array holds the squashed sum of its operands as it found them; every
  other buffer is as at its entry.
-/
import proofs.«144078_j73942156967974_1_alg».proof.Proof.Net
import proofs.«144078_j73942156967974_1_alg».proof.Proof.BiasSquash5
import Idealize.ShloMosaic.Lib.Pipeline.Value

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Net

variable {F : FTy → Type} [FloatOps F]
variable (m : (ℓ : Loc nD τ sig) → Buf (Elt F) ℓ) (ρ : Dev nD → PrngReg)

/-- The body's stored value is `squash` of its three loaded blocks (its shape casts are to the blocks' own shape). -/
theorem pay5_eq (x0 x1 : Vec F S7813x128 .f32) (x2 : Vec F S7813x128 .i32) : k5_pay1 x0 x1 x2 = squash x0 x1 x2 := by
  unfold k5_pay1 squash
  dsimp only
  rw [shapeCast_self, shapeCast_self, shapeCast_self]

/-- The region's output array at its exit. -/
theorem W42_v100 (c : Dev nD) : W42 m ρ c (Proc.devRef .tc main_v100)
    = squash (W41 m ρ c (Proc.devRef .tc main_v97)) (W41 m ρ c (Proc.devRef .tc main_v98)) (W41 m ρ c (Proc.devRef .tc main_v99)) :=
  ((W42_arr m ρ c 3).trans (BiasSquash5.final (V41 m ρ) c)).trans (pay5_eq _ _ _)
theorem W42_keep_arg6 (c : Dev nD) : W42 m ρ c (Proc.devRef .tc main_arg6) = W41 m ρ c (Proc.devRef .tc main_arg6) := W42_of_ne m ρ c main_arg6 (by decide)

end Cert.KernelIdeal.Fold

end
-- ==== Proof.Tail.lean ====
/-
  The program's last stretch: the last bias-and-squash region's output unfolded and gathered at the output indices.
-/
import proofs.«144078_j73942156967974_1_alg».proof.Proof.FoldTactics
import proofs.«144078_j73942156967974_1_alg».proof.Proof.Net

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Net

variable {F : FTy → Type} [FloatOps F]
variable (m : (ℓ : Loc nD τ sig) → Buf (Elt F) ℓ) (ρ : Dev nD → PrngReg)

set_option maxHeartbeats 8000000 in
/-- The result: the last state at the output indices. -/
theorem W43_v109 (c : Dev nD) : W43 m ρ c (Proc.devRef .tc main_v109) = Host.gather gather_S1000000_S4096x1_S4096_n_0_n_n_0_1_1 (unfoldNode (W42 m ρ c (Proc.devRef .tc main_v100))) (wrapIn (W42 m ρ c (Proc.devRef .tc main_arg6))) := by
  dsimp only [W43]
  read_stretches
  rfl

end Cert.KernelIdeal.Fold

end
-- ==== Proof.KernelValue.lean ====
/-
  The idealized kernel program's result buffer, read through the whole fold of @main: the six regions' exit values
  and the stretches between them composed. After each bias-and-squash region the state is one more `step` of the
  network from the state before; the marks, the biases and the argument arrays are carried unchanged from where
  the first stretch leaves them; the result is `Net.result` of the argument arrays as launched.
-/
import proofs.«144078_j73942156967974_1_alg».proof.Proof.Entry0a
import proofs.«144078_j73942156967974_1_alg».proof.Proof.Entry0b
import proofs.«144078_j73942156967974_1_alg».proof.Proof.Exit0
import proofs.«144078_j73942156967974_1_alg».proof.Proof.Entry1
import proofs.«144078_j73942156967974_1_alg».proof.Proof.Exit1
import proofs.«144078_j73942156967974_1_alg».proof.Proof.Entry2
import proofs.«144078_j73942156967974_1_alg».proof.Proof.Exit2
import proofs.«144078_j73942156967974_1_alg».proof.Proof.Entry3
import proofs.«144078_j73942156967974_1_alg».proof.Proof.Exit3
import proofs.«144078_j73942156967974_1_alg».proof.Proof.Entry4
import proofs.«144078_j73942156967974_1_alg».proof.Proof.Exit4
import proofs.«144078_j73942156967974_1_alg».proof.Proof.Entry5
import proofs.«144078_j73942156967974_1_alg».proof.Proof.Exit5
import proofs.«144078_j73942156967974_1_alg».proof.Proof.Tail

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Net

variable {F : FTy → Type} [FloatOps F]
variable (m : (ℓ : Loc nD τ sig) → Buf (Elt F) ℓ) (ρ : Dev nD → PrngReg)

/-! ## After the first step -/

/-- The state after the first step. -/
theorem state1 (c : Dev nD) : unfoldNode (W14 m ρ c (Proc.devRef .tc main_v48)) = step (m ((c : Thread nD τ).loc main_arg1)) (m ((c : Thread nD τ).loc main_arg3)) (m ((c : Thread nD τ).loc main_arg4)) (biasAll (m ((c : Thread nD τ).loc main_arg7)) (m ((c : Thread nD τ).loc main_arg2))) (marks (m ((c : Thread nD τ).loc main_arg6))) (start (m ((c : Thread nD τ).loc main_arg5)) (m ((c : Thread nD τ).loc main_arg0))) := by
  rw [W14_v48, W13_v45, W13_v46, W13_v47, W6_keep_arg4, W6_v36, W6_keep_v24, W6_keep_v16, W5_v34, W5_v35, W5_v24, W5_v16, W5_keep_arg4]
  first | done | rfl
theorem live14_v16 (c : Dev nD) : W14 m ρ c (Proc.devRef .tc main_v16) = marks (m ((c : Thread nD τ).loc main_arg6)) := by
  rw [W14_keep_v16, W13_keep_v16, W6_keep_v16, W5_v16]
  first | done | rfl
theorem live14_v24 (c : Dev nD) : W14 m ρ c (Proc.devRef .tc main_v24) = biasAll (m ((c : Thread nD τ).loc main_arg7)) (m ((c : Thread nD τ).loc main_arg2)) := by
  rw [W14_keep_v24, W13_keep_v24, W6_keep_v24, W5_v24]
  first | done | rfl
theorem live14_arg1 (c : Dev nD) : W14 m ρ c (Proc.devRef .tc main_arg1) = (m ((c : Thread nD τ).loc main_arg1)) := by
  rw [W14_keep_arg1, W13_keep_arg1, W6_keep_arg1, W5_keep_arg1]
  first | done | rfl
theorem live14_arg3 (c : Dev nD) : W14 m ρ c (Proc.devRef .tc main_arg3) = (m ((c : Thread nD τ).loc main_arg3)) := by
  rw [W14_keep_arg3, W13_keep_arg3, W6_keep_arg3, W5_keep_arg3]
  first | done | rfl
theorem live14_arg4 (c : Dev nD) : W14 m ρ c (Proc.devRef .tc main_arg4) = (m ((c : Thread nD τ).loc main_arg4)) := by
  rw [W14_keep_arg4, W13_keep_arg4, W6_keep_arg4, W5_keep_arg4]
  first | done | rfl
theorem live14_arg6 (c : Dev nD) : W14 m ρ c (Proc.devRef .tc main_arg6) = (m ((c : Thread nD τ).loc main_arg6)) := by
  rw [W14_keep_arg6, W13_keep_arg6, W6_keep_arg6, W5_keep_arg6]
  first | done | rfl

/-! ## After the second step -/

/-- The state after the second step. -/
theorem state2 (c : Dev nD) : unfoldNode (W28 m ρ c (Proc.devRef .tc main_v74)) = step (m ((c : Thread nD τ).loc main_arg1)) (m ((c : Thread nD τ).loc main_arg3)) (m ((c : Thread nD τ).loc main_arg4)) (biasAll (m ((c : Thread nD τ).loc main_arg7)) (m ((c : Thread nD τ).loc main_arg2))) (marks (m ((c : Thread nD τ).loc main_arg6))) (step (m ((c : Thread nD τ).loc main_arg1)) (m ((c : Thread nD τ).loc main_arg3)) (m ((c : Thread nD τ).loc main_arg4)) (biasAll (m ((c : Thread nD τ).loc main_arg7)) (m ((c : Thread nD τ).loc main_arg2))) (marks (m ((c : Thread nD τ).loc main_arg6))) (start (m ((c : Thread nD τ).loc main_arg5)) (m ((c : Thread nD τ).loc main_arg0)))) := by
  rw [W28_v74, W27_v71, W27_v72, W27_v73, W20_keep_arg4, W20_v62, W20_keep_v24, W20_keep_v16, W19_v60, W19_v61, W19_keep_arg4, W19_keep_v24, W19_keep_v16,
    live14_arg3, live14_arg1, live14_arg4, live14_v24, live14_v16, state1]
  first | done | rfl
theorem live28_v16 (c : Dev nD) : W28 m ρ c (Proc.devRef .tc main_v16) = marks (m ((c : Thread nD τ).loc main_arg6)) := by
  rw [W28_keep_v16, W27_keep_v16, W20_keep_v16, W19_keep_v16, live14_v16]
  first | done | rfl
theorem live28_v24 (c : Dev nD) : W28 m ρ c (Proc.devRef .tc main_v24) = biasAll (m ((c : Thread nD τ).loc main_arg7)) (m ((c : Thread nD τ).loc main_arg2)) := by
  rw [W28_keep_v24, W27_keep_v24, W20_keep_v24, W19_keep_v24, live14_v24]
  first | done | rfl
theorem live28_arg1 (c : Dev nD) : W28 m ρ c (Proc.devRef .tc main_arg1) = (m ((c : Thread nD τ).loc main_arg1)) := by
  rw [W28_keep_arg1, W27_keep_arg1, W20_keep_arg1, W19_keep_arg1, live14_arg1]
  first | done | rfl
theorem live28_arg3 (c : Dev nD) : W28 m ρ c (Proc.devRef .tc main_arg3) = (m ((c : Thread nD τ).loc main_arg3)) := by
  rw [W28_keep_arg3, W27_keep_arg3, W20_keep_arg3, W19_keep_arg3, live14_arg3]
  first | done | rfl
theorem live28_arg4 (c : Dev nD) : W28 m ρ c (Proc.devRef .tc main_arg4) = (m ((c : Thread nD τ).loc main_arg4)) := by
  rw [W28_keep_arg4, W27_keep_arg4, W20_keep_arg4, W19_keep_arg4, live14_arg4]
  first | done | rfl
theorem live28_arg6 (c : Dev nD) : W28 m ρ c (Proc.devRef .tc main_arg6) = (m ((c : Thread nD τ).loc main_arg6)) := by
  rw [W28_keep_arg6, W27_keep_arg6, W20_keep_arg6, W19_keep_arg6, live14_arg6]
  first | done | rfl

/-! ## After the third step -/

/-- The state after the third step. -/
theorem state3 (c : Dev nD) : unfoldNode (W42 m ρ c (Proc.devRef .tc main_v100)) = step (m ((c : Thread nD τ).loc main_arg1)) (m ((c : Thread nD τ).loc main_arg3)) (m ((c : Thread nD τ).loc main_arg4)) (biasAll (m ((c : Thread nD τ).loc main_arg7)) (m ((c : Thread nD τ).loc main_arg2))) (marks (m ((c : Thread nD τ).loc main_arg6))) (step (m ((c : Thread nD τ).loc main_arg1)) (m ((c : Thread nD τ).loc main_arg3)) (m ((c : Thread nD τ).loc main_arg4)) (biasAll (m ((c : Thread nD τ).loc main_arg7)) (m ((c : Thread nD τ).loc main_arg2))) (marks (m ((c : Thread nD τ).loc main_arg6))) (step (m ((c : Thread nD τ).loc main_arg1)) (m ((c : Thread nD τ).loc main_arg3)) (m ((c : Thread nD τ).loc main_arg4)) (biasAll (m ((c : Thread nD τ).loc main_arg7)) (m ((c : Thread nD τ).loc main_arg2))) (marks (m ((c : Thread nD τ).loc main_arg6))) (start (m ((c : Thread nD τ).loc main_arg5)) (m ((c : Thread nD τ).loc main_arg0))))) := by
  rw [W42_v100, W41_v97, W41_v98, W41_v99, W34_keep_arg4, W34_v88, W34_keep_v24, W34_keep_v16, W33_v86, W33_v87, W33_keep_arg4, W33_keep_v24, W33_keep_v16,
    live28_arg3, live28_arg1, live28_arg4, live28_v24, live28_v16, state2]
  first | done | rfl
theorem live42_arg6 (c : Dev nD) : W42 m ρ c (Proc.devRef .tc main_arg6) = (m ((c : Thread nD τ).loc main_arg6)) := by
  rw [W42_keep_arg6, W41_keep_arg6, W34_keep_arg6, W33_keep_arg6, live28_arg6]
  first | done | rfl

/-! ## The result -/

/-- The result buffer after @main: `Net.result` of the argument arrays as launched. -/
theorem value (c : Dev nD) : W43 m ρ c (Proc.devRef .tc main_v109)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [W43_v109, state3, live42_arg6]
  first | done | rfl

end Cert.KernelIdeal.Fold

end
-- ==== Proof.LibPadFold.lean ====
/-
  A vector of `n` entries laid out as a matrix of `a` rows of `b` lanes, `n ≤ a * b`, by padding at the end and
  folding row-major, and the way back: for any element type and any extents,

  * the padded vector folded to `[a, b]`, read at row `r`, lane `q` with `r * b + q = e < n`, is the vector's entry
    `e` (`padFold_apply`): the padding value is never read there;
  * a matrix unfolded to `[a * b]` and cut back to its first `n` entries, read at `e`, is the matrix at row `r`, lane
    `q` with `r * b + q = e` (`unfoldCut_apply`).

  Together: an entry-by-entry operation done on the folded, padded vectors and brought back is the operation done
  on the vectors themselves.
-/
import Idealize.ShloMosaic.Lib.ValueIdx
import Idealize.ShloMosaic.Lib.Pipeline.Value
import Idealize.ShloMosaic.Lib.KernelVsHost

noncomputable section

namespace Cert.Lib.PadFold

open Idealize.ShloMosaic Idealize.ShloMosaic.ValueIdx

variable {α : Type}

/-- The vector padded at the end to `M` entries and folded to `[a, b]`, read inside the vector. -/
theorem padFold_apply {n M a b hi : Nat} (x : (⟨1, ![n]⟩ : Shape).Idx → α) {u : Shape} (v : u.Idx → α)
    (hp : (⟨1, ![n]⟩ : Shape).Pads (![0] : Fin 1 → Nat) ![hi] ![0] ⟨1, ![M]⟩) (hu : 0 < u.numel)
    (hc : (⟨1, ![M]⟩ : Shape).ShapeCasts ⟨2, ![a, b]⟩)
    (e : Fin n) (r : Fin a) (q : Fin b) (he : r.val * b + q.val = e.val) (hM : e.val < M) :
    shapeCast ⟨2, ![a, b]⟩ (pad ⟨1, ![M]⟩ ![0] ![hi] ![0] x v hp hu) hc (ix2 r q) = x (ix1 e) := by
  refine (shapeCast_apply _ hc (ix2 r q) (ix1 (⟨e.val, hM⟩ : Fin M)) (by
    rw [Shape.rowMajor_val_one, Shape.rowMajor_val_two]
    show e.val = r.val * b + q.val
    omega)).trans ?_
  exact pad_apply_of_inside _ _ _ x v hp hu _ (ix1 e) (by
    intro k
    have hk : k = 0 := Subsingleton.elim _ _
    subst hk
    show e.val = 0 + e.val * (0 + 1)
    omega)

/-- The matrix unfolded row-major to `M` entries and cut to its first `n`, read at entry `e`. -/
theorem unfoldCut_apply {n M a b : Nat} (y : (⟨2, ![a, b]⟩ : Shape).Idx → α)
    (hc : (⟨2, ![a, b]⟩ : Shape).ShapeCasts ⟨1, ![M]⟩) (hs : (⟨1, ![M]⟩ : Shape).Slices (![0] : Fin 1 → Nat) ⟨1, ![n]⟩)
    (e : Fin n) (r : Fin a) (q : Fin b) (he : r.val * b + q.val = e.val) (hM : e.val < M) :
    extractStridedSlice ⟨1, ![n]⟩ ![0] (shapeCast ⟨1, ![M]⟩ y hc) hs (ix1 e) = y (ix2 r q) := by
  refine (extractStridedSlice_apply _ _ hs (ix1 e) (ix1 (⟨e.val, hM⟩ : Fin M)) (by
    intro k
    have hk : k = 0 := Subsingleton.elim _ _
    subst hk
    show e.val = 0 + e.val
    omega)).trans ?_
  exact shapeCast_apply _ hc _ (ix2 r q) (by
    rw [Shape.rowMajor_val_one, Shape.rowMajor_val_two]
    show r.val * b + q.val = e.val
    omega)

end Cert.Lib.PadFold

end
-- ==== Proof.Layout.lean ====
/-
  The two folded computations of a step, brought back to the vectors (any float instance).

  The kernels work on vectors padded at the end and folded row-major into matrices of 128 lanes; both kernels act
  entry by entry, and the entry (r, q) of a folded vector is the vector's entry r * 128 + q, so folding, acting and
  unfolding is acting on the vectors: the messages are the gathered state times the weights (`messages_eq`), and a
  step's new state is, neuron by neuron, the total plus the bias, kept where the mark is positive and squashed by
  tanh elsewhere (`step_apply`). The padding is never read back: it lies past the cut.
-/
import proofs.«144078_j73942156967974_1_alg».proof.Proof.Net
import proofs.«144078_j73942156967974_1_alg».proof.Proof.LibPadFold

noncomputable section

namespace Cert.KernelIdeal.Net

open Idealize.ShloMosaic Idealize.ShloMosaic.TcCoe Idealize.SL.Sem Idealize.ShloMosaic.ValueIdx
open Cert.KernelIdeal Cert.KernelIdeal.Gen Cert.Lib.PadFold

variable {F : FTy → Type} [FloatOps F]

/-- Entry `e` of a per-synapse vector sits at row `e / 128`, lane `e % 128` of its folded form. -/
theorem foldEdge_apply (x : (⟨S20000000, .f32⟩ : BufTy).Contents (Elt F)) (e : Fin 20000000) (r : Fin 163840) (q : Fin 128)
    (h : r.val * 128 + q.val = e.val) : foldEdge x (ix2 r q) = x (ix1 e) :=
  padFold_apply (n := 20000000) (M := 20971520) (a := 163840) (b := 128) (hi := 971520) x _ _ _ _ e r q h
    (by have := e.isLt; omega)

/-- Entry `e` of an unfolded [163840, 128] array is the array's entry at row `e / 128`, lane `e % 128`. -/
theorem unfoldEdge_apply (y : (⟨S163840x128, .f32⟩ : BufTy).Contents (Elt F)) (e : Fin 20000000) (r : Fin 163840) (q : Fin 128)
    (h : r.val * 128 + q.val = e.val) : unfoldEdge y (ix1 e) = y (ix2 r q) :=
  unfoldCut_apply (n := 20000000) (M := 20971520) (a := 163840) (b := 128) y _ _ e r q h (by have := e.isLt; omega)

/-- The same for a per-neuron vector and its [7813, 128] fold, -/
theorem foldNode_apply (x : (⟨S1000000, .f32⟩ : BufTy).Contents (Elt F)) (e : Fin 1000000) (r : Fin 7813) (q : Fin 128)
    (h : r.val * 128 + q.val = e.val) : foldNode x (ix2 r q) = x (ix1 e) :=
  padFold_apply (n := 1000000) (M := 1000064) (a := 7813) (b := 128) (hi := 64) x _ _ _ _ e r q h
    (by have := e.isLt; omega)

/-- for the marks, -/
theorem foldMark_apply (x : (⟨S1000000, .i32⟩ : BufTy).Contents (Elt F)) (e : Fin 1000000) (r : Fin 7813) (q : Fin 128)
    (h : r.val * 128 + q.val = e.val) : foldMark x (ix2 r q) = x (ix1 e) :=
  padFold_apply (n := 1000000) (M := 1000064) (a := 7813) (b := 128) (hi := 64) x _ _ _ _ e r q h
    (by have := e.isLt; omega)

/-- and the way back. -/
theorem unfoldNode_apply (y : (⟨S7813x128, .f32⟩ : BufTy).Contents (Elt F)) (e : Fin 1000000) (r : Fin 7813) (q : Fin 128)
    (h : r.val * 128 + q.val = e.val) : unfoldNode y (ix1 e) = y (ix2 r q) :=
  unfoldCut_apply (n := 1000000) (M := 1000064) (a := 7813) (b := 128) y _ _ e r q h (by have := e.isLt; omega)

/-- The messages are the gathered state times the weights, synapse by synapse. -/
theorem messages_eq (a1 : (⟨S20000000, .f32⟩ : BufTy).Contents (Elt F)) (a3 : (⟨S20000000, .i32⟩ : BufTy).Contents (Elt F))
    (v : (⟨S1000000, .f32⟩ : BufTy).Contents (Elt F)) : messages a1 a3 v = mulf (gatherSrc a3 v) a1 := by
  funext i
  obtain ⟨e, rfl⟩ : ∃ e : Fin 20000000, i = ix1 e := ⟨i 0, eq_ix1 i⟩
  have he : e.val < 20000000 := e.isLt
  have hrq : (⟨e.val / 128, by omega⟩ : Fin 163840).val * 128 + (⟨e.val % 128, Nat.mod_lt _ (by decide)⟩ : Fin 128).val = e.val := by
    show e.val / 128 * 128 + e.val % 128 = e.val
    omega
  unfold messages
  rw [unfoldEdge_apply _ e _ _ hrq]
  show FloatOps.mulf (foldEdge (gatherSrc a3 v) (ix2 _ _)) (foldEdge a1 (ix2 _ _)) = FloatOps.mulf (gatherSrc a3 v (ix1 e)) (a1 (ix1 e))
  rw [foldEdge_apply _ e _ _ hrq, foldEdge_apply _ e _ _ hrq]

/-- A step's new state at neuron `i`: with s the total of the incoming messages plus the bias, s itself where the mark
    is positive, tanh s elsewhere. -/
theorem step_apply (a1 : (⟨S20000000, .f32⟩ : BufTy).Contents (Elt F)) (a3 a4 : (⟨S20000000, .i32⟩ : BufTy).Contents (Elt F))
    (bias : (⟨S1000000, .f32⟩ : BufTy).Contents (Elt F)) (mark : (⟨S1000000, .i32⟩ : BufTy).Contents (Elt F))
    (v : (⟨S1000000, .f32⟩ : BufTy).Contents (Elt F)) (i : S1000000.Idx) :
    step a1 a3 a4 bias mark v i
      = Scalar.select (IntOp.cmpi .sgt (mark i) 0#32)
          (FloatOps.addf (totals a4 (mulf (gatherSrc a3 v) a1) i) (bias i))
          (FloatOps.tanh (FloatOps.addf (totals a4 (mulf (gatherSrc a3 v) a1) i) (bias i))) := by
  obtain ⟨e, rfl⟩ : ∃ e : Fin 1000000, i = ix1 e := ⟨i 0, eq_ix1 i⟩
  have he : e.val < 1000000 := e.isLt
  have hrq : (⟨e.val / 128, by omega⟩ : Fin 7813).val * 128 + (⟨e.val % 128, Nat.mod_lt _ (by decide)⟩ : Fin 128).val = e.val := by
    show e.val / 128 * 128 + e.val % 128 = e.val
    omega
  unfold step
  rw [unfoldNode_apply _ e _ _ hrq, messages_eq]
  show Scalar.select (IntOp.cmpi .sgt (foldMark mark (ix2 _ _)) 0#32)
      (FloatOps.addf (foldNode (totals a4 (mulf (gatherSrc a3 v) a1)) (ix2 _ _)) (foldNode bias (ix2 _ _)))
      (FloatOps.tanh (FloatOps.addf (foldNode (totals a4 (mulf (gatherSrc a3 v) a1)) (ix2 _ _)) (foldNode bias (ix2 _ _)))) = _
  rw [foldMark_apply _ e _ _ hrq, foldNode_apply _ e _ _ hrq, foldNode_apply _ e _ _ hrq]

end Cert.KernelIdeal.Net

end
-- ==== Proof.LibScatterMark.lean ====
/-
  Two facts about host scatters, for any shapes.

  * A scatter whose body returns the update, fed ONE value `c` at every update position, marks the operand: an
    element some update lands on holds `c`, every other element keeps the operand's value — whatever the order in
    which colliding updates are applied, since they all write the same value (`scatter_const_apply`).
  * On the extended reals an accumulating scatter into `x` is `x` plus the same scatter into zeros, element by
    element: both are the operand's element plus the sum of the updates landing there (`scatterAdd_eq_add_zeros`).
-/
import Idealize.ShloMosaic.PureOps.ShapeOps
import Idealize.ShloMosaic.PureOps.Ideal

noncomputable section

namespace Cert.Lib.ScatterMark

open Idealize.ShloMosaic

variable {α : Type} {s si u : Shape} {w : Nat}

/-- The fold of "write `c` where update `n` lands" over any list of update positions, read at `i`: `c` when some
    position of the list lands on `i`, else what was there. -/
theorem foldl_const_apply (d : ScatterDims s si u) (idx : IVec si w) (c : α) (i : s.Idx) :
    ∀ (L : List (Fin u.numel)) (x : s.Idx → α),
      (L.foldl (fun r n =>
          match d.resultIdx? (u.rowMajor.symm n) idx with
          | some i0 => fun i' => if i' = i0 then c else r i'
          | none => r) x) i
        = if ∃ n ∈ L, d.resultIdx? (u.rowMajor.symm n) idx = some i then c else x i := by
  intro L
  induction L with
  | nil => intro x; simp
  | cons n L ih =>
    intro x
    rw [List.foldl_cons, ih]
    by_cases hL : ∃ n' ∈ L, d.resultIdx? (u.rowMajor.symm n') idx = some i
    · rw [if_pos hL, if_pos]
      obtain ⟨n', hn', h⟩ := hL
      exact ⟨n', List.mem_cons_of_mem _ hn', h⟩
    · rw [if_neg hL]
      cases h : d.resultIdx? (u.rowMajor.symm n) idx with
      | none =>
        rw [if_neg]
        rintro ⟨n', hn', h'⟩
        rcases List.mem_cons.mp hn' with rfl | hn'
        · rw [h] at h'; exact absurd h' (by simp)
        · exact hL ⟨n', hn', h'⟩
      | some i0 =>
        by_cases hi : i = i0
        · subst hi
          rw [if_pos ⟨n, List.mem_cons_self, h⟩]
          simp
        · rw [if_neg]
          · simp [hi]
          · rintro ⟨n', hn', h'⟩
            rcases List.mem_cons.mp hn' with rfl | hn'
            · rw [h] at h'; exact hi (Option.some.inj h').symm
            · exact hL ⟨n', hn', h'⟩

/-- A scatter whose body returns the update, with the one value `c` at every update position, read at `i`: `c` when
    some update lands on `i`, else the operand's element. -/
theorem scatter_const_apply (d : ScatterDims s si u) (x : s.Idx → α) (idx : IVec si w) (c : α) (i : s.Idx) :
    Host.scatter d (fun _ b => b) x idx (fun _ => c) i
      = if ∃ j : u.Idx, d.resultIdx? j idx = some i then c else x i := by
  unfold Host.scatter
  refine (foldl_const_apply d idx c i (List.finRange u.numel) x).trans ?_
  refine if_congr ⟨?_, ?_⟩ rfl rfl
  · rintro ⟨n, -, h⟩; exact ⟨_, h⟩
  · rintro ⟨j, h⟩
    exact ⟨u.rowMajor j, List.mem_finRange _, by rw [Equiv.symm_apply_apply]; exact h⟩

/-- On the extended reals an accumulating scatter into `x` is, element by element, `x` plus the same scatter into
    zeros. -/
theorem scatterAdd_eq_add_zeros (d : ScatterDims s si u) (x : s.Idx → EReal) (idx : IVec si w) (upd : u.Idx → EReal)
    (i : s.Idx) :
    Ideal.hostScatterAdd d x idx upd i = x i + Ideal.hostScatterAdd d (fun _ => (0 : EReal)) idx upd i := by
  unfold Ideal.hostScatterAdd
  rw [zero_add]

end Cert.Lib.ScatterMark

end
-- ==== Proof.Bridge.lean ====
/-
  The bridge, on the extended reals: the idealized reference's step is the idealized kernel program's step.

  Neuron by neuron, the reference keeps, where its boolean mark is set, the total T = (messages accumulated into
  zeros at the destinations) with the biases accumulated ON TOP at the non-input indices, and tanh T elsewhere; the
  kernel keeps, where its integer mark is positive, s = (the same messages accumulated into zeros) + (the biases
  accumulated into zeros), and tanh s elsewhere. An accumulating scatter is the operand plus the sum of the updates
  landing on the element, so T = accumulated messages + (0 + landed biases) = s: zero is neutral, nothing else is
  used, and no finiteness is needed. The marks agree: both are a constant scattered over a zero array at the same
  indices, so the boolean mark is set exactly where the integer mark is one, that is, positive.
-/
import proofs.«144078_j73942156967974_1_alg».proof.Proof.RefNet
import proofs.«144078_j73942156967974_1_alg».proof.Proof.Layout
import proofs.«144078_j73942156967974_1_alg».proof.Proof.LibScatterMark
import Idealize.ShloMosaic.PureOps.Ideal.Laws

set_option maxRecDepth 16384

noncomputable section

namespace Cert.Bridge

open Idealize.ShloMosaic Idealize.ShloMosaic.TcCoe Idealize.SL.Sem
open Cert.KernelIdeal Cert.KernelIdeal.Gen Cert.Lib.ScatterMark

/-- At the extended reals a host accumulating scatter into `x` is `x` plus the same scatter into zeros. -/
theorem hostScatterAdd_split {s si u : Shape} {w : Nat} (d : ScatterDims s si u) (x : FVec Ideal s .f32) (idx : IVec si w)
    (upd : FVec Ideal u .f32) (i : s.Idx) :
    Host.scatterAdd d x idx upd i = x i + Host.scatterAdd d (fun _ => (0 : EReal)) idx upd i :=
  scatterAdd_eq_add_zeros d x idx upd i

/-- The kernel program's zero state is zero at every neuron. -/
theorem zerosN_eq : (Net.zerosN (F := Ideal)) = fun _ => (0 : EReal) :=
  funext fun _ => Ideal.ofBits_zero_f32

variable (x0 : (⟨S4096, .f32⟩ : BufTy).Contents (Elt Ideal)) (x1 : (⟨S20000000, .f32⟩ : BufTy).Contents (Elt Ideal))
  (x2 : (⟨S995904, .f32⟩ : BufTy).Contents (Elt Ideal)) (x3 x4 : (⟨S20000000, .i32⟩ : BufTy).Contents (Elt Ideal))
  (x5 x6 : (⟨S4096, .i32⟩ : BufTy).Contents (Elt Ideal)) (x7 : (⟨S995904, .i32⟩ : BufTy).Contents (Elt Ideal))
  (v : (⟨S1000000, .f32⟩ : BufTy).Contents (Elt Ideal))

/-- The accumulated biases at neuron `i`, with the zero operand spelt as zero. -/
theorem bias_eq (i : S1000000.Idx) :
    Net.biasAll (F := Ideal) x7 x2 i
      = Host.scatterAdd (F := Ideal) (φ := .f32) scatter_S1000000_S995904x1_S995904_n_0_0_1 (fun _ => (0 : EReal)) (Net.wrapRest (F := Ideal) x7) x2 i := by
  unfold Net.biasAll
  rw [zerosN_eq]

/-- The reference's total at neuron `i` is the kernel program's accumulated messages plus its accumulated biases. -/
theorem total_agree (i : S1000000.Idx) :
    Net.refTotal (F := Ideal) x1 x2 x3 x4 x7 v i
      = Net.totals (F := Ideal) x4 (mulf (F := Ideal) (s := S20000000) (φ := .f32) (Net.gatherSrc (F := Ideal) x3 v) x1) i + Net.biasAll (F := Ideal) x7 x2 i := by
  rw [bias_eq]
  exact hostScatterAdd_split _ _ _ _ i

/-- The reference's boolean mark at neuron `i` is set exactly where the kernel program's integer mark is positive. -/
theorem marks_agree (i : S1000000.Idx) :
    Net.marksB (F := Ideal) x6 i = IntOp.cmpi .sgt (Net.marks (F := Ideal) x6 i) 0#32 := by
  have eB : Net.marksB (F := Ideal) x6
      = Host.scatter scatter_S1000000_S4096x1_S4096_n_0_0_1 (fun _ b => b) (fun _ => (0#1 : BitVec 1)) (Net.wrapIn (F := Ideal) x6) (fun _ => (1#1 : BitVec 1)) := rfl
  have eK : Net.marks (F := Ideal) x6
      = Host.scatter scatter_S1000000_S4096x1_S4096_n_0_0_1 (fun _ b => b) (fun _ => (0#32 : BitVec 32)) (Net.wrapIn (F := Ideal) x6) (fun _ => (1#32 : BitVec 32)) := rfl
  rw [eB, eK, scatter_const_apply, scatter_const_apply]
  rcases Classical.em (∃ j, scatter_S1000000_S4096x1_S4096_n_0_0_1.resultIdx? j (Net.wrapIn (F := Ideal) x6) = some i) with h | h
  · rw [if_pos h, if_pos h]; rfl
  · rw [if_neg h, if_neg h]; rfl

/-- The reference's step at neuron `i`: the total where the mark is set, its tanh elsewhere. -/
theorem refStep_apply {F : FTy → Type} [FloatOps F] (mask : (⟨S1000000, .i1⟩ : BufTy).Contents (Elt F))
    (a1 : (⟨S20000000, .f32⟩ : BufTy).Contents (Elt F)) (a2 : (⟨S995904, .f32⟩ : BufTy).Contents (Elt F))
    (a3 a4 : (⟨S20000000, .i32⟩ : BufTy).Contents (Elt F)) (a7 : (⟨S995904, .i32⟩ : BufTy).Contents (Elt F))
    (u : (⟨S1000000, .f32⟩ : BufTy).Contents (Elt F)) (i : S1000000.Idx) :
    Net.refStep mask a1 a2 a3 a4 a7 u i
      = Scalar.select (mask i) (Net.refTotal a1 a2 a3 a4 a7 u i) (FloatOps.hostUnary .tanh (Net.refTotal a1 a2 a3 a4 a7 u i)) := rfl

/-- The reference's step is the kernel program's step. -/
theorem step_agree :
    Net.refStep (F := Ideal) (Net.marksB (F := Ideal) x6) x1 x2 x3 x4 x7 v
      = Net.step (F := Ideal) x1 x3 x4 (Net.biasAll (F := Ideal) x7 x2) (Net.marks (F := Ideal) x6) v := by
  funext i
  rw [Net.step_apply, refStep_apply, marks_agree, total_agree]
  generalize IntOp.cmpi .sgt (Net.marks (F := Ideal) x6 i) 0#32 = k
  generalize Net.totals (F := Ideal) x4 (mulf (F := Ideal) (s := S20000000) (φ := .f32) (Net.gatherSrc (F := Ideal) x3 v) x1) i = A
  generalize Net.biasAll (F := Ideal) x7 x2 i = B
  rfl

/-- The reference's result is the kernel program's result, as functions of the argument arrays. -/
theorem result_agree :
    Net.refResult (F := Ideal) x0 x1 x2 x3 x4 x5 x6 x7 = Net.result (F := Ideal) x0 x1 x2 x3 x4 x5 x6 x7 := by
  unfold Net.refResult Net.result
  rw [step_agree, step_agree, step_agree]

end Cert.Bridge

end
-- ==== Proof.lean ====
/-
  The certificate of the spiking-network kernel against its reference.

  The kernel program runs three network steps; each step is two kernel launches — the per-synapse product of the
  gathered state and the weights, and the per-neuron "add the bias, squash by tanh except at the output neurons" —
  among host gathers and accumulating scatters. The reference does the same steps on the host alone, adding the
  biases by a second accumulating scatter on top of the message totals and masking with booleans.

  Frames: the generated frame certificates for the two kernel programs; the reference's run with the
  result dropped. The idealization rewrote nothing, so `preserves` asks nothing. Algebraic: the kernel program's
  result buffer read through the fold of @main is `Net.result` of the argument arrays (Proof/KernelValue.lean, over
  the six regions' closed forms), the reference's run ends at three applications of its own
  step to the same initial state (Proof/RefRead.lean), and the two steps are one function on the extended reals (Proof/Bridge.lean).
-/
import proofs.«144078_j73942156967974_1_alg».proof.Defs
import proofs.«144078_j73942156967974_1_alg».proof.Proof.Gen.Kernel
import proofs.«144078_j73942156967974_1_alg».proof.Proof.Gen.Kernel.Skeleton
import proofs.«144078_j73942156967974_1_alg».proof.Proof.Gen.Kernel.Launch
import proofs.«144078_j73942156967974_1_alg».proof.Proof.Gen.Kernel.Points
import proofs.«144078_j73942156967974_1_alg».proof.Proof.Gen.Kernel.Frame
import proofs.«144078_j73942156967974_1_alg».proof.Proof.Gen.KernelIdeal
import proofs.«144078_j73942156967974_1_alg».proof.Proof.Gen.KernelIdeal.Skeleton
import proofs.«144078_j73942156967974_1_alg».proof.Proof.Gen.KernelIdeal.Launch
import proofs.«144078_j73942156967974_1_alg».proof.Proof.Gen.KernelIdeal.Points
import proofs.«144078_j73942156967974_1_alg».proof.Proof.Gen.KernelIdeal.Frame
import proofs.«144078_j73942156967974_1_alg».proof.Proof.Gen.ReferenceIdeal
import proofs.«144078_j73942156967974_1_alg».proof.Proof.Gen.Pre_finite_inputs
import proofs.«144078_j73942156967974_1_alg».proof.Proof.RefRead
import proofs.«144078_j73942156967974_1_alg».proof.Proof.ResultRun
import proofs.«144078_j73942156967974_1_alg».proof.Proof.KernelValue
import proofs.«144078_j73942156967974_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.HandRun.run (F := Ideal) m ρ)

/-- Both idealized programs, from memories agreeing on the arguments, end with the same result: the kernel
    program's result buffer holds `Net.result` of the arguments, and the reference's composed term is that function. -/
theorem algebraic : Cert.algebraic_KernelIdeal_ReferenceIdeal := by
  intro m ρ m' ρ' _ hagree
  refine ⟨fun c => Cert.KernelIdeal.Gen.W43 m ρ c (Proc.devRef .tc Cert.KernelIdeal.main_v109),
    Cert.KernelIdeal.ResultRun.run_result (F := Ideal) m ρ, ?_⟩
  refine (θ_run Cert.ReferenceIdeal.defs _ _).mono (fun _ h c => ⟨(h c).1.trans ?_, (h c).2⟩)
    (Cert.ReferenceIdeal.HandRun.run (F := Ideal) m' ρ')
  show _ = Cert.KernelIdeal.Gen.W43 m ρ c (Proc.devRef .tc Cert.KernelIdeal.main_v109)
  rw [(hagree c).1, (hagree c).2.1, (hagree c).2.2.1, (hagree c).2.2.2.1,
    (hagree c).2.2.2.2.1, (hagree c).2.2.2.2.2.1, (hagree c).2.2.2.2.2.2.1, (hagree c).2.2.2.2.2.2.2,
    Cert.KernelIdeal.Fold.value]
  exact Cert.Bridge.result_agree _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
